-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x640000 : Shape := ⟨2, ![2, 640000]⟩
abbrev S6x128 : Shape := ⟨2, ![6, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S6x128 : S_.BroadcastsInDim S6x128 (![] : Fin 0 → Fin S6x128.rank)
  reducesTo_S6x128_S_d0_1 : S6x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x1 .f32) (main_arg7 : FVec F S1 .f32) (main_arg8 : FVec F S128 .f32) (main_arg9 : FVec F S128 .f32) (main_arg10 : FVec F S128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x6 .f32) (main_arg1 : IVec S2x640000 32) (main_arg2 : FVec F S6x128 .f32) (main_arg3 : FVec F S128 .f32) (main_arg4 : FVec F S128x128 .f32) (main_arg5 : FVec F S128 .f32) (main_arg6 : FVec F S128x1 .f32) (main_arg7 : FVec F S1 .f32) (main_arg8 : FVec F S128 .f32) (main_arg9 : FVec F S128 .f32) (main_arg10 : FVec F S128 .f32) (main_arg11 : FVec F S128 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S6x128 .f32 := Host.absf main_arg2
  let main_cst_0 : FVec F S_ .f32 := constant S_ .f32 0x7F800000#32
  let main_v5 : FVec F S6x128 .f32 := broadcastInDim S6x128 ![] bcast_S_S6x128 main_cst_0
  let main_v6 : IVec S6x128 1 := cmpf .olt main_v4 main_v5
  let main_c_1 : IVec S_ 1 := constantI S_ 1 1#1
  let main_v7 : IVec S_ 1 := (fun x v => Host.reduce IntOp.andi x v reducesTo_S6x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x6 : Shape := ⟨2, ![100000, 6]⟩
abbrev S2x640000 : Shape := ⟨2, ![2, 640000]⟩
abbrev S6x128 : Shape := ⟨2, ![6, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S100000x128 : Shape := ⟨2, ![100000, 128]⟩
abbrev S10000x6 : Shape := ⟨2, ![10000, 6]⟩
abbrev S10000x128 : Shape := ⟨2, ![10000, 128]⟩
abbrev S740000x128 : Shape := ⟨2, ![740000, 128]⟩
abbrev S10000x1 : Shape := ⟨2, ![10000, 1]⟩
abbrev S1x128 : Shape := ⟨2, ![1, 128]⟩
abbrev S100000x1 : Shape := ⟨2, ![100000, 1]⟩
abbrev S1x1 : Shape := ⟨2, ![1, 1]⟩

abbrev nBuf : Space → Nat
  | .hbm => 174
  | .vmem => 56
  | .smem => 0
  | _ => 0

abbrev hbmTy0_0 (i : Nat) : BufTy := match i % 128 with
  | 0 => ⟨S100000x6, .f32⟩
  | 1 => ⟨S2x640000, .i32⟩
  | 2 => ⟨S6x128, .f32⟩
  | 3 => ⟨S128, .f32⟩
  | 4 => ⟨S128x128, .f32⟩
  | 5 => ⟨S128, .f32⟩
  | 6 => ⟨S128x1, .f32⟩
  | 7 => ⟨S1, .f32⟩
  | 8 => ⟨S128, .f32⟩
  | 9 => ⟨S128, .f32⟩
  | 10 => ⟨S128, .f32⟩
  | 11 => ⟨S128, .f32⟩
  | 12 => ⟨S100000, .i32⟩
  | 13 => ⟨S1x640000, .i32⟩
  | 14 => ⟨S640000, .i32⟩
  | 15 => ⟨S740000, .i32⟩
  | 16 => ⟨S1x640000, .i32⟩
  | 17 => ⟨S640000, .i32⟩
  | 18 => ⟨S740000, .i32⟩
  | 19 => ⟨S_, .f32⟩
  | 20 => ⟨S740000, .f32⟩
  | 21 => ⟨S_, .f32⟩
  | 22 => ⟨S100000, .f32⟩
  | 23 => ⟨S740000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S740000, .i32⟩
  | 35 => ⟨S740000, .i1⟩
  | 36 => ⟨S_, .i32⟩
  | 37 => ⟨S740000, .i32⟩
  | 38 => ⟨S740000, .i32⟩
  | 39 => ⟨S740000, .i32⟩
  | 40 => ⟨S740000x1, .i32⟩
  | 41 => ⟨S740000, .f32⟩
  | 42 => ⟨S_, .i32⟩
  | 43 => ⟨S740000, .i32⟩
  | 44 => ⟨S740000, .i1⟩
  | 45 => ⟨S_, .i32⟩
  | 46 => ⟨S740000, .i32⟩
  | 47 => ⟨S740000, .i32⟩
  | 48 => ⟨S740000, .i32⟩
  | 49 => ⟨S740000x1, .i32⟩
  | 50 => ⟨S740000, .f32⟩
  | 51 => ⟨S740000, .f32⟩
  | 52 => ⟨S740000x1, .f32⟩
  | 53 => ⟨S100000x128, .f32⟩
  | 54 => ⟨S_, .i32⟩
  | 55 => ⟨S740000, .i32⟩
  | 56 => ⟨S740000, .i1⟩
  | 57 => ⟨S_, .i32⟩
  | 58 => ⟨S740000, .i32⟩
  | 59 => ⟨S740000, .i32⟩
  | 60 => ⟨S740000, .i32⟩
  | 61 => ⟨S740000x1, .i32⟩
  | 62 => ⟨S740000x128, .f32⟩
  | 63 => ⟨S740000x128, .f32⟩
  | 64 => ⟨S_, .f32⟩
  | 65 => ⟨S100000x128, .f32⟩
  | 66 => ⟨S740000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S128, .f32⟩
  | 73 => ⟨S_, .f32⟩
  | 74 => ⟨S128, .f32⟩
  | 75 => ⟨S128, .f32⟩
  | 76 => ⟨S1x128, .f32⟩
  | 77 => ⟨S_, .i32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S100000x128, .f32⟩
  | 85 => ⟨S100000x128, .f32⟩
  | 86 => ⟨S100000x128, .f32⟩
  | 87 => ⟨S_, .f32⟩
  | 88 => ⟨S_, .f32⟩
  | 89 => ⟨S_, .f32⟩
  | 90 => ⟨S_, .f32⟩
  | 91 => ⟨S128, .f32⟩
  | 92 => ⟨S128, .f32⟩
  | 93 => ⟨S128, .f32⟩
  | 94 => ⟨S_, .f32⟩
  | 95 => ⟨S_, .i1⟩
  | 96 => ⟨S_, .f32⟩
  | 97 => ⟨S_, .f32⟩
  | 98 => ⟨S128, .f32⟩
  | 99 => ⟨S128, .f32⟩
  | 100 => ⟨S1x128, .f32⟩
  | 101 => ⟨S1x128, .f32⟩
  | 102 => ⟨S1x128, .f32⟩
  | 103 => ⟨S1x128, .f32⟩
  | 104 => ⟨S100000x128, .f32⟩
  | 105 => ⟨S100000x128, .f32⟩
  | 106 => ⟨S_, .i32⟩
  | 107 => ⟨S740000, .i32⟩
  | 108 => ⟨S740000, .i1⟩
  | 109 => ⟨S_, .i32⟩
  | 110 => ⟨S740000, .i32⟩
  | 111 => ⟨S740000, .i32⟩
  | 112 => ⟨S740000, .i32⟩
  | 113 => ⟨S740000x1, .i32⟩
  | 114 => ⟨S740000x128, .f32⟩
  | 115 => ⟨S740000x128, .f32⟩
  | 116 => ⟨S_, .f32⟩
  | 117 => ⟨S100000x128, .f32⟩
  | 118 => ⟨S740000x1, .i32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S128, .f32⟩
  | 125 => ⟨S_, .f32⟩
  | 126 => ⟨S128, .f32⟩
  | 127 => ⟨S128, .f32⟩
  | _ => ⟨S100000x6, .f32⟩

abbrev hbmTy0_1 (i : Nat) : BufTy := match i % 128 with
  | 0 => ⟨S1x128, .f32⟩
  | 1 => ⟨S_, .i32⟩
  | 2 => ⟨S_, .f32⟩
  | 3 => ⟨S128, .f32⟩
  | 4 => ⟨S1x128, .f32⟩
  | 5 => ⟨S_, .f32⟩
  | 6 => ⟨S1x128, .f32⟩
  | 7 => ⟨S1x128, .f32⟩
  | 8 => ⟨S100000x128, .f32⟩
  | 9 => ⟨S100000x128, .f32⟩
  | 10 => ⟨S100000x128, .f32⟩
  | 11 => ⟨S_, .f32⟩
  | 12 => ⟨S_, .f32⟩
  | 13 => ⟨S_, .f32⟩
  | 14 => ⟨S_, .f32⟩
  | 15 => ⟨S128, .f32⟩
  | 16 => ⟨S128, .f32⟩
  | 17 => ⟨S128, .f32⟩
  | 18 => ⟨S_, .f32⟩
  | 19 => ⟨S_, .i1⟩
  | 20 => ⟨S_, .f32⟩
  | 21 => ⟨S_, .f32⟩
  | 22 => ⟨S128, .f32⟩
  | 23 => ⟨S128, .f32⟩
  | 24 => ⟨S1x128, .f32⟩
  | 25 => ⟨S1x128, .f32⟩
  | 26 => ⟨S1x128, .f32⟩
  | 27 => ⟨S1x128, .f32⟩
  | 28 => ⟨S100000x128, .f32⟩
  | 29 => ⟨S100000x1, .f32⟩
  | 30 => ⟨S_, .i32⟩
  | 31 => ⟨S740000, .i32⟩
  | 32 => ⟨S740000, .i1⟩
  | 33 => ⟨S_, .i32⟩
  | 34 => ⟨S740000, .i32⟩
  | 35 => ⟨S740000, .i32⟩
  | 36 => ⟨S740000, .i32⟩
  | 37 => ⟨S740000x1, .i32⟩
  | 38 => ⟨S740000x1, .f32⟩
  | 39 => ⟨S740000x1, .f32⟩
  | 40 => ⟨S_, .f32⟩
  | 41 => ⟨S100000x1, .f32⟩
  | 42 => ⟨S740000x1, .i32⟩
  | 43 => ⟨S100000x1, .f32⟩
  | 44 => ⟨S1x1, .f32⟩
  | 45 => ⟨S100000x1, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | .local _ .vmem, ⟨0, _⟩ => ⟨S10000x6, .f32⟩
  | .local _ .vmem, ⟨1, _⟩ => ⟨S10000x6, .f32⟩
  | .local _ .vmem, ⟨2, _⟩ => ⟨S6x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S10000x1, .f32⟩
  | .local _ .vmem, ⟨28, _⟩ => ⟨S10000x1, .f32⟩
  | .local _ .vmem, ⟨29, _⟩ => ⟨S10000x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S10000x128, .f32⟩
  | .local _ .vmem, ⟨39, _⟩ => ⟨S10000x128, .f32⟩
  | .local _ .vmem, ⟨40, _⟩ => ⟨S10000x128, .f32⟩
  | .local _ .vmem, ⟨41, _⟩ => ⟨S10000x128, .f32⟩
  | .local _ .vmem, ⟨42, _⟩ => ⟨S128x1, .f32⟩
  | .local _ .vmem, ⟨43, _⟩ => ⟨S10000x1, .f32⟩
  | .local _ .vmem, ⟨44, _⟩ => ⟨S10000x1, .f32⟩
  | .local _ .vmem, ⟨45, _⟩ => ⟨S10000x1, .f32⟩
  | .local _ .vmem, ⟨46, _⟩ => ⟨S10000x1, .f32⟩
  | .local _ .vmem, ⟨47, _⟩ => ⟨S10000x1, .f32⟩
  | .local _ .vmem, ⟨48, _⟩ => ⟨S10000x1, .f32⟩
  | .local _ .vmem, ⟨49, _⟩ => ⟨S10000x1, .f32⟩
  | .local _ .vmem, ⟨50, _⟩ => ⟨S10000x1, .f32⟩
  | .local _ .vmem, ⟨51, _⟩ => ⟨S10000x1, .f32⟩
  | .local _ .vmem, ⟨52, _⟩ => ⟨S10000x1, .f32⟩
  | .local _ .vmem, ⟨53, _⟩ => ⟨S1x1, .f32⟩
  | .local _ .vmem, ⟨54, _⟩ => ⟨S10000x1, .f32⟩
  | .local _ .vmem, ⟨55, _⟩ => ⟨S10000x1, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_11 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_cst_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_cst_1 : Ref sig .tc := ⟨.hbm, 88, rfl⟩
abbrev main_call1_v8 : Ref sig .tc := ⟨.hbm, 89, rfl⟩
abbrev main_call1_cst_2 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_cst_3 : Ref sig .tc := ⟨.hbm, 94, rfl⟩
abbrev main_call1_v12 : Ref sig .tc := ⟨.hbm, 95, rfl⟩
abbrev main_call1_cst_4 : Ref sig .tc := ⟨.hbm, 96, rfl⟩
abbrev main_call1_call0_v0 : Ref sig .tc := ⟨.hbm, 97, rfl⟩
abbrev main_call1_call0_v1 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_c_12 : Ref sig .tc := ⟨.hbm, 106, rfl⟩
abbrev main_v57 : Ref sig .tc := ⟨.hbm, 107, rfl⟩
abbrev main_v58 : Ref sig .tc := ⟨.hbm, 108, rfl⟩
abbrev main_c_13 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_cst_14 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_cst_15 : Ref sig .tc := ⟨.hbm, 123, rfl⟩
abbrev main_v71 : Ref sig .tc := ⟨.hbm, 124, rfl⟩
abbrev main_cst_16 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_c_17 : Ref sig .tc := ⟨.hbm, 129, rfl⟩
abbrev main_call2_cst : Ref sig .tc := ⟨.hbm, 130, rfl⟩
abbrev main_call2_v0 : Ref sig .tc := ⟨.hbm, 131, rfl⟩
abbrev main_call2_v1 : Ref sig .tc := ⟨.hbm, 132, rfl⟩
abbrev main_call2_cst_0 : Ref sig .tc := ⟨.hbm, 133, rfl⟩
abbrev main_call2_v2 : Ref sig .tc := ⟨.hbm, 134, rfl⟩
abbrev main_call2_v3 : Ref sig .tc := ⟨.hbm, 135, rfl⟩
abbrev main_call2_v4 : Ref sig .tc := ⟨.hbm, 136, rfl⟩
abbrev main_call2_v5 : Ref sig .tc := ⟨.hbm, 137, rfl⟩
abbrev main_call2_v6 : Ref sig .tc := ⟨.hbm, 138, rfl⟩
abbrev main_call2_v7 : Ref sig .tc := ⟨.hbm, 139, rfl⟩
abbrev main_call2_cst_1 : Ref sig .tc := ⟨.hbm, 140, rfl⟩
abbrev main_call2_v8 : Ref sig .tc := ⟨.hbm, 141, rfl⟩
abbrev main_call2_cst_2 : Ref sig .tc := ⟨.hbm, 142, rfl⟩
abbrev main_call2_v9 : Ref sig .tc := ⟨.hbm, 143, rfl⟩
abbrev main_call2_v10 : Ref sig .tc := ⟨.hbm, 144, rfl⟩
abbrev main_call2_v11 : Ref sig .tc := ⟨.hbm, 145, rfl⟩
abbrev main_call2_cst_3 : Ref sig .tc := ⟨.hbm, 146, rfl⟩
abbrev main_call2_v12 : Ref sig .tc := ⟨.hbm, 147, rfl⟩
abbrev main_call2_cst_4 : Ref sig .tc := ⟨.hbm, 148, rfl⟩
abbrev main_call2_call0_v0 : Ref sig .tc := ⟨.hbm, 149, rfl⟩
abbrev main_call2_call0_v1 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_c_18 : Ref sig .tc := ⟨.hbm, 158, rfl⟩
abbrev main_v82 : Ref sig .tc := ⟨.hbm, 159, rfl⟩
abbrev main_v83 : Ref sig .tc := ⟨.hbm, 160, rfl⟩
abbrev main_c_19 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_cst_20 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg5_0 : Ref sig .tc := ⟨.vmem, 37, rfl⟩
abbrev cc5_stg6_0 : Ref sig .tc := ⟨.vmem, 38, rfl⟩
abbrev cc5_stg6_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg1_1 : Ref sig .tc := ⟨.vmem, 48, rfl⟩
abbrev cc7_stg2_0 : Ref sig .tc := ⟨.vmem, 49, rfl⟩
abbrev cc7_stg2_1 : Ref sig .tc := ⟨.vmem, 50, rfl⟩
abbrev cc8_stg0_0 : Ref sig .tc := ⟨.vmem, 51, rfl⟩
abbrev cc8_stg0_1 : Ref sig .tc := ⟨.vmem, 52, rfl⟩
abbrev cc8_stg1_0 : Ref sig .tc := ⟨.vmem, 53, rfl⟩
abbrev cc8_stg2_0 : Ref sig .tc := ⟨.vmem, 54, rfl⟩
abbrev cc8_stg2_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem5_0 : DmaSem sig := 37
abbrev cc5_sem6_0 : DmaSem sig := 38
abbrev cc5_sem6_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem1_1 : DmaSem sig := 48
abbrev cc7_sem2_0 : DmaSem sig := 49
abbrev cc7_sem2_1 : DmaSem sig := 50
abbrev cc8_sem0_0 : DmaSem sig := 51
abbrev cc8_sem0_1 : DmaSem sig := 52
abbrev cc8_sem1_0 : DmaSem sig := 53
abbrev cc8_sem2_0 : DmaSem sig := 54
abbrev cc8_sem2_1 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![74], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![74], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![74], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x1 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x1 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  shapeCasts_S740000_S740000x1 : S740000.ShapeCasts S740000x1
  inb_S10000x6_S10000x6_0_0 : ∀ a, (![0, 0] : Fin 2 → Nat) a + S10000x6.size a ≤ S10000x6.size a
  h_S10000x6 : 0 < S10000x6.numel
  bitsLt_bf16_f32 : FTy.bits .bf16 < FTy.bits .f32
  inb_S6x128_S6x128_0_0 : ∀ a, (![0, 0] : Fin 2 → Nat) a + S6x128.size a ≤ S6x128.size a
  h_S6x128 : 0 < S6x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  shapeCasts_S128_S1x128 : S128.ShapeCasts S1x128
  bcast_S_S1x128 : S_.BroadcastsInDim S1x128 (![] : Fin 0 → Fin S1x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  bcast_S_S100000x1 : S_.BroadcastsInDim S100000x1 (![] : Fin 0 → Fin S100000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S10000x6_S6x128_S10000x128_1_0_0_1_n_n_wf : DotDims.WF S10000x6 S6x128 S10000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []
  gather_S100000x1_S740000x1_S740000x1_1_0_n_n_0_1_11_wf : GatherDims.WF S100000x1 S740000x1 S740000x1 [1] [0] [] [0] [] 1 ![1, 1]
  scatter_S100000x1_S740000x1_S740000x1_1_0_0_1_wf : ScatterDims.WF S100000x1 S740000x1 S740000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x6.size a ≤ S100000x6.size a
  hwx0_0 : ∀ i : grid0.Coords, EltTy.bits .f32 = 32 ∨ (Rect.block (s := S100000x6) S10000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x128.size a ≤ S6x128.size a
  hwx0_1 : ∀ i : grid0.Coords, EltTy.bits .f32 = 32 ∨ (Rect.block (s := S6x128) S6x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S740000x128.size a
  hwx1_0 : ∀ i : grid1.Coords, EltTy.bits .f32 = 32 ∨ (Rect.block (s := S740000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S740000x1.size a
  hwx1_1 : ∀ i : grid1.Coords, EltTy.bits .f32 = 32 ∨ (Rect.block (s := S740000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S740000x128.size a
  hwx1_2 : ∀ i : grid1.Coords, EltTy.bits .f32 = 32 ∨ (Rect.block (s := S740000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x128.size a ≤ S100000x128.size a
  hwx2_6 : ∀ i : grid2.Coords, EltTy.bits .f32 = 32 ∨ (Rect.block (s := S100000x128) S10000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S740000x128.size a
  hwx4_0 : ∀ i : grid4.Coords, EltTy.bits .f32 = 32 ∨ (Rect.block (s := S740000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S740000x1.size a
  hwx4_1 : ∀ i : grid4.Coords, EltTy.bits .f32 = 32 ∨ (Rect.block (s := S740000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S740000x128.size a
  hwx4_2 : ∀ i : grid4.Coords, EltTy.bits .f32 = 32 ∨ (Rect.block (s := S740000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x128.size a ≤ S100000x128.size a
  hwx5_6 : ∀ i : grid5.Coords, EltTy.bits .f32 = 32 ∨ (Rect.block (s := S100000x128) S10000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x1.size a ≤ S128x1.size a
  hwx6_1 : ∀ i : grid6.Coords, EltTy.bits .f32 = 32 ∨ (Rect.block (s := S128x1) S128x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x1.size a ≤ S100000x1.size a
  hwx6_2 : ∀ i : grid6.Coords, EltTy.bits .f32 = 32 ∨ (Rect.block (s := S100000x1) S10000x1.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x1.size a ≤ S740000x1.size a
  hwx7_0 : ∀ i : grid7.Coords, EltTy.bits .f32 = 32 ∨ (Rect.block (s := S740000x1) S10000x1.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x1.size a ≤ S740000x1.size a
  hwx7_1 : ∀ i : grid7.Coords, EltTy.bits .f32 = 32 ∨ (Rect.block (s := S740000x1) S10000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x1.size a ≤ S740000x1.size a
  hwx7_2 : ∀ i : grid7.Coords, EltTy.bits .f32 = 32 ∨ (Rect.block (s := S740000x1) S10000x1.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x1.size a ≤ S100000x1.size a
  hwx8_0 : ∀ i : grid8.Coords, EltTy.bits .f32 = 32 ∨ (Rect.block (s := S100000x1) S10000x1.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x1.size a ≤ S1x1.size a
  hwx8_1 : ∀ i : grid8.Coords, EltTy.bits .f32 = 32 ∨ (Rect.block (s := S1x1) S1x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x1.size a ≤ S100000x1.size a
  hwx8_2 : ∀ i : grid8.Coords, EltTy.bits .f32 = 32 ∨ (Rect.block (s := S100000x1) S10000x1.size (cc8_transform_2 i) (hinb8_2 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S10000x6_S6x128_S10000x128_1_0_0_1_n_n : DotDims S10000x6 S6x128 S10000x128 where
  lhsContracting := [1]
  rhsContracting := [0]
  lhsNonContracting := [0]
  rhsNonContracting := [1]
  lhsBatch := []
  rhsBatch := []
  wf := dot_S10000x6_S6x128_S10000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def gather_S100000x1_S740000x1_S740000x1_1_0_n_n_0_1_11 : GatherDims S100000x1 S740000x1 S740000x1 where
  offsetDims := [1]
  collapsedSliceDims := [0]
  operandBatchingDims := []
  startIndicesBatchingDims := []
  startIndexMap := [0]
  indexVectorDim := 1
  sliceSizes := ![1, 1]
  wf := gather_S100000x1_S740000x1_S740000x1_1_0_n_n_0_1_11_wf
def scatter_S100000x1_S740000x1_S740000x1_1_0_0_1 : ScatterDims S100000x1 S740000x1 S740000x1 where
  updateWindowDims := [1]
  insertedWindowDims := [0]
  scatterDimsToOperandDims := [0]
  indexVectorDim := 1
  wf := scatter_S100000x1_S740000x1_S740000x1_1_0_0_1_wf

abbrev win0_0 : Pipeline.Window sig grid0 :=
  Pipeline.Window.ofSpec (Memref.whole main_arg0) S10000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S10000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v55) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v67) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v76) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v78) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v79) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v80) S10000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v80) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S128x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v81) S10000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v88) S10000x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v30) S10000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v89) S10000x1.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v92) S10000x1.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v93) S1x1.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v94) S10000x1.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S100000x6 : Shape := ⟨2, ![100000, 6]⟩
abbrev S2x640000 : Shape := ⟨2, ![2, 640000]⟩
abbrev S6x128 : Shape := ⟨2, ![6, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S100000x128 : Shape := ⟨2, ![100000, 128]⟩
abbrev S740000x128 : Shape := ⟨2, ![740000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 213
  | .vmem => 0
  | .smem => 0
  | _ => 0

abbrev hbmTy0_0 (i : Nat) : BufTy := match i % 128 with
  | 0 => ⟨S100000x6, .f32⟩
  | 1 => ⟨S2x640000, .i32⟩
  | 2 => ⟨S6x128, .f32⟩
  | 3 => ⟨S128, .f32⟩
  | 4 => ⟨S128x128, .f32⟩
  | 5 => ⟨S128, .f32⟩
  | 6 => ⟨S128x1, .f32⟩
  | 7 => ⟨S1, .f32⟩
  | 8 => ⟨S128, .f32⟩
  | 9 => ⟨S128, .f32⟩
  | 10 => ⟨S128, .f32⟩
  | 11 => ⟨S128, .f32⟩
  | 12 => ⟨S100000, .i32⟩
  | 13 => ⟨S1x640000, .i32⟩
  | 14 => ⟨S640000, .i32⟩
  | 15 => ⟨S740000, .i32⟩
  | 16 => ⟨S1x640000, .i32⟩
  | 17 => ⟨S640000, .i32⟩
  | 18 => ⟨S740000, .i32⟩
  | 19 => ⟨S_, .f32⟩
  | 20 => ⟨S740000, .f32⟩
  | 21 => ⟨S_, .f32⟩
  | 22 => ⟨S100000, .f32⟩
  | 23 => ⟨S740000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S740000, .i32⟩
  | 35 => ⟨S740000, .i1⟩
  | 36 => ⟨S_, .i32⟩
  | 37 => ⟨S740000, .i32⟩
  | 38 => ⟨S740000, .i32⟩
  | 39 => ⟨S740000, .i32⟩
  | 40 => ⟨S740000x1, .i32⟩
  | 41 => ⟨S740000, .f32⟩
  | 42 => ⟨S_, .i32⟩
  | 43 => ⟨S740000, .i32⟩
  | 44 => ⟨S740000, .i1⟩
  | 45 => ⟨S_, .i32⟩
  | 46 => ⟨S740000, .i32⟩
  | 47 => ⟨S740000, .i32⟩
  | 48 => ⟨S740000, .i32⟩
  | 49 => ⟨S740000x1, .i32⟩
  | 50 => ⟨S740000, .f32⟩
  | 51 => ⟨S740000, .f32⟩
  | 52 => ⟨S100000x128, .f32⟩
  | 53 => ⟨S_, .i32⟩
  | 54 => ⟨S740000, .i32⟩
  | 55 => ⟨S740000, .i1⟩
  | 56 => ⟨S_, .i32⟩
  | 57 => ⟨S740000, .i32⟩
  | 58 => ⟨S740000, .i32⟩
  | 59 => ⟨S740000, .i32⟩
  | 60 => ⟨S740000x1, .i32⟩
  | 61 => ⟨S740000x128, .f32⟩
  | 62 => ⟨S740000x1, .f32⟩
  | 63 => ⟨S740000x128, .f32⟩
  | 64 => ⟨S740000x128, .f32⟩
  | 65 => ⟨S_, .f32⟩
  | 66 => ⟨S100000x128, .f32⟩
  | 67 => ⟨S740000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S_, .f32⟩
  | 75 => ⟨S128, .f32⟩
  | 76 => ⟨S128, .f32⟩
  | 77 => ⟨S_, .i32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S100000x128, .f32⟩
  | 85 => ⟨S100000x128, .f32⟩
  | 86 => ⟨S100000x128, .f32⟩
  | 87 => ⟨S_, .f32⟩
  | 88 => ⟨S_, .f32⟩
  | 89 => ⟨S_, .f32⟩
  | 90 => ⟨S_, .f32⟩
  | 91 => ⟨S128, .f32⟩
  | 92 => ⟨S128, .f32⟩
  | 93 => ⟨S128, .f32⟩
  | 94 => ⟨S_, .f32⟩
  | 95 => ⟨S_, .i1⟩
  | 96 => ⟨S_, .f32⟩
  | 97 => ⟨S_, .f32⟩
  | 98 => ⟨S128, .f32⟩
  | 99 => ⟨S128, .f32⟩
  | 100 => ⟨S1x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S_, .f32⟩
  | 107 => ⟨S128, .f32⟩
  | 108 => ⟨S128, .f32⟩
  | 109 => ⟨S128, .f32⟩
  | 110 => ⟨S1x128, .f32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S100000x128, .f32⟩
  | 120 => ⟨S_, .i32⟩
  | 121 => ⟨S740000, .i32⟩
  | 122 => ⟨S740000, .i1⟩
  | 123 => ⟨S_, .i32⟩
  | 124 => ⟨S740000, .i32⟩
  | 125 => ⟨S740000, .i32⟩
  | 126 => ⟨S740000, .i32⟩
  | 127 => ⟨S740000x1, .i32⟩
  | _ => ⟨S100000x6, .f32⟩

abbrev hbmTy0_1 (i : Nat) : BufTy := match i % 128 with
  | 0 => ⟨S740000x128, .f32⟩
  | 1 => ⟨S740000x1, .f32⟩
  | 2 => ⟨S740000x128, .f32⟩
  | 3 => ⟨S740000x128, .f32⟩
  | 4 => ⟨S_, .f32⟩
  | 5 => ⟨S100000x128, .f32⟩
  | 6 => ⟨S740000x1, .i32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S128, .f32⟩
  | 13 => ⟨S_, .f32⟩
  | 14 => ⟨S128, .f32⟩
  | 15 => ⟨S128, .f32⟩
  | 16 => ⟨S_, .i32⟩
  | 17 => ⟨S_, .f32⟩
  | 18 => ⟨S128, .f32⟩
  | 19 => ⟨S1x128, .f32⟩
  | 20 => ⟨S_, .f32⟩
  | 21 => ⟨S1x128, .f32⟩
  | 22 => ⟨S1x128, .f32⟩
  | 23 => ⟨S100000x128, .f32⟩
  | 24 => ⟨S100000x128, .f32⟩
  | 25 => ⟨S100000x128, .f32⟩
  | 26 => ⟨S_, .f32⟩
  | 27 => ⟨S_, .f32⟩
  | 28 => ⟨S_, .f32⟩
  | 29 => ⟨S_, .f32⟩
  | 30 => ⟨S128, .f32⟩
  | 31 => ⟨S128, .f32⟩
  | 32 => ⟨S128, .f32⟩
  | 33 => ⟨S_, .f32⟩
  | 34 => ⟨S_, .i1⟩
  | 35 => ⟨S_, .f32⟩
  | 36 => ⟨S_, .f32⟩
  | 37 => ⟨S128, .f32⟩
  | 38 => ⟨S128, .f32⟩
  | 39 => ⟨S1x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S_, .f32⟩
  | 46 => ⟨S128, .f32⟩
  | 47 => ⟨S128, .f32⟩
  | 48 => ⟨S128, .f32⟩
  | 49 => ⟨S1x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S100000x1, .f32⟩
  | 59 => ⟨S_, .i32⟩
  | 60 => ⟨S740000, .i32⟩
  | 61 => ⟨S740000, .i1⟩
  | 62 => ⟨S_, .i32⟩
  | 63 => ⟨S740000, .i32⟩
  | 64 => ⟨S740000, .i32⟩
  | 65 => ⟨S740000, .i32⟩
  | 66 => ⟨S740000x1, .i32⟩
  | 67 => ⟨S740000x1, .f32⟩
  | 68 => ⟨S740000x1, .f32⟩
  | 69 => ⟨S740000x1, .f32⟩
  | 70 => ⟨S_, .f32⟩
  | 71 => ⟨S100000x1, .f32⟩
  | 72 => ⟨S740000x1, .i32⟩
  | 73 => ⟨S100000x1, .f32⟩
  | 74 => ⟨S1x1, .f32⟩
  | 75 => ⟨S100000x1, .f32⟩
  | 76 => ⟨S100000x1, .f32⟩
  | 77 => ⟨S100000x1, .f32⟩
  | 78 => ⟨S100000x1, .f32⟩
  | 79 => ⟨S_, .f32⟩
  | 80 => ⟨S100000x1, .f32⟩
  | 81 => ⟨S100000x1, .f32⟩
  | 82 => ⟨S_, .f32⟩
  | 83 => ⟨S100000x1, .f32⟩
  | 84 => ⟨S100000x1, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_c_11 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_cst_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_cst_1 : Ref sig .tc := ⟨.hbm, 88, rfl⟩
abbrev main_call1_v8 : Ref sig .tc := ⟨.hbm, 89, rfl⟩
abbrev main_call1_cst_2 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_cst_3 : Ref sig .tc := ⟨.hbm, 94, rfl⟩
abbrev main_call1_v12 : Ref sig .tc := ⟨.hbm, 95, rfl⟩
abbrev main_call1_cst_4 : Ref sig .tc := ⟨.hbm, 96, rfl⟩
abbrev main_call1_call0_v0 : Ref sig .tc := ⟨.hbm, 97, rfl⟩
abbrev main_call1_call0_v1 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_cst_12 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_call2_cst : Ref sig .tc := ⟨.hbm, 116, rfl⟩
abbrev main_call2_v0 : Ref sig .tc := ⟨.hbm, 117, rfl⟩
abbrev main_v66 : Ref sig .tc := ⟨.hbm, 118, rfl⟩
abbrev main_v67 : Ref sig .tc := ⟨.hbm, 119, rfl⟩
abbrev main_c_13 : Ref sig .tc := ⟨.hbm, 120, rfl⟩
abbrev main_v68 : Ref sig .tc := ⟨.hbm, 121, rfl⟩
abbrev main_v69 : Ref sig .tc := ⟨.hbm, 122, rfl⟩
abbrev main_c_14 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_cst_15 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_cst_16 : Ref sig .tc := ⟨.hbm, 139, rfl⟩
abbrev main_v84 : Ref sig .tc := ⟨.hbm, 140, rfl⟩
abbrev main_cst_17 : Ref sig .tc := ⟨.hbm, 141, rfl⟩
abbrev main_v85 : Ref sig .tc := ⟨.hbm, 142, rfl⟩
abbrev main_v86 : Ref sig .tc := ⟨.hbm, 143, rfl⟩
abbrev main_c_18 : Ref sig .tc := ⟨.hbm, 144, rfl⟩
abbrev main_call3_cst : Ref sig .tc := ⟨.hbm, 145, rfl⟩
abbrev main_call3_v0 : Ref sig .tc := ⟨.hbm, 146, rfl⟩
abbrev main_call3_v1 : Ref sig .tc := ⟨.hbm, 147, rfl⟩
abbrev main_call3_cst_0 : Ref sig .tc := ⟨.hbm, 148, rfl⟩
abbrev main_call3_v2 : Ref sig .tc := ⟨.hbm, 149, rfl⟩
abbrev main_call3_v3 : Ref sig .tc := ⟨.hbm, 150, rfl⟩
abbrev main_call3_v4 : Ref sig .tc := ⟨.hbm, 151, rfl⟩
abbrev main_call3_v5 : Ref sig .tc := ⟨.hbm, 152, rfl⟩
abbrev main_call3_v6 : Ref sig .tc := ⟨.hbm, 153, rfl⟩
abbrev main_call3_v7 : Ref sig .tc := ⟨.hbm, 154, rfl⟩
abbrev main_call3_cst_1 : Ref sig .tc := ⟨.hbm, 155, rfl⟩
abbrev main_call3_v8 : Ref sig .tc := ⟨.hbm, 156, rfl⟩
abbrev main_call3_cst_2 : Ref sig .tc := ⟨.hbm, 157, rfl⟩
abbrev main_call3_v9 : Ref sig .tc := ⟨.hbm, 158, rfl⟩
abbrev main_call3_v10 : Ref sig .tc := ⟨.hbm, 159, rfl⟩
abbrev main_call3_v11 : Ref sig .tc := ⟨.hbm, 160, rfl⟩
abbrev main_call3_cst_3 : Ref sig .tc := ⟨.hbm, 161, rfl⟩
abbrev main_call3_v12 : Ref sig .tc := ⟨.hbm, 162, rfl⟩
abbrev main_call3_cst_4 : Ref sig .tc := ⟨.hbm, 163, rfl⟩
abbrev main_call3_call0_v0 : Ref sig .tc := ⟨.hbm, 164, rfl⟩
abbrev main_call3_call0_v1 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_19 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_call4_cst : Ref sig .tc := ⟨.hbm, 183, rfl⟩
abbrev main_call4_v0 : Ref sig .tc := ⟨.hbm, 184, rfl⟩
abbrev main_v103 : Ref sig .tc := ⟨.hbm, 185, rfl⟩
abbrev main_v104 : Ref sig .tc := ⟨.hbm, 186, rfl⟩
abbrev main_c_20 : Ref sig .tc := ⟨.hbm, 187, rfl⟩
abbrev main_v105 : Ref sig .tc := ⟨.hbm, 188, rfl⟩
abbrev main_v106 : Ref sig .tc := ⟨.hbm, 189, rfl⟩
abbrev main_c_21 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_cst_22 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_cst_23 : Ref sig .tc := ⟨.hbm, 207, rfl⟩
abbrev main_v122 : Ref sig .tc := ⟨.hbm, 208, rfl⟩
abbrev main_v123 : Ref sig .tc := ⟨.hbm, 209, rfl⟩
abbrev main_cst_24 : Ref sig .tc := ⟨.hbm, 210, rfl⟩
abbrev main_v124 : Ref sig .tc := ⟨.hbm, 211, rfl⟩
abbrev main_v125 : Ref sig .tc := ⟨.hbm, 212, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x6_S6x128_S100000x128_1_0_0_1_n_n_wf : DotDims.WF S100000x6 S6x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []
  gather_S100000x1_S740000x1_S740000x1_1_0_n_n_0_1_11_wf : GatherDims.WF S100000x1 S740000x1 S740000x1 [1] [0] [] [0] [] 1 ![1, 1]
  scatter_S100000x1_S740000x1_S740000x1_1_0_0_1_wf : ScatterDims.WF S100000x1 S740000x1 S740000x1 [1] [0] [0] 1

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x6_S6x128_S100000x128_1_0_0_1_n_n : DotDims S100000x6 S6x128 S100000x128 where
  lhsContracting := [1]
  rhsContracting := [0]
  lhsNonContracting := [0]
  rhsNonContracting := [1]
  lhsBatch := []
  rhsBatch := []
  wf := dot_S100000x6_S6x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S740000x1_S740000x1_1_0_n_n_0_1_11 : GatherDims S100000x1 S740000x1 S740000x1 where
  offsetDims := [1]
  collapsedSliceDims := [0]
  operandBatchingDims := []
  startIndicesBatchingDims := []
  startIndexMap := [0]
  indexVectorDim := 1
  sliceSizes := ![1, 1]
  wf := gather_S100000x1_S740000x1_S740000x1_1_0_n_n_0_1_11_wf
def scatter_S100000x1_S740000x1_S740000x1_1_0_0_1 : ScatterDims S100000x1 S740000x1 S740000x1 where
  updateWindowDims := [1]
  insertedWindowDims := [0]
  scatterDimsToOperandDims := [0]
  indexVectorDim := 1
  wf := scatter_S100000x1_S740000x1_S740000x1_1_0_0_1_wf

class Facts : Prop extends Facts₀ where

variable [Facts]
-- ==== Proof.GcnSpec.lean ====
/-
  The graph-convolution network both programs compute, as one composition of whole-array operations (the reference's own
  operations and shape facts), over any float instance.

  With `e` the [2, 640000] edge table: `srcV e` and `dstV e` are its two rows, each followed by the self loops 0 … 99999
  ([740000] node numbers); `gidxV` is the gather index (a negative node number wraps by +100000) as a [740000, 1] column and
  `sidxV` the scatter index column; `normV e` is the per-edge weight dis(src)·dis(dst), where dis = deg^(-1/2) where the
  in-degree `deg` (a scatter-add of ones over dst) is positive and 0 elsewhere.
  One convolution of node features `m` (already multiplied by the layer's matrix) is
  `agg = scatter_add(zeros, dst, gather(m, src) · norm)`; a hidden layer adds the bias, normalises each column by its mean
  and (biased) variance over the 100000 nodes, scales by gamma, shifts by beta and clips at 0; the last layer adds its
  bias and applies the logistic function 1 / (1 + exp(-x)).
-/
import proofs.«149244_j87471303950804_1_alg».proof.Proof.Gen.ReferenceIdeal

noncomputable section

namespace Cert.GcnSpec

open Idealize.ShloMosaic Cert.ReferenceIdeal Cert.ReferenceIdeal.Facts₀

variable {F : FTy → Type} [FloatOps F]

/-- The contents of a buffer of shape `s` and element type `e`. -/
abbrev Arr (F : FTy → Type) (s : Shape) (e : EltTy) : Type := (⟨s, e⟩ : BufTy).Contents (Elt F)

/-! ## The graph: sources, destinations, indices, edge weights -/

/-- The self loops: node numbers 0 … 99999. -/
def loopV : Arr F S100000 .i32 := iotaInDim S100000 32 0

/-- 640000 node numbers followed by 100000 more. -/
def catV (a : Arr F S640000 .i32) (b : Arr F S100000 .i32) : Arr F S740000 .i32 :=
  concatenate S740000 0 [⟨S640000, a⟩, ⟨S100000, b⟩] concatenates_S640000_S100000_S740000_d0

/-- Row 0 of the edge table, then the self loops. -/
def srcV (e : Arr F S2x640000 .i32) : Arr F S740000 .i32 :=
  catV
    (shapeCast S640000 (((extractStridedSlice S1x640000 ![0, 0] · slices_S2x640000_S1x640000_0_0) : Arr F S2x640000 .i32 → Arr F S1x640000 .i32) e) shapeCasts_S1x640000_S640000)
    loopV

/-- Row 1 of the edge table, then the self loops. -/
def dstV (e : Arr F S2x640000 .i32) : Arr F S740000 .i32 :=
  catV
    (shapeCast S640000 (((extractStridedSlice S1x640000 ![1, 0] · slices_S2x640000_S1x640000_1_0) : Arr F S2x640000 .i32 → Arr F S1x640000 .i32) e) shapeCasts_S1x640000_S640000)
    loopV

/-- A [740000] vector as a [740000, 1] column. -/
def colI (v : Arr F S740000 .i32) : Arr F S740000x1 .i32 := broadcastInDim S740000x1 ![0] bcast_S740000_S740000x1_0 v
/-- A [740000] vector as a [740000, 1] column. -/
def colF (v : Arr F S740000 .f32) : Arr F S740000x1 .f32 := broadcastInDim S740000x1 ![0] bcast_S740000_S740000x1_0 v

/-- A node number made a gather index: a negative one wraps by +100000; as a column. -/
def wrapV (s : Arr F S740000 .i32) : Arr F S740000x1 .i32 :=
  colI (select ((cmpi .slt : Arr F S740000 .i32 → Arr F S740000 .i32 → Arr F S740000 .i1) s (broadcastInDim S740000 ![] bcast_S_S740000 (constantI S_ 32 0#32 : Arr F S_ .i32)))
    ((addi : Arr F S740000 .i32 → Arr F S740000 .i32 → Arr F S740000 .i32) s (broadcastInDim S740000 ![] bcast_S_S740000 (constantI S_ 32 100000#32 : Arr F S_ .i32))) s)

/-- The in-degree of every node, self loop included: ones scattered onto the destinations. -/
def degV (e : Arr F S2x640000 .i32) : Arr F S100000 .f32 :=
  Host.scatterAdd scatter_S100000_S740000x1_S740000_n_0_0_1
    (broadcastInDim S100000 ![] bcast_S_S100000 (constant S_ .f32 0x00000000#32 : Arr F S_ .f32))
    (colI (dstV e))
    (broadcastInDim S740000 ![] bcast_S_S740000 (constant S_ .f32 0x3F800000#32 : Arr F S_ .f32))

/-- The float scalar 0. -/
def zeroS : Arr F S_ .f32 := constant S_ .f32 0x00000000#32

/-- Where the degree is positive. -/
def degPosV (e : Arr F S2x640000 .i32) : Arr F S100000 .i1 :=
  (cmpf .ogt : Arr F S100000 .f32 → Arr F S100000 .f32 → Arr F S100000 .i1) (degV e) (broadcastInDim S100000 ![] bcast_S_S100000 (constant S_ .f32 0x00000000#32 : Arr F S_ .f32))

/-- deg^(-1/2), wherever it is defined. -/
def degRsqrtV (e : Arr F S2x640000 .i32) : Arr F S100000 .f32 := (Host.rsqrt : Arr F S100000 .f32 → Arr F S100000 .f32) (degV e)

/-- `a` where `p` holds, the scalar `z` elsewhere. -/
def whereV (p : Arr F S100000 .i1) (a : Arr F S100000 .f32) (z : Arr F S_ .f32) : Arr F S100000 .f32 :=
  select p a (broadcastInDim S100000 ![] bcast_S_S100000 (id z))

/-- deg^(-1/2) where the degree is positive, 0 elsewhere. -/
def disV (e : Arr F S2x640000 .i32) : Arr F S100000 .f32 := whereV (degPosV e) (degRsqrtV e) zeroS

/-- The weight of every edge from the per-node factor `d`: d(src) · d(dst). -/
def normOf (d : Arr F S100000 .f32) (s t : Arr F S740000 .i32) : Arr F S740000 .f32 :=
  mulf (Host.gather gather_S100000_S740000x1_S740000_n_0_n_n_0_1_1 d (wrapV s))
    (Host.gather gather_S100000_S740000x1_S740000_n_0_n_n_0_1_1 d (wrapV t))

/-- The weight of every edge: dis(src) · dis(dst). -/
def normV (e : Arr F S2x640000 .i32) : Arr F S740000 .f32 := normOf (disV e) (srcV e) (dstV e)

/-! ## One convolution -/

/-- The rows of `m` at the source nodes `s` (128 wide). -/
def gath128 (m : Arr F S100000x128 .f32) (s : Arr F S740000 .i32) : Arr F S740000x128 .f32 :=
  Host.gather gather_S100000x128_S740000x1_S740000x128_1_0_n_n_0_1_1128 m (wrapV s)

/-- The messages of a 128-wide layer: the source rows gathered, each scaled by its edge weight. -/
def msg128 (m : Arr F S100000x128 .f32) (e : Arr F S2x640000 .i32) : Arr F S740000x128 .f32 :=
  mulf (gath128 m (srcV e))
    (broadcastInDim S740000x128 ![0, 1] bcast_S740000x1_S740000x128_0_1 (colF (normV e)))

/-- The rows `u` added up at the destination nodes `d` (128 wide). -/
def scat128 (u : Arr F S740000x128 .f32) (d : Arr F S740000 .i32) : Arr F S100000x128 .f32 :=
  Host.scatterAdd scatter_S100000x128_S740000x1_S740000x128_1_0_0_1
    (broadcastInDim S100000x128 ![] bcast_S_S100000x128 (constant S_ .f32 0x00000000#32 : Arr F S_ .f32)) (colI d) u

/-- The messages added up at their destinations. -/
def agg128 (u : Arr F S740000x128 .f32) (e : Arr F S2x640000 .i32) : Arr F S100000x128 .f32 := scat128 u (dstV e)

/-- The rows of `m` at the source nodes `s` (1 wide). -/
def gath1 (m : Arr F S100000x1 .f32) (s : Arr F S740000 .i32) : Arr F S740000x1 .f32 :=
  Host.gather gather_S100000x1_S740000x1_S740000x1_1_0_n_n_0_1_11 m (wrapV s)

/-- The messages of the 1-wide last layer. -/
def msg1 (m : Arr F S100000x1 .f32) (e : Arr F S2x640000 .i32) : Arr F S740000x1 .f32 :=
  mulf (gath1 m (srcV e)) (colF (normV e))

/-- The rows `u` added up at the destination nodes `d` (1 wide). -/
def scat1 (u : Arr F S740000x1 .f32) (d : Arr F S740000 .i32) : Arr F S100000x1 .f32 :=
  Host.scatterAdd scatter_S100000x1_S740000x1_S740000x1_1_0_0_1
    (broadcastInDim S100000x1 ![] bcast_S_S100000x1 (constant S_ .f32 0x00000000#32 : Arr F S_ .f32)) (colI d) u

/-- The last layer's messages added up at their destinations. -/
def agg1 (u : Arr F S740000x1 .f32) (e : Arr F S2x640000 .i32) : Arr F S100000x1 .f32 := scat1 u (dstV e)

/-! ## Bias, batch normalisation, ReLU -/

/-- A [128] vector as a [1, 128] row. -/
def rowV (x : Arr F S128 .f32) : Arr F S1x128 .f32 := broadcastInDim S1x128 ![1] bcast_S128_S1x128_1 x
/-- A [1, 128] row repeated down the 100000 nodes. -/
def downV (y : Arr F S1x128 .f32) : Arr F S100000x128 .f32 := broadcastInDim S100000x128 ![0, 1] bcast_S1x128_S100000x128_0_1 y

/-- The aggregate plus the layer's bias. -/
def hbV (a : Arr F S100000x128 .f32) (b : Arr F S128 .f32) : Arr F S100000x128 .f32 := addf a (downV (rowV b))

/-- The column sums over the nodes. -/
def sumV (h : Arr F S100000x128 .f32) : Arr F S128 .f32 :=
  Host.reduceAdd h (constant S_ .f32 0x00000000#32 : Arr F S_ .f32) reducesTo_S100000x128_S128_d0 h_S_

/-- The column means over the nodes. -/
def meanV (h : Arr F S100000x128 .f32) : Arr F S128 .f32 :=
  Host.divf (sumV h) (broadcastInDim S128 ![] bcast_S_S128 (constant S_ .f32 0x47C35000#32 : Arr F S_ .f32))

/-- 100000 minus the degrees-of-freedom correction `k`, as a float scalar. -/
def cntOf (k : Arr F S_ .i32) : Arr F S_ .f32 :=
  subf (constant S_ .f32 0x47C35000#32 : Arr F S_ .f32) (sitofp .f32 k)

/-- The integer scalar 0 (no degrees-of-freedom correction: the biased variance). -/
def zeroI : Arr F S_ .i32 := constantI S_ 32 0#32

/-- The column variances over the nodes with correction `k` (not-a-number were the count not positive). -/
def varOf (h : Arr F S100000x128 .f32) (k : Arr F S_ .i32) : Arr F S128 .f32 :=
  ((fun p a b => select (broadcastInDim S128 ![] bcast_S_S128 p) a b) : Arr F S_ .i1 → Arr F S128 .f32 → Arr F S128 .f32 → Arr F S128 .f32)
    ((cmpf .ogt : Arr F S_ .f32 → Arr F S_ .f32 → Arr F S_ .i1) (cntOf k) (constant S_ .f32 0x00000000#32 : Arr F S_ .f32))
    (Host.divf
      (Host.reduceAdd
        ((fun d : Arr F S100000x128 .f32 => mulf d d)
          (subf h (downV (Host.divf (rowV (sumV h)) (broadcastInDim S1x128 ![] bcast_S_S1x128 (constant S_ .f32 0x47C35000#32 : Arr F S_ .f32))))))
        (constant S_ .f32 0x00000000#32 : Arr F S_ .f32) reducesTo_S100000x128_S128_d0 h_S_)
      (broadcastInDim S128 ![] bcast_S_S128 (cntOf k)))
    (broadcastInDim S128 ![] bcast_S_S128 (id (constant S_ .f32 0x7FC00000#32 : Arr F S_ .f32)))

/-- The (biased) column variances over the nodes. -/
def varV (h : Arr F S100000x128 .f32) : Arr F S128 .f32 := varOf h zeroI

/-- The 1e-5 added to the variance, as a [128] vector. -/
def epsV : Arr F S128 .f32 := broadcastInDim S128 ![] bcast_S_S128 (constant S_ .f32 0x3727C5AC#32 : Arr F S_ .f32)

/-- Normalise the biased aggregate `h` by the statistics `mu`, `var`, scale by `g`, shift by `be`, clip at 0. -/
def bnreluV (h : Arr F S100000x128 .f32) (mu var g be : Arr F S128 .f32) : Arr F S100000x128 .f32 :=
  maximumf
    (addf (mulf (mulf (downV (rowV g)) (subf h (downV (rowV mu)))) (downV (rowV ((Host.rsqrt : Arr F S128 .f32 → Arr F S128 .f32) (addf var epsV))))) (downV (rowV be)))
    (broadcastInDim S100000x128 ![] bcast_S_S100000x128 (constant S_ .f32 0x00000000#32 : Arr F S_ .f32))

/-- A hidden layer's output from its aggregate: the statistics are those of the biased aggregate itself. -/
def hiddenV (a : Arr F S100000x128 .f32) (b g be : Arr F S128 .f32) : Arr F S100000x128 .f32 :=
  bnreluV (hbV a b) (meanV (hbV a b)) (varV (hbV a b)) g be

/-! ## The last layer -/

/-- All ones, [100000, 1]. -/
def onesV : Arr F S100000x1 .f32 := broadcastInDim S100000x1 ![] bcast_S_S100000x1 (constant S_ .f32 0x3F800000#32 : Arr F S_ .f32)

/-- The aggregate plus the last bias, through 1 / (1 + exp(-x)). -/
def sigmoidV (a : Arr F S100000x1 .f32) (b : Arr F S1 .f32) : Arr F S100000x1 .f32 :=
  Host.divf onesV (addf onesV (Host.exp (Host.negf
    (addf a (broadcastInDim S100000x1 ![0, 1] bcast_S1x1_S100000x1_0_1 (broadcastInDim S1x1 ![1] bcast_S1_S1x1_1 b))))))

/-! ## The three matrix products, and the network -/

def lin1V (x : Arr F S100000x6 .f32) (w : Arr F S6x128 .f32) : Arr F S100000x128 .f32 :=
  Host.dotGeneral dot_S100000x6_S6x128_S100000x128_1_0_0_1_n_n none x w
def lin2V (x : Arr F S100000x128 .f32) (w : Arr F S128x128 .f32) : Arr F S100000x128 .f32 :=
  Host.dotGeneral dot_S100000x128_S128x128_S100000x128_1_0_0_1_n_n none x w
def lin3V (x : Arr F S100000x128 .f32) (w : Arr F S128x1 .f32) : Arr F S100000x1 .f32 :=
  Host.dotGeneral dot_S100000x128_S128x1_S100000x1_1_0_0_1_n_n none x w

/-- The first hidden layer's output. -/
def h1V (x : Arr F S100000x6 .f32) (e : Arr F S2x640000 .i32) (w1 : Arr F S6x128 .f32) (b1 g1 be1 : Arr F S128 .f32) : Arr F S100000x128 .f32 :=
  hiddenV (agg128 (msg128 (lin1V x w1) e) e) b1 g1 be1

/-- The second hidden layer's output. -/
def h2V (x : Arr F S100000x6 .f32) (e : Arr F S2x640000 .i32) (w1 : Arr F S6x128 .f32) (b1 : Arr F S128 .f32) (w2 : Arr F S128x128 .f32) (b2 g1 be1 g2 be2 : Arr F S128 .f32) : Arr F S100000x128 .f32 :=
  hiddenV (agg128 (msg128 (lin2V (h1V x e w1 b1 g1 be1) w2) e) e) b2 g2 be2

/-- The network's result, a risk score per node. -/
def outV (x : Arr F S100000x6 .f32) (e : Arr F S2x640000 .i32) (w1 : Arr F S6x128 .f32) (b1 : Arr F S128 .f32) (w2 : Arr F S128x128 .f32) (b2 : Arr F S128 .f32)
    (w3 : Arr F S128x1 .f32) (b3 : Arr F S1 .f32) (g1 be1 g2 be2 : Arr F S128 .f32) : Arr F S100000x1 .f32 :=
  sigmoidV (agg1 (msg1 (lin3V (h2V x e w1 b1 w2 b2 g1 be1 g2 be2) w3) e) e) b3

end Cert.GcnSpec

end
-- ==== Proof.KernelRun.lean ====
/-
  The idealized kernel's run with its RESULT named: every weakly fair execution of @main terminates, nothing faults, the
  argument arrays end as launched, and the result buffer ends at the contents the last region's write-backs leave
  (the fold of the host stretches and of the nine regions' write-backs from the launch memory, `Gen.W22`).
  The run is the launch of the generated frame over @main's segments; only the post also reads the result buffer.
-/
import proofs.«149244_j87471303950804_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the idealized kernel: the result buffer at the last boundary's contents, the arguments as launched. -/
theorem run_valued : θ_run defs (onTc (τ := τ) (main (F := F))) ⟨m, fun _ => 0, ρ⟩ (fun r => ∀ c : Dev nD,
      r.2.mem ((c.tc : Thread nD τ).loc main_v94) = W22 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v94 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c)⟩)

end Cert.KernelIdeal.RunValue

end
-- ==== Proof.KernelHost.lean ====
/-
  The host stretches of the idealized kernel's @main, each read for ANY contents `W` it starts from: what the buffers a
  later region (or stretch) reads hold after the stretch, as the network's whole-array functions (GcnSpec) of what `W`
  holds. The stretches are straight lines of host operations; a buffer's contents after one is the fold of the
  operations' results, read back operation by operation.
-/
import proofs.«149244_j87471303950804_1_alg».proof.Proof.Gen.KernelIdeal.Launch
import proofs.«149244_j87471303950804_1_alg».proof.Proof.GcnSpec
import Idealize.ShloMosaic.Lib.StableHlo.Run
import Idealize.ShloMosaic.PureOps.Ideal

set_option maxRecDepth 16384

noncomputable section

namespace Cert.KernelIdeal.HostStages

open Idealize.ShloMosaic Idealize.ShloMosaic.TcCoe Idealize.SL.Sem
open Cert.KernelIdeal Cert.KernelIdeal.Gen Cert.GcnSpec
open Idealize.ShloMosaic.StableHlo (after after_cons after_nil)

variable (W : Valuation τ sig (Elt Ideal))

open Idealize.ShloMosaic.StableHlo in
/-- Read a buffer after a stretch of host operations back to the contents `W` the stretch started from. -/
macro "hread" : tactic =>
  `(tactic| (simp (disch := decide) only [hostOps0, hostOps0_1, hostOps0_2, hostOps1, hostOps2, hostOps2_1, hostOps2_2, hostOps4, hostOps5, hostOps5_1, hostOps5_2, hostOps7, hostOps8,
      after_cons, after_nil,
      nullary_result', unary_result', binary_result', ternary_result', quaternary_result', reshape_result',
      nullary_result_ne', unary_result_ne', binary_result_ne', ternary_result_ne', quaternary_result_ne', reshape_result_ne'] <;> rfl))

/-! ## The first stretch: the two edge lists, the degree's sign and its inverse square root -/

theorem h0_v3 : after hostOps0 W (Proc.devRef .tc main_v3) = srcV (W (Proc.devRef .tc main_arg1)) := by hread
theorem h0_v6 : after hostOps0 W (Proc.devRef .tc main_v6) = dstV (W (Proc.devRef .tc main_arg1)) := by hread
theorem h0_v12 : after hostOps0 W (Proc.devRef .tc main_v12) = degPosV (W (Proc.devRef .tc main_arg1)) := by hread
theorem h0_v13 : after hostOps0 W (Proc.devRef .tc main_v13) = degRsqrtV (W (Proc.devRef .tc main_arg1)) := by hread
theorem h0_cst2 : after hostOps0 W (Proc.devRef .tc main_cst_2) = (zeroS : Arr Ideal S_ .f32) := by hread

/-! ## The outlined `where`: the per-node factor -/

theorem h01_v14 : after hostOps0_1 W (Proc.devRef .tc main_v14)
    = whereV (W (Proc.devRef .tc main_v12)) (W (Proc.devRef .tc main_v13)) (W (Proc.devRef .tc main_cst_2)) := by hread

/-! ## The edge weights, as the column the scaling kernels read -/

theorem h02_v30 : after hostOps0_2 W (Proc.devRef .tc main_v30)
    = shapeCast S740000x1 (normOf (W (Proc.devRef .tc main_v14)) (W (Proc.devRef .tc main_v3)) (W (Proc.devRef .tc main_v6))) shapeCasts_S740000_S740000x1 := by hread

/-! ## The stretches before the first region, together -/

theorem g0_v3 : after hostOps0_2 (after hostOps0_1 (after hostOps0 W)) (Proc.devRef .tc main_v3) = srcV (W (Proc.devRef .tc main_arg1)) := by hread
theorem g0_v6 : after hostOps0_2 (after hostOps0_1 (after hostOps0 W)) (Proc.devRef .tc main_v6) = dstV (W (Proc.devRef .tc main_arg1)) := by hread
/-- The edge weights dis(src)·dis(dst), as a column. -/
theorem g0_v30 : after hostOps0_2 (after hostOps0_1 (after hostOps0 W)) (Proc.devRef .tc main_v30)
    = shapeCast S740000x1 (normV (W (Proc.devRef .tc main_arg1))) shapeCasts_S740000_S740000x1 := by
  rw [h02_v30, h01_v14]
  have e3 : after hostOps0_1 (after hostOps0 W) (Proc.devRef .tc main_v3) = srcV (W (Proc.devRef .tc main_arg1)) := by hread
  have e6 : after hostOps0_1 (after hostOps0 W) (Proc.devRef .tc main_v6) = dstV (W (Proc.devRef .tc main_arg1)) := by hread
  rw [e3, e6, h0_v12, h0_v13, h0_cst2]
  rfl

/-! ## The gathers: the source rows of a layer's product -/

theorem h1_v38 : after hostOps1 W (Proc.devRef .tc main_v38) = gath128 (W (Proc.devRef .tc main_v31)) (W (Proc.devRef .tc main_v3)) := by hread
theorem h4_v63 : after hostOps4 W (Proc.devRef .tc main_v63) = gath128 (W (Proc.devRef .tc main_v56)) (W (Proc.devRef .tc main_v3)) := by hread
theorem h7_v88 : after hostOps7 W (Proc.devRef .tc main_v88) = gath1 (W (Proc.devRef .tc main_v81)) (W (Proc.devRef .tc main_v3)) := by hread

/-! ## Between the first layer's scaling and its normalisation: aggregate, statistics, rows -/

theorem h2_hb : after hostOps2 W (Proc.devRef .tc main_v45) = hbV (scat128 (W (Proc.devRef .tc main_v39)) (W (Proc.devRef .tc main_v6))) (W (Proc.devRef .tc main_arg3)) := by hread
theorem h2_cnt : after hostOps2 W (Proc.devRef .tc main_c_11) = (zeroI : Arr Ideal S_ .i32) := by hread
theorem h21_var : after hostOps2_1 W (Proc.devRef .tc main_v50) = varOf (W (Proc.devRef .tc main_v45)) (W (Proc.devRef .tc main_c_11)) := by hread
theorem h22_var : after hostOps2_2 W (Proc.devRef .tc main_v51) = shapeCast S1x128 (W (Proc.devRef .tc main_v50)) shapeCasts_S128_S1x128 := by hread

/-- The aggregate: the scaled messages added up at their destinations. -/
theorem g2_agg : after hostOps2_2 (after hostOps2_1 (after hostOps2 W)) (Proc.devRef .tc main_v42) = scat128 (W (Proc.devRef .tc main_v39)) (W (Proc.devRef .tc main_v6)) := by hread
/-- The bias, gamma and beta as rows. -/
theorem g2_b : after hostOps2_2 (after hostOps2_1 (after hostOps2 W)) (Proc.devRef .tc main_v52) = shapeCast S1x128 (W (Proc.devRef .tc main_arg3)) shapeCasts_S128_S1x128 := by hread
theorem g2_g : after hostOps2_2 (after hostOps2_1 (after hostOps2 W)) (Proc.devRef .tc main_v53) = shapeCast S1x128 (W (Proc.devRef .tc main_arg8)) shapeCasts_S128_S1x128 := by hread
theorem g2_be : after hostOps2_2 (after hostOps2_1 (after hostOps2 W)) (Proc.devRef .tc main_v54) = shapeCast S1x128 (W (Proc.devRef .tc main_arg9)) shapeCasts_S128_S1x128 := by hread
/-- The column means of the biased aggregate, as a row. -/
theorem g2_mean : after hostOps2_2 (after hostOps2_1 (after hostOps2 W)) (Proc.devRef .tc main_v49)
    = shapeCast S1x128 (meanV (hbV (scat128 (W (Proc.devRef .tc main_v39)) (W (Proc.devRef .tc main_v6))) (W (Proc.devRef .tc main_arg3)))) shapeCasts_S128_S1x128 := by hread
/-- The column variances of the biased aggregate, as a row. -/
theorem g2_var : after hostOps2_2 (after hostOps2_1 (after hostOps2 W)) (Proc.devRef .tc main_v51)
    = shapeCast S1x128 (varV (hbV (scat128 (W (Proc.devRef .tc main_v39)) (W (Proc.devRef .tc main_v6))) (W (Proc.devRef .tc main_arg3)))) shapeCasts_S128_S1x128 := by
  rw [h22_var, h21_var, h2_hb, h2_cnt]
  rfl

/-! ## The same for the second layer -/

theorem h5_hb : after hostOps5 W (Proc.devRef .tc main_v70) = hbV (scat128 (W (Proc.devRef .tc main_v64)) (W (Proc.devRef .tc main_v6))) (W (Proc.devRef .tc main_arg5)) := by hread
theorem h5_cnt : after hostOps5 W (Proc.devRef .tc main_c_17) = (zeroI : Arr Ideal S_ .i32) := by hread
theorem h51_var : after hostOps5_1 W (Proc.devRef .tc main_v75) = varOf (W (Proc.devRef .tc main_v70)) (W (Proc.devRef .tc main_c_17)) := by hread
theorem h52_var : after hostOps5_2 W (Proc.devRef .tc main_v76) = shapeCast S1x128 (W (Proc.devRef .tc main_v75)) shapeCasts_S128_S1x128 := by hread

/-- The aggregate: the scaled messages added up at their destinations. -/
theorem g5_agg : after hostOps5_2 (after hostOps5_1 (after hostOps5 W)) (Proc.devRef .tc main_v67) = scat128 (W (Proc.devRef .tc main_v64)) (W (Proc.devRef .tc main_v6)) := by hread
/-- The bias, gamma and beta as rows. -/
theorem g5_b : after hostOps5_2 (after hostOps5_1 (after hostOps5 W)) (Proc.devRef .tc main_v77) = shapeCast S1x128 (W (Proc.devRef .tc main_arg5)) shapeCasts_S128_S1x128 := by hread
theorem g5_g : after hostOps5_2 (after hostOps5_1 (after hostOps5 W)) (Proc.devRef .tc main_v78) = shapeCast S1x128 (W (Proc.devRef .tc main_arg10)) shapeCasts_S128_S1x128 := by hread
theorem g5_be : after hostOps5_2 (after hostOps5_1 (after hostOps5 W)) (Proc.devRef .tc main_v79) = shapeCast S1x128 (W (Proc.devRef .tc main_arg11)) shapeCasts_S128_S1x128 := by hread
/-- The column means of the biased aggregate, as a row. -/
theorem g5_mean : after hostOps5_2 (after hostOps5_1 (after hostOps5 W)) (Proc.devRef .tc main_v74)
    = shapeCast S1x128 (meanV (hbV (scat128 (W (Proc.devRef .tc main_v64)) (W (Proc.devRef .tc main_v6))) (W (Proc.devRef .tc main_arg5)))) shapeCasts_S128_S1x128 := by hread
/-- The column variances of the biased aggregate, as a row. -/
theorem g5_var : after hostOps5_2 (after hostOps5_1 (after hostOps5 W)) (Proc.devRef .tc main_v76)
    = shapeCast S1x128 (varV (hbV (scat128 (W (Proc.devRef .tc main_v64)) (W (Proc.devRef .tc main_v6))) (W (Proc.devRef .tc main_arg5)))) shapeCasts_S128_S1x128 := by
  rw [h52_var, h51_var, h5_hb, h5_cnt]
  rfl

/-! ## Before the last kernel: the aggregate and the bias -/

theorem h8_v92 : after hostOps8 W (Proc.devRef .tc main_v92) = scat1 (W (Proc.devRef .tc main_v89)) (W (Proc.devRef .tc main_v6)) := by hread
theorem h8_v93 : after hostOps8 W (Proc.devRef .tc main_v93) = shapeCast S1x1 (W (Proc.devRef .tc main_arg7)) shapeCasts_S1_S1x1 := by hread

/-! ## What a stretch does not write it keeps: the edge lists and the weight column across the later stretches -/
theorem k1_v3 : after hostOps1 W (Proc.devRef .tc main_v3) = W (Proc.devRef .tc main_v3) := by hread
theorem k1_v6 : after hostOps1 W (Proc.devRef .tc main_v6) = W (Proc.devRef .tc main_v6) := by hread
theorem k1_v30 : after hostOps1 W (Proc.devRef .tc main_v30) = W (Proc.devRef .tc main_v30) := by hread
theorem kg2_v3 : after hostOps2_2 (after hostOps2_1 (after hostOps2 W)) (Proc.devRef .tc main_v3) = W (Proc.devRef .tc main_v3) := by hread
theorem kg2_v6 : after hostOps2_2 (after hostOps2_1 (after hostOps2 W)) (Proc.devRef .tc main_v6) = W (Proc.devRef .tc main_v6) := by hread
theorem kg2_v30 : after hostOps2_2 (after hostOps2_1 (after hostOps2 W)) (Proc.devRef .tc main_v30) = W (Proc.devRef .tc main_v30) := by hread
theorem k4_v3 : after hostOps4 W (Proc.devRef .tc main_v3) = W (Proc.devRef .tc main_v3) := by hread
theorem k4_v6 : after hostOps4 W (Proc.devRef .tc main_v6) = W (Proc.devRef .tc main_v6) := by hread
theorem k4_v30 : after hostOps4 W (Proc.devRef .tc main_v30) = W (Proc.devRef .tc main_v30) := by hread
theorem kg5_v3 : after hostOps5_2 (after hostOps5_1 (after hostOps5 W)) (Proc.devRef .tc main_v3) = W (Proc.devRef .tc main_v3) := by hread
theorem kg5_v6 : after hostOps5_2 (after hostOps5_1 (after hostOps5 W)) (Proc.devRef .tc main_v6) = W (Proc.devRef .tc main_v6) := by hread
theorem kg5_v30 : after hostOps5_2 (after hostOps5_1 (after hostOps5 W)) (Proc.devRef .tc main_v30) = W (Proc.devRef .tc main_v30) := by hread
theorem k7_v3 : after hostOps7 W (Proc.devRef .tc main_v3) = W (Proc.devRef .tc main_v3) := by hread
theorem k7_v6 : after hostOps7 W (Proc.devRef .tc main_v6) = W (Proc.devRef .tc main_v6) := by hread
theorem k7_v30 : after hostOps7 W (Proc.devRef .tc main_v30) = W (Proc.devRef .tc main_v30) := by hread

end Cert.KernelIdeal.HostStages

end
-- ==== Proof.RegionLinear.lean ====
/-
  The three matrix products of the network's linear layers, each computed by the kernel block by block and read
  against the whole product.

  A linear layer multiplies an array x of 100000 rows by a weight array w. The kernel works on 10 blocks of 10000 rows:
  at block t it forms, for each row a of the block and each column b, the sum over k of x(10000 t + a, k) · w(k, b),
  starting from zero (the operands are first cast to bf16, which on the extended reals changes nothing). The whole
  product has at (r, b) the sum over k of x(r, k) · w(k, b). Row r lies in block r / 10000 at position r mod 10000, so
  the two are the same finite sum of extended reals, term by term: no reordering is involved.
-/
import proofs.«149244_j87471303950804_1_alg».proof.Proof.Gen.KernelIdeal.Frame
import proofs.«149244_j87471303950804_1_alg».proof.Proof.Gen.ReferenceIdeal
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

namespace Linear

/-! ## The plain product of an M×K array by a K×N array

Entry (r, c) of the product is the sum over k of X(r,k)·W(k,c). The dot record with contracting axes 1 of the left and
0 of the right operand and no batch axis has a one-axis contraction index; re-indexed by its coordinate k, the left
operand is read at (r, k) and the right at (k, c). -/

theorem plain_rank (M K N : Nat) : (DotDims.plain M K N).contr.rank = 1 := rfl
theorem plain_size (M K N : Nat) : (DotDims.plain M K N).contr.size ⟨0, by rw [plain_rank]; exact Nat.one_pos⟩ = K := rfl

/-- The left operand's index at output (r, c) and contraction coordinate k is (r, k). -/
theorem plain_lhs (M K N : Nat) (r : Fin M) (c : Fin N) (k : Fin K) :
    (DotDims.plain M K N).lhsIdx (ix2 r c) ((contrEquiv1 (DotDims.plain M K N) K (plain_rank M K N) (plain_size M K N)).symm k) = ix2 r k := by
  funext a; apply Fin.ext
  match a with
  | ⟨0, _⟩ => rfl
  | ⟨1, _⟩ =>
    exact ((DotDims.plain M K N).lhsIdx_val_of_single (cl := 1) rfl (ix2 r c) _).trans
      (contrEquiv1_symm_val (DotDims.plain M K N) K (plain_rank M K N) (plain_size M K N) k)

/-- The right operand's index at output (r, c) and contraction coordinate k is (k, c). -/
theorem plain_rhs (M K N : Nat) (r : Fin M) (c : Fin N) (k : Fin K) :
    (DotDims.plain M K N).rhsIdx (ix2 r c) ((contrEquiv1 (DotDims.plain M K N) K (plain_rank M K N) (plain_size M K N)).symm k) = ix2 k c := by
  funext a; apply Fin.ext
  match a with
  | ⟨0, _⟩ =>
    exact ((DotDims.plain M K N).rhsIdx_val_of_single (cr := 0) rfl (ix2 r c) _).trans
      (contrEquiv1_symm_val (DotDims.plain M K N) K (plain_rank M K N) (plain_size M K N) k)
  | ⟨1, _⟩ => rfl

/-- The contraction's sum at output (r, c) is the sum over k of X(r,k)·W(k,c). -/
theorem plain_sum (M K N : Nat) (X : (⟨2, ![M, K]⟩ : Shape).Idx → EReal) (W : (⟨2, ![K, N]⟩ : Shape).Idx → EReal) (r : Fin M) (c : Fin N) :
    ∑ k : (DotDims.plain M K N).contr.Idx, X ((DotDims.plain M K N).lhsIdx (ix2 r c) k) * W ((DotDims.plain M K N).rhsIdx (ix2 r c) k)
      = ∑ k : Fin K, X (ix2 r k) * W (ix2 k c) := by
  rw [← Equiv.sum_comp (contrEquiv1 (DotDims.plain M K N) K (plain_rank M K N) (plain_size M K N)).symm]
  exact Finset.sum_congr rfl fun k _ => by rw [plain_lhs, plain_rhs]

/-- The whole product (the host's dot_general) at (r, c). -/
theorem dotGeneral_plain_apply (M K N : Nat) (X : FVec Ideal ⟨2, ![M, K]⟩ .f32) (W : FVec Ideal ⟨2, ![K, N]⟩ .f32) (r : Fin M) (c : Fin N) :
    Host.dotGeneral (F := Ideal) (DotDims.plain M K N) none X W (ix2 r c) = ∑ k : Fin K, X (ix2 r k) * W (ix2 k c) :=
  (Ideal.dotGeneral_apply (DotDims.plain M K N) none .single X W (ix2 r c)).trans (plain_sum M K N X W r c)

/-- A block product into the zero accumulator at (r, c). -/
theorem matmul_plain_apply (M K N : Nat) (X : FVec Ideal ⟨2, ![M, K]⟩ .bf16) (W : FVec Ideal ⟨2, ![K, N]⟩ .bf16) (r : Fin M) (c : Fin N) :
    matmul (F := Ideal) (DotDims.plain M K N) none X W (constant (F := Ideal) ⟨2, ![M, N]⟩ .f32 0x00000000#32) (ix2 r c) = ∑ k : Fin K, X (ix2 r k) * W (ix2 k c) :=
  (Ideal.matmul_constant_zero_apply (DotDims.plain M K N) none X W (ix2 r c)).trans (plain_sum M K N X W r c)

theorem zero_offsets : (![0, 0] : Fin 2 → Nat) = fun _ => 0 := funext fun a => by fin_cases a <;> rfl

/-! ## Region 0: x [100000, 6] times w [6, 128] -/

theorem kernelDot0 : dot_S10000x6_S6x128_S10000x128_1_0_0_1_n_n = DotDims.plain 10000 6 128 := rfl
theorem wholeDot0 : Cert.ReferenceIdeal.dot_S100000x6_S6x128_S100000x128_1_0_0_1_n_n = DotDims.plain 100000 6 128 := rfl

/-- The body's payload at (a, b) of a block: the sum over k of x0(a,k)·x1(k,b) (the cast to bf16 is the identity). -/
theorem pay0_apply (x0 : Vec Ideal S10000x6 .f32) (x1 : Vec Ideal S6x128 .f32) (a : Fin 10000) (b : Fin 128) :
    k0_pay1 x0 x1 (ix2 a b) = ∑ k : Fin 6, x0 (ix2 a k) * x1 (ix2 k b) := by
  unfold k0_pay1
  rw [kernelDot0]
  exact matmul_plain_apply 10000 6 128 _ _ a b

/-- The whole product at (r, c). -/
theorem whole0_apply (X : S100000x6.Idx → EReal) (W : S6x128.Idx → EReal) (r : Fin 100000) (c : Fin 128) :
    Host.dotGeneral (F := Ideal) (φ₁ := .f32) (φ₂ := .f32) Cert.ReferenceIdeal.dot_S100000x6_S6x128_S100000x128_1_0_0_1_n_n none X W (ix2 r c)
      = ∑ k : Fin 6, X (ix2 r k) * W (ix2 k c) := by
  rw [wholeDot0]
  exact dotGeneral_plain_apply 100000 6 128 X W r c

/-- Block q of the rows: when x0 is rows [10000 q, 10000 q + 10000) of X and x1 is W, the block product at y is the
    whole product at row 10000 q + y 0, column y 1. -/
theorem blockProduct0 (X : S100000x6.Idx → EReal) (W : S6x128.Idx → EReal) (x0 : Vec Ideal S10000x6 .f32) (x1 : Vec Ideal S6x128 .f32) (q : Nat)
    (hx0 : ∀ (z : S10000x6.Idx) (z' : S100000x6.Idx), (z' 0).val = q * 10000 + (z 0).val → (z' 1).val = (z 1).val → x0 z = X z')
    (hx1 : ∀ z, x1 z = W z)
    (y : S10000x128.Idx) (i : S100000x128.Idx) (hi0 : (i 0).val = q * 10000 + (y 0).val) (hi1 : (i 1).val = (y 1).val) :
    k0_pay1 x0 x1 y = Host.dotGeneral (F := Ideal) (φ₁ := .f32) (φ₂ := .f32) Cert.ReferenceIdeal.dot_S100000x6_S6x128_S100000x128_1_0_0_1_n_n none X W i := by
  obtain ⟨a, b, rfl⟩ : ∃ (a : Fin 10000) (b : Fin 128), y = ix2 a b := ⟨y 0, y 1, eq_ix2 y⟩
  obtain ⟨r, c, rfl⟩ : ∃ (r : Fin 100000) (c : Fin 128), i = ix2 r c := ⟨i 0, i 1, eq_ix2 i⟩
  obtain rfl : c = b := Fin.ext hi1
  rw [pay0_apply, whole0_apply]
  exact Finset.sum_congr rfl fun k _ => by rw [hx0 (ix2 a k) (ix2 r k) hi0 rfl, hx1]

/-- The index maps over the grid of 10 points: the left operand's and the output's block is row block t, the right
    operand's is its whole array. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem writtenBack0 (c : Dev nD) (t : Fin cfg0.N) :
    (dat0 V c).flushed 2 t = ((cfg0.win 2).blk t).view.read (Elt Ideal)
      (Host.dotGeneral (F := Ideal) (φ₁ := .f32) (φ₂ := .f32) Cert.ReferenceIdeal.dot_S100000x6_S6x128_S100000x128_1_0_0_1_n_n none (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x6) zero_offsets, View.ld_unit_zero (S := S6x128) zero_offsets]
  obtain ⟨e00, e01, e10, e11, e20, e21⟩ := blockIndex0 t
  funext y
  show k0_pay1 (iblk0 V c 0 t) (iblk0 V c 1 t) y
    = Host.dotGeneral (F := Ideal) (φ₁ := .f32) (φ₂ := .f32) Cert.ReferenceIdeal.dot_S100000x6_S6x128_S100000x128_1_0_0_1_n_n none (V c main_arg0) (V c main_arg2) (((cfg0.win 2).blk t).view.emb y)
  refine blockProduct0 (V c main_arg0) (V c main_arg2) (iblk0 V c 0 t) (iblk0 V c 1 t) t.val ?_ ?_ y _ ?_ ?_
  · intro z z' h0 h1
    show V c main_arg0 (((cfg0.win 0).blk t).view.emb z) = V c main_arg0 z'
    congr 1
    funext a; apply Fin.ext
    match a with
    | ⟨0, _⟩ => show win0_0.index t (0 : Fin 2) * 10000 + 1 * (z 0).val = (z' 0).val; omega
    | ⟨1, _⟩ => show win0_0.index t (1 : Fin 2) * 6 + 1 * (z 1).val = (z' 1).val; omega
  · intro z
    show V c main_arg2 (((cfg0.win 1).blk t).view.emb z) = V c main_arg2 z
    congr 1
    funext a; apply Fin.ext
    match a with
    | ⟨0, _⟩ => show win0_1.index t (0 : Fin 2) * 6 + 1 * (z 0).val = (z 0).val; omega
    | ⟨1, _⟩ => show win0_1.index t (1 : Fin 2) * 128 + 1 * (z 1).val = (z 1).val; omega
  · show win0_2.index t (0 : Fin 2) * 10000 + 1 * (y 0).val = t.val * 10000 + (y 0).val; omega
  · show win0_2.index t (1 : Fin 2) * 128 + 1 * (y 1).val = (y 1).val; omega

/-- An index of the array is in point t's block iff each coordinate is in the block's range on its axis. -/
theorem mem_rowBlock0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v31).slice (win0_2.rect t)).set ↔ _
  rw [View.set_slice_whole, Rect.mem_set_unit]
  exact Iff.rfl

/-- Every index is covered: row r lies in the block of point r / 10000. -/
theorem rows_covered0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  obtain ⟨t, ht⟩ : ∃ t : Fin cfg0.N, t.val = (i 0).val / 10000 :=
    ⟨⟨(i 0).val / 10000, by show (i 0).val / 10000 < grid0.N; rw [hN]; omega⟩, rfl⟩
  obtain ⟨-, -, -, -, e20, e21⟩ := blockIndex0 t
  refine ⟨t, flush0_2 t, ?_⟩
  rw [mem_rowBlock0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-! ## Region 3: x [100000, 128] times w [128, 128] -/

theorem kernelDot3 : dot_S10000x128_S128x128_S10000x128_1_0_0_1_n_n = DotDims.plain 10000 128 128 := rfl
theorem wholeDot3 : Cert.ReferenceIdeal.dot_S100000x128_S128x128_S100000x128_1_0_0_1_n_n = DotDims.plain 100000 128 128 := rfl

/-- The body's payload at (a, b) of a block: the sum over k of x0(a,k)·x1(k,b) (the cast to bf16 and the cast to the same shape are the identity). -/
theorem pay3_apply (x0 : Vec Ideal S10000x128 .f32) (x1 : Vec Ideal S128x128 .f32) (a : Fin 10000) (b : Fin 128) :
    k3_pay1 x0 x1 (ix2 a b) = ∑ k : Fin 128, x0 (ix2 a k) * x1 (ix2 k b) := by
  unfold k3_pay1
  rw [kernelDot3, shapeCast_self]
  exact matmul_plain_apply 10000 128 128 _ _ a b

/-- The whole product at (r, c). -/
theorem whole3_apply (X : S100000x128.Idx → EReal) (W : S128x128.Idx → EReal) (r : Fin 100000) (c : Fin 128) :
    Host.dotGeneral (F := Ideal) (φ₁ := .f32) (φ₂ := .f32) Cert.ReferenceIdeal.dot_S100000x128_S128x128_S100000x128_1_0_0_1_n_n none X W (ix2 r c)
      = ∑ k : Fin 128, X (ix2 r k) * W (ix2 k c) := by
  rw [wholeDot3]
  exact dotGeneral_plain_apply 100000 128 128 X W r c

/-- Block q of the rows: when x0 is rows [10000 q, 10000 q + 10000) of X and x1 is W, the block product at y is the
    whole product at row 10000 q + y 0, column y 1. -/
theorem blockProduct3 (X : S100000x128.Idx → EReal) (W : S128x128.Idx → EReal) (x0 : Vec Ideal S10000x128 .f32) (x1 : Vec Ideal S128x128 .f32) (q : Nat)
    (hx0 : ∀ (z : S10000x128.Idx) (z' : S100000x128.Idx), (z' 0).val = q * 10000 + (z 0).val → (z' 1).val = (z 1).val → x0 z = X z')
    (hx1 : ∀ z, x1 z = W z)
    (y : S10000x128.Idx) (i : S100000x128.Idx) (hi0 : (i 0).val = q * 10000 + (y 0).val) (hi1 : (i 1).val = (y 1).val) :
    k3_pay1 x0 x1 y = Host.dotGeneral (F := Ideal) (φ₁ := .f32) (φ₂ := .f32) Cert.ReferenceIdeal.dot_S100000x128_S128x128_S100000x128_1_0_0_1_n_n none X W i := by
  obtain ⟨a, b, rfl⟩ : ∃ (a : Fin 10000) (b : Fin 128), y = ix2 a b := ⟨y 0, y 1, eq_ix2 y⟩
  obtain ⟨r, c, rfl⟩ : ∃ (r : Fin 100000) (c : Fin 128), i = ix2 r c := ⟨i 0, i 1, eq_ix2 i⟩
  obtain rfl : c = b := Fin.ext hi1
  rw [pay3_apply, whole3_apply]
  exact Finset.sum_congr rfl fun k _ => by rw [hx0 (ix2 a k) (ix2 r k) hi0 rfl, hx1]

/-- The index maps over the grid of 10 points: the left operand's and the output's block is row block t, the right
    operand's is its whole array. -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole product. -/
theorem writtenBack3 (c : Dev nD) (t : Fin cfg3.N) :
    (dat3 V c).flushed 2 t = ((cfg3.win 2).blk t).view.read (Elt Ideal)
      (Host.dotGeneral (F := Ideal) (φ₁ := .f32) (φ₂ := .f32) Cert.ReferenceIdeal.dot_S100000x128_S128x128_S100000x128_1_0_0_1_n_n none (V c main_v55) (V c main_arg4)) := by
  show (cfg3.win 2).cut (grid3.coords t) ((dat3 V c).after 2 t) = _
  rw [after3_2]
  unfold out3_2
  rw [View.canon_unit_zero zero_offsets]
  simp only [View.ld_unit_zero (S := S10000x128) zero_offsets, View.ld_unit_zero (S := S128x128) zero_offsets]
  obtain ⟨e00, e01, e10, e11, e20, e21⟩ := blockIndex3 t
  funext y
  show k3_pay1 (iblk3 V c 0 t) (iblk3 V c 1 t) y
    = Host.dotGeneral (F := Ideal) (φ₁ := .f32) (φ₂ := .f32) Cert.ReferenceIdeal.dot_S100000x128_S128x128_S100000x128_1_0_0_1_n_n none (V c main_v55) (V c main_arg4) (((cfg3.win 2).blk t).view.emb y)
  refine blockProduct3 (V c main_v55) (V c main_arg4) (iblk3 V c 0 t) (iblk3 V c 1 t) t.val ?_ ?_ y _ ?_ ?_
  · intro z z' h0 h1
    show V c main_v55 (((cfg3.win 0).blk t).view.emb z) = V c main_v55 z'
    congr 1
    funext a; apply Fin.ext
    match a with
    | ⟨0, _⟩ => show win3_0.index t (0 : Fin 2) * 10000 + 1 * (z 0).val = (z' 0).val; omega
    | ⟨1, _⟩ => show win3_0.index t (1 : Fin 2) * 128 + 1 * (z 1).val = (z' 1).val; omega
  · intro z
    show V c main_arg4 (((cfg3.win 1).blk t).view.emb z) = V c main_arg4 z
    congr 1
    funext a; apply Fin.ext
    match a with
    | ⟨0, _⟩ => show win3_1.index t (0 : Fin 2) * 128 + 1 * (z 0).val = (z 0).val; omega
    | ⟨1, _⟩ => show win3_1.index t (1 : Fin 2) * 128 + 1 * (z 1).val = (z 1).val; omega
  · show win3_2.index t (0 : Fin 2) * 10000 + 1 * (y 0).val = t.val * 10000 + (y 0).val; omega
  · show win3_2.index t (1 : Fin 2) * 128 + 1 * (y 1).val = (y 1).val; omega

/-- An index of the array is in point t's block iff each coordinate is in the block's range on its axis. -/
theorem mem_rowBlock3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v56).slice (win3_2.rect t)).set ↔ _
  rw [View.set_slice_whole, Rect.mem_set_unit]
  exact Iff.rfl

/-- Every index is covered: row r lies in the block of point r / 10000. -/
theorem rows_covered3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : grid3.N = 10 := N_3
  obtain ⟨t, ht⟩ : ∃ t : Fin cfg3.N, t.val = (i 0).val / 10000 :=
    ⟨⟨(i 0).val / 10000, by show (i 0).val / 10000 < grid3.N; rw [hN]; omega⟩, rfl⟩
  obtain ⟨-, -, -, -, e20, e21⟩ := blockIndex3 t
  refine ⟨t, flush3_2 t, ?_⟩
  rw [mem_rowBlock3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-! ## Region 6: x [100000, 128] times w [128, 1] -/

theorem kernelDot6 : dot_S10000x128_S128x1_S10000x1_1_0_0_1_n_n = DotDims.plain 10000 128 1 := rfl
theorem wholeDot6 : Cert.ReferenceIdeal.dot_S100000x128_S128x1_S100000x1_1_0_0_1_n_n = DotDims.plain 100000 128 1 := rfl

/-- The body's payload at (a, b) of a block: the sum over k of x0(a,k)·x1(k,b) (the cast to bf16 and the cast to the same shape are the identity). -/
theorem pay6_apply (x0 : Vec Ideal S10000x128 .f32) (x1 : Vec Ideal S128x1 .f32) (a : Fin 10000) (b : Fin 1) :
    k6_pay1 x0 x1 (ix2 a b) = ∑ k : Fin 128, x0 (ix2 a k) * x1 (ix2 k b) := by
  unfold k6_pay1
  rw [kernelDot6, shapeCast_self]
  exact matmul_plain_apply 10000 128 1 _ _ a b

/-- The whole product at (r, c). -/
theorem whole6_apply (X : S100000x128.Idx → EReal) (W : S128x1.Idx → EReal) (r : Fin 100000) (c : Fin 1) :
    Host.dotGeneral (F := Ideal) (φ₁ := .f32) (φ₂ := .f32) Cert.ReferenceIdeal.dot_S100000x128_S128x1_S100000x1_1_0_0_1_n_n none X W (ix2 r c)
      = ∑ k : Fin 128, X (ix2 r k) * W (ix2 k c) := by
  rw [wholeDot6]
  exact dotGeneral_plain_apply 100000 128 1 X W r c

/-- Block q of the rows: when x0 is rows [10000 q, 10000 q + 10000) of X and x1 is W, the block product at y is the
    whole product at row 10000 q + y 0, column y 1. -/
theorem blockProduct6 (X : S100000x128.Idx → EReal) (W : S128x1.Idx → EReal) (x0 : Vec Ideal S10000x128 .f32) (x1 : Vec Ideal S128x1 .f32) (q : Nat)
    (hx0 : ∀ (z : S10000x128.Idx) (z' : S100000x128.Idx), (z' 0).val = q * 10000 + (z 0).val → (z' 1).val = (z 1).val → x0 z = X z')
    (hx1 : ∀ z, x1 z = W z)
    (y : S10000x1.Idx) (i : S100000x1.Idx) (hi0 : (i 0).val = q * 10000 + (y 0).val) (hi1 : (i 1).val = (y 1).val) :
    k6_pay1 x0 x1 y = Host.dotGeneral (F := Ideal) (φ₁ := .f32) (φ₂ := .f32) Cert.ReferenceIdeal.dot_S100000x128_S128x1_S100000x1_1_0_0_1_n_n none X W i := by
  obtain ⟨a, b, rfl⟩ : ∃ (a : Fin 10000) (b : Fin 1), y = ix2 a b := ⟨y 0, y 1, eq_ix2 y⟩
  obtain ⟨r, c, rfl⟩ : ∃ (r : Fin 100000) (c : Fin 1), i = ix2 r c := ⟨i 0, i 1, eq_ix2 i⟩
  obtain rfl : c = b := Fin.ext hi1
  rw [pay6_apply, whole6_apply]
  exact Finset.sum_congr rfl fun k _ => by rw [hx0 (ix2 a k) (ix2 r k) hi0 rfl, hx1]

/-- The index maps over the grid of 10 points: the left operand's and the output's block is row block t, the right
    operand's is its whole array. -/
theorem blockIndex6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the whole product. -/
theorem writtenBack6 (c : Dev nD) (t : Fin cfg6.N) :
    (dat6 V c).flushed 2 t = ((cfg6.win 2).blk t).view.read (Elt Ideal)
      (Host.dotGeneral (F := Ideal) (φ₁ := .f32) (φ₂ := .f32) Cert.ReferenceIdeal.dot_S100000x128_S128x1_S100000x1_1_0_0_1_n_n none (V c main_v80) (V c main_arg6)) := by
  show (cfg6.win 2).cut (grid6.coords t) ((dat6 V c).after 2 t) = _
  rw [after6_2]
  unfold out6_2
  rw [View.canon_unit_zero zero_offsets]
  simp only [View.ld_unit_zero (S := S10000x128) zero_offsets, View.ld_unit_zero (S := S128x1) zero_offsets]
  obtain ⟨e00, e01, e10, e11, e20, e21⟩ := blockIndex6 t
  funext y
  show k6_pay1 (iblk6 V c 0 t) (iblk6 V c 1 t) y
    = Host.dotGeneral (F := Ideal) (φ₁ := .f32) (φ₂ := .f32) Cert.ReferenceIdeal.dot_S100000x128_S128x1_S100000x1_1_0_0_1_n_n none (V c main_v80) (V c main_arg6) (((cfg6.win 2).blk t).view.emb y)
  refine blockProduct6 (V c main_v80) (V c main_arg6) (iblk6 V c 0 t) (iblk6 V c 1 t) t.val ?_ ?_ y _ ?_ ?_
  · intro z z' h0 h1
    show V c main_v80 (((cfg6.win 0).blk t).view.emb z) = V c main_v80 z'
    congr 1
    funext a; apply Fin.ext
    match a with
    | ⟨0, _⟩ => show win6_0.index t (0 : Fin 2) * 10000 + 1 * (z 0).val = (z' 0).val; omega
    | ⟨1, _⟩ => show win6_0.index t (1 : Fin 2) * 128 + 1 * (z 1).val = (z' 1).val; omega
  · intro z
    show V c main_arg6 (((cfg6.win 1).blk t).view.emb z) = V c main_arg6 z
    congr 1
    funext a; apply Fin.ext
    match a with
    | ⟨0, _⟩ => show win6_1.index t (0 : Fin 2) * 128 + 1 * (z 0).val = (z 0).val; omega
    | ⟨1, _⟩ => show win6_1.index t (1 : Fin 2) * 1 + 1 * (z 1).val = (z 1).val; omega
  · show win6_2.index t (0 : Fin 2) * 10000 + 1 * (y 0).val = t.val * 10000 + (y 0).val; omega
  · show win6_2.index t (1 : Fin 2) * 1 + 1 * (y 1).val = (y 1).val; omega

/-- An index of the array is in point t's block iff each coordinate is in the block's range on its axis. -/
theorem mem_rowBlock6 (t : Fin cfg6.N) (i : S100000x1.Idx) :
    i ∈ ((cfg6.win 2).blk t).view.set ↔ ∀ a : Fin 2, win6_2.index t a * S10000x1.size a ≤ (i a).val ∧ (i a).val < win6_2.index t a * S10000x1.size a + S10000x1.size a := by
  show i ∈ ((View.whole main_v81).slice (win6_2.rect t)).set ↔ _
  rw [View.set_slice_whole, Rect.mem_set_unit]
  exact Iff.rfl

/-- Every index is covered: row r lies in the block of point r / 10000. -/
theorem rows_covered6 (i : S100000x1.Idx) : ∃ t : Fin cfg6.N, (cfg6.win 2).flush t = true ∧ i ∈ ((cfg6.win 2).blk t).view.set := by
  have hi0 : (i 0).val < 100000 := (i 0).isLt
  have hi1 : (i 1).val < 1 := (i 1).isLt
  have hN : grid6.N = 10 := N_6
  obtain ⟨t, ht⟩ : ∃ t : Fin cfg6.N, t.val = (i 0).val / 10000 :=
    ⟨⟨(i 0).val / 10000, by show (i 0).val / 10000 < grid6.N; rw [hN]; omega⟩, rfl⟩
  obtain ⟨-, -, -, -, e20, e21⟩ := blockIndex6 t
  refine ⟨t, flush6_2 t, ?_⟩
  rw [mem_rowBlock6]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 1 ≤ (i 1).val ∧ (i 1).val < win6_2.index t (1 : Fin 2) * 1 + 1; omega

end Linear

open Linear

/-! ## The three output arrays -/

/-- The output array after region 0 is the whole product of the region's two input arrays. -/
theorem final0 (c : Dev nD) : (Gen.dat0 (F := Ideal) V c).arrAt 2 cfg0.N
    = Host.dotGeneral (F := Ideal) (φ₁ := .f32) (φ₂ := .f32) Cert.ReferenceIdeal.dot_S100000x6_S6x128_S100000x128_1_0_0_1_n_n none (V c main_arg0) (V c main_arg2) :=
  (dat0 V c).arrAt_eq_of_cover 2 _ (fun t _ => writtenBack0 V c t) rows_covered0

/-- The output array after region 3 is the whole product of the region's two input arrays. -/
theorem final3 (c : Dev nD) : (Gen.dat3 (F := Ideal) V c).arrAt 2 cfg3.N
    = Host.dotGeneral (F := Ideal) (φ₁ := .f32) (φ₂ := .f32) Cert.ReferenceIdeal.dot_S100000x128_S128x128_S100000x128_1_0_0_1_n_n none (V c main_v55) (V c main_arg4) :=
  (dat3 V c).arrAt_eq_of_cover 2 _ (fun t _ => writtenBack3 V c t) rows_covered3

/-- The output array after region 6 is the whole product of the region's two input arrays. -/
theorem final6 (c : Dev nD) : (Gen.dat6 (F := Ideal) V c).arrAt 2 cfg6.N
    = Host.dotGeneral (F := Ideal) (φ₁ := .f32) (φ₂ := .f32) Cert.ReferenceIdeal.dot_S100000x128_S128x1_S100000x1_1_0_0_1_n_n none (V c main_v80) (V c main_arg6) :=
  (dat6 V c).arrAt_eq_of_cover 2 _ (fun t _ => writtenBack6 V c t) rows_covered6

end Cert.KernelIdeal.RegionValue

end
-- ==== Proof.RegionScale.lean ====
import proofs.«149244_j87471303950804_1_alg».proof.Proof.Gen.KernelIdeal.Frame
import proofs.«149244_j87471303950804_1_alg».proof.Proof.Gen.ReferenceIdeal
import Idealize.ShloMosaic.Lib.Pipeline.Value
import Idealize.ShloMosaic.Lib.ValueLayout

set_option maxRecDepth 16384

/-! # The three row-scaling regions

Each of the three regions multiplies an array of 740000 rows, block of 10000 rows by block, by a column of
740000 norms broadcast along the row: entry `(r, j)` of the result is `g (r, j) · norm r`. The column the
regions read is the vector of norms reshaped `[740000] → [740000, 1]`, whose row `r` is `norm r`; the other
side broadcasts the same vector along rows and then along lanes, which reads `norm r` at `(r, j)` as well.
So the array each region leaves is the array it found times the broadcast norms.

The steps, per region: the body's product at an index of a block; a block's entry sits in the array at
block index × 10000 + its row, and the three windows of a region move together (block `t` at grid point
`t`), so what point `t` writes back is block `t` of one whole-array product; the 74 blocks cover the
740000 rows (row `r` lies in block `r / 10000`); hence the array after the region is that product. -/

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-! ## The column of norms, read at an index -/

/-- The vector of norms reshaped to a column holds, in row `r`, the norm of row `r`. -/
theorem column_apply (nrm : S740000.Idx → EReal) (hcast : S740000.ShapeCasts S740000x1) (r : Fin 740000) (u : Fin 1) :
    shapeCast S740000x1 nrm hcast (ix2 r u) = nrm (ix1 r) :=
  shapeCast_apply nrm hcast _ _ (by
    have hu : u.val = 0 := by omega
    rw [Shape.rowMajor_val_two, Shape.rowMajor_val_one]
    show r.val = r.val * 1 + u.val
    omega)

/-- The vector of norms broadcast along the rows of a column holds, in row `r`, the norm of row `r`. -/
theorem bcastColumn_apply (nrm : S740000.Idx → EReal)
    (h : Cert.ReferenceIdeal.S740000.BroadcastsInDim Cert.ReferenceIdeal.S740000x1 (![0] : Fin 1 → Fin Cert.ReferenceIdeal.S740000x1.rank))
    (r : Fin 740000) (u : Fin 1) :
    broadcastInDim Cert.ReferenceIdeal.S740000x1 ![0] h nrm (ix2 r u) = nrm (ix1 r) := by
  refine broadcastInDim_apply _ h nrm (ix2 r u) (ix1 r) fun a => ?_
  match a with
  | ⟨0, _⟩ =>
    show r.val = if (740000 : Nat) = 1 then 0 else r.val
    rw [if_neg (by decide)]

/-- A column broadcast along the lanes holds, at `(r, q)`, the column's row `r`. -/
theorem bcastLanes_apply (col : S740000x1.Idx → EReal)
    (h : Cert.ReferenceIdeal.S740000x1.BroadcastsInDim Cert.ReferenceIdeal.S740000x128 (![0, 1] : Fin 2 → Fin Cert.ReferenceIdeal.S740000x128.rank))
    (r : Fin 740000) (q : Fin 128) :
    broadcastInDim Cert.ReferenceIdeal.S740000x128 ![0, 1] h col (ix2 r q) = col (ix2 r (0 : Fin 1)) := by
  refine broadcastInDim_apply _ h col (ix2 r q) (ix2 r (0 : Fin 1)) fun a => ?_
  match a with
  | ⟨0, _⟩ =>
    show r.val = if (740000 : Nat) = 1 then 0 else r.val
    rw [if_neg (by decide)]
  | ⟨1, _⟩ =>
    show (0 : Nat) = if (1 : Nat) = 1 then 0 else q.val
    rw [if_pos rfl]

/-! ## The body's product at an index -/

/-- The block product: entry `(p, q)` is the block's entry times the column's row `p`. -/
theorem pay1_apply (x0 : Vec Ideal S10000x128 .f32) (x1 : Vec Ideal S10000x1 .f32) (p : Fin 10000) (q : Fin 128) :
    k1_pay1 x0 x1 (ix2 p q) = x0 (ix2 p q) * x1 (ix2 p (0 : Fin 1)) := by
  unfold k1_pay1
  show mulf (F := Ideal) (s := S10000x128) (φ := .f32) _ _ (ix2 p q) = _
  rw [mulf_apply, shapeCast_self, shapeCast_self]
  congr 1
  refine broadcastTo_apply x1 _ (ix2 p q) (ix2 p (0 : Fin 1)) fun a => ?_
  match a with
  | ⟨0, _⟩ =>
    show p.val = if (10000 : Nat) = 1 then 0 else p.val
    rw [if_neg (by decide)]
  | ⟨1, _⟩ =>
    show (0 : Nat) = if (1 : Nat) = 1 then 0 else q.val
    rw [if_pos rfl]

theorem zeroOffsets : (![0, 0] : Fin 2 → Nat) = fun _ => 0 := funext fun a => by fin_cases a <;> rfl

/-- The block index of each window at point `t`: block row `t`, block column `0`. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-! ## Region 1: from blocks to the array -/

/-- The scaled array: entry `(r, j)` is `g (r, j)` times the column's row `r`. -/
abbrev scaledRows (g : S740000x128.Idx → EReal) (col : S740000x1.Idx → EReal) : S740000x128.Idx → EReal :=
  fun i => g i * col (ix2 (i 0) (0 : Fin 1))

/-- Block `t` of the product, at `(p, q)`: the body's product of the blocks of any two arrays is the scaled array at
    the entry of the output's block. -/
theorem block1_apply (g : S740000x128.Idx → EReal) (col : S740000x1.Idx → EReal) (t : Fin cfg1.N) (p : Fin 10000) (q : Fin 128) :
    k1_pay1 (((cfg1.win 0).blk t).view.read (Elt Ideal) g) (((cfg1.win 1).blk t).view.read (Elt Ideal) col) (ix2 p q)
      = scaledRows g col (((cfg1.win 2).blk t).view.emb (ix2 p q)) := by
  obtain ⟨e0, e1, e2, e3, e4, e5⟩ := blockIndex1 t
  refine (pay1_apply _ _ p q).trans ?_
  show g (((cfg1.win 0).blk t).view.emb (ix2 p q)) * col (((cfg1.win 1).blk t).view.emb (ix2 p (0 : Fin 1)))
     = g (((cfg1.win 2).blk t).view.emb (ix2 p q)) * col (ix2 ((((cfg1.win 2).blk t).view.emb (ix2 p q)) 0) (0 : Fin 1))
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  have h1 : ((cfg1.win 1).blk t).view.emb (ix2 p (0 : Fin 1)) = ix2 ((((cfg1.win 2).blk t).view.emb (ix2 p q)) 0) (0 : Fin 1) := by
    funext a; apply Fin.ext
    match a with
    | ⟨0, _⟩ => show win1_1.index t (0 : Fin 2) * 10000 + 1 * p.val = win1_2.index t (0 : Fin 2) * 10000 + 1 * p.val; omega
    | ⟨1, _⟩ => show win1_1.index t (1 : Fin 2) * 1 + 1 * 0 = 0; omega
  exact congrArg₂ (· * ·) (congrArg g h0) (congrArg col h1)

/-- What point `t` writes back is block `t` of the scaled array. -/
theorem flushed1_eq (c : Dev nD) (t : Fin cfg1.N) :
    (dat1 V c).flushed 2 t = ((cfg1.win 2).blk t).view.read (Elt Ideal) (scaledRows (V c main_v38) (V c main_v30)) := by
  show (cfg1.win 2).cut (grid1.coords t) ((dat1 V c).after 2 t) = _
  rw [after1_2]
  unfold out1_2
  rw [View.canon_unit_zero zeroOffsets]
  simp only [View.ld_unit_zero (S := S10000x128) zeroOffsets, View.ld_unit_zero (S := S10000x1) zeroOffsets]
  funext j
  obtain ⟨p, q, rfl⟩ : ∃ (p : Fin 10000) (q : Fin 128), j = ix2 p q := ⟨j 0, j 1, eq_ix2 j⟩
  exact block1_apply (V c main_v38) (V c main_v30) t p q

/-- An index of the array is in point `t`'s block iff each coordinate is in the block's range on its axis. -/
theorem mem_blk1 (t : Fin cfg1.N) (i : S740000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v39).slice (win1_2.rect t)).set ↔ _
  rw [View.set_slice_whole, Rect.mem_set_unit]
  exact Iff.rfl

/-- Every index of the array is in the block of the point `row / 10000`. -/
theorem cover1 (i : S740000x128.Idx) :
    ∃ t : Fin cfg1.N, (cfg1.win 2).flush t = true ∧ i ∈ ((cfg1.win 2).blk t).view.set := by
  have hN : cfg1.N = 74 := N_1
  have hi0 : (i 0).val < 740000 := (i 0).isLt
  have hi1 : (i 1).val < 128 := (i 1).isLt
  refine ⟨⟨(i 0).val / 10000, by rw [hN]; omega⟩, flush1_2 _, ?_⟩
  rw [mem_blk1]
  obtain ⟨e0, e1, e2, e3, e4, e5⟩ := blockIndex1 ⟨(i 0).val / 10000, by rw [hN]; omega⟩
  intro a
  match a with
  | ⟨0, _⟩ =>
    show win1_2.index _ (0 : Fin 2) * 10000 ≤ (i 0).val ∧ (i 0).val < win1_2.index _ (0 : Fin 2) * 10000 + 10000
    rw [e4]
    show (i 0).val / 10000 * 10000 ≤ (i 0).val ∧ (i 0).val < (i 0).val / 10000 * 10000 + 10000
    omega
  | ⟨1, _⟩ =>
    show win1_2.index _ (1 : Fin 2) * 128 ≤ (i 1).val ∧ (i 1).val < win1_2.index _ (1 : Fin 2) * 128 + 128
    rw [e5]
    omega

/-- The array after region 1 is the scaled array of the arrays the region found. -/
theorem arr1_eq (c : Dev nD) : (dat1 V c).arrAt 2 cfg1.N = scaledRows (V c main_v38) (V c main_v30) :=
  (dat1 V c).arrAt_eq_of_cover 2 (scaledRows (V c main_v38) (V c main_v30)) (fun t _ => flushed1_eq V c t) cover1

/-- The scaled array of a reshaped vector of norms is the product with the norms broadcast along rows, then lanes. -/
theorem scaledRows_eq (g : S740000x128.Idx → EReal) (nrm : S740000.Idx → EReal) (hcast : S740000.ShapeCasts S740000x1)
    (h1 : Cert.ReferenceIdeal.S740000.BroadcastsInDim Cert.ReferenceIdeal.S740000x1 (![0] : Fin 1 → Fin Cert.ReferenceIdeal.S740000x1.rank))
    (h2 : Cert.ReferenceIdeal.S740000x1.BroadcastsInDim Cert.ReferenceIdeal.S740000x128 (![0, 1] : Fin 2 → Fin Cert.ReferenceIdeal.S740000x128.rank)) :
    scaledRows g (shapeCast S740000x1 nrm hcast)
      = mulf (F := Ideal) (s := Cert.ReferenceIdeal.S740000x128) (φ := .f32) g
          (broadcastInDim Cert.ReferenceIdeal.S740000x128 ![0, 1] h2 (broadcastInDim Cert.ReferenceIdeal.S740000x1 ![0] h1 nrm)) := by
  funext i
  obtain ⟨r, q, rfl⟩ : ∃ (r : Fin 740000) (q : Fin 128), i = ix2 r q := ⟨i 0, i 1, eq_ix2 i⟩
  show g (ix2 r q) * shapeCast S740000x1 nrm hcast (ix2 r (0 : Fin 1))
     = g (ix2 r q) * broadcastInDim Cert.ReferenceIdeal.S740000x128 ![0, 1] h2 (broadcastInDim Cert.ReferenceIdeal.S740000x1 ![0] h1 nrm) (ix2 r q)
  rw [column_apply, bcastLanes_apply, bcastColumn_apply]

/-- REGION 1: the array after the region is the array it found times the norms, row by row. -/
theorem final1 (c : Dev nD) (nrm : (⟨Cert.KernelIdeal.S740000, .f32⟩ : BufTy).Contents (Elt Ideal))
    (hcast : Cert.KernelIdeal.S740000.ShapeCasts Cert.KernelIdeal.S740000x1)
    (hn : V c main_v30 = shapeCast Cert.KernelIdeal.S740000x1 nrm hcast) :
    (Gen.dat1 (F := Ideal) V c).arrAt 2 cfg1.N
      = mulf (F := Ideal) (s := Cert.ReferenceIdeal.S740000x128) (φ := .f32) (V c main_v38)
          (broadcastInDim Cert.ReferenceIdeal.S740000x128 ![0, 1] Cert.ReferenceIdeal.Facts₀.bcast_S740000x1_S740000x128_0_1
            (broadcastInDim Cert.ReferenceIdeal.S740000x1 ![0] Cert.ReferenceIdeal.Facts₀.bcast_S740000_S740000x1_0 nrm)) := by
  rw [arr1_eq, hn]
  exact scaledRows_eq _ nrm hcast _ _

/-! ## Region 4: the same product, on another pair of arrays -/

/-- The block product: entry `(p, q)` is the block's entry times the column's row `p`. -/
theorem pay4_apply (x0 : Vec Ideal S10000x128 .f32) (x1 : Vec Ideal S10000x1 .f32) (p : Fin 10000) (q : Fin 128) :
    k4_pay1 x0 x1 (ix2 p q) = x0 (ix2 p q) * x1 (ix2 p (0 : Fin 1)) := by
  unfold k4_pay1
  show mulf (F := Ideal) (s := S10000x128) (φ := .f32) _ _ (ix2 p q) = _
  rw [mulf_apply, shapeCast_self, shapeCast_self]
  congr 1
  refine broadcastTo_apply x1 _ (ix2 p q) (ix2 p (0 : Fin 1)) fun a => ?_
  match a with
  | ⟨0, _⟩ =>
    show p.val = if (10000 : Nat) = 1 then 0 else p.val
    rw [if_neg (by decide)]
  | ⟨1, _⟩ =>
    show (0 : Nat) = if (1 : Nat) = 1 then 0 else q.val
    rw [if_pos rfl]

/-- The block index of each window at point `t`: block row `t`, block column `0`. -/
theorem blockIndex4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- Block `t` of the product, at `(p, q)`: the body's product of the blocks of any two arrays is the scaled array at
    the entry of the output's block. -/
theorem block4_apply (g : S740000x128.Idx → EReal) (col : S740000x1.Idx → EReal) (t : Fin cfg4.N) (p : Fin 10000) (q : Fin 128) :
    k4_pay1 (((cfg4.win 0).blk t).view.read (Elt Ideal) g) (((cfg4.win 1).blk t).view.read (Elt Ideal) col) (ix2 p q)
      = scaledRows g col (((cfg4.win 2).blk t).view.emb (ix2 p q)) := by
  obtain ⟨e0, e1, e2, e3, e4, e5⟩ := blockIndex4 t
  refine (pay4_apply _ _ p q).trans ?_
  show g (((cfg4.win 0).blk t).view.emb (ix2 p q)) * col (((cfg4.win 1).blk t).view.emb (ix2 p (0 : Fin 1)))
     = g (((cfg4.win 2).blk t).view.emb (ix2 p q)) * col (ix2 ((((cfg4.win 2).blk t).view.emb (ix2 p q)) 0) (0 : Fin 1))
  have h0 : ((cfg4.win 0).blk t).view.emb (ix2 p q) = ((cfg4.win 2).blk t).view.emb (ix2 p q) := by
    funext a; apply Fin.ext
    match a with
    | ⟨0, _⟩ => show win4_0.index t (0 : Fin 2) * 10000 + 1 * p.val = win4_2.index t (0 : Fin 2) * 10000 + 1 * p.val; omega
    | ⟨1, _⟩ => show win4_0.index t (1 : Fin 2) * 128 + 1 * q.val = win4_2.index t (1 : Fin 2) * 128 + 1 * q.val; omega
  have h1 : ((cfg4.win 1).blk t).view.emb (ix2 p (0 : Fin 1)) = ix2 ((((cfg4.win 2).blk t).view.emb (ix2 p q)) 0) (0 : Fin 1) := by
    funext a; apply Fin.ext
    match a with
    | ⟨0, _⟩ => show win4_1.index t (0 : Fin 2) * 10000 + 1 * p.val = win4_2.index t (0 : Fin 2) * 10000 + 1 * p.val; omega
    | ⟨1, _⟩ => show win4_1.index t (1 : Fin 2) * 1 + 1 * 0 = 0; omega
  exact congrArg₂ (· * ·) (congrArg g h0) (congrArg col h1)

/-- What point `t` writes back is block `t` of the scaled array. -/
theorem flushed4_eq (c : Dev nD) (t : Fin cfg4.N) :
    (dat4 V c).flushed 2 t = ((cfg4.win 2).blk t).view.read (Elt Ideal) (scaledRows (V c main_v63) (V c main_v30)) := by
  show (cfg4.win 2).cut (grid4.coords t) ((dat4 V c).after 2 t) = _
  rw [after4_2]
  unfold out4_2
  rw [View.canon_unit_zero zeroOffsets]
  simp only [View.ld_unit_zero (S := S10000x128) zeroOffsets, View.ld_unit_zero (S := S10000x1) zeroOffsets]
  funext j
  obtain ⟨p, q, rfl⟩ : ∃ (p : Fin 10000) (q : Fin 128), j = ix2 p q := ⟨j 0, j 1, eq_ix2 j⟩
  exact block4_apply (V c main_v63) (V c main_v30) t p q

/-- An index of the array is in point `t`'s block iff each coordinate is in the block's range on its axis. -/
theorem mem_blk4 (t : Fin cfg4.N) (i : S740000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v64).slice (win4_2.rect t)).set ↔ _
  rw [View.set_slice_whole, Rect.mem_set_unit]
  exact Iff.rfl

/-- Every index of the array is in the block of the point `row / 10000`. -/
theorem cover4 (i : S740000x128.Idx) :
    ∃ t : Fin cfg4.N, (cfg4.win 2).flush t = true ∧ i ∈ ((cfg4.win 2).blk t).view.set := by
  have hN : cfg4.N = 74 := N_4
  have hi0 : (i 0).val < 740000 := (i 0).isLt
  have hi1 : (i 1).val < 128 := (i 1).isLt
  refine ⟨⟨(i 0).val / 10000, by rw [hN]; omega⟩, flush4_2 _, ?_⟩
  rw [mem_blk4]
  obtain ⟨e0, e1, e2, e3, e4, e5⟩ := blockIndex4 ⟨(i 0).val / 10000, by rw [hN]; omega⟩
  intro a
  match a with
  | ⟨0, _⟩ =>
    show win4_2.index _ (0 : Fin 2) * 10000 ≤ (i 0).val ∧ (i 0).val < win4_2.index _ (0 : Fin 2) * 10000 + 10000
    rw [e4]
    show (i 0).val / 10000 * 10000 ≤ (i 0).val ∧ (i 0).val < (i 0).val / 10000 * 10000 + 10000
    omega
  | ⟨1, _⟩ =>
    show win4_2.index _ (1 : Fin 2) * 128 ≤ (i 1).val ∧ (i 1).val < win4_2.index _ (1 : Fin 2) * 128 + 128
    rw [e5]
    omega

/-- The array after region 4 is the scaled array of the arrays the region found. -/
theorem arr4_eq (c : Dev nD) : (dat4 V c).arrAt 2 cfg4.N = scaledRows (V c main_v63) (V c main_v30) :=
  (dat4 V c).arrAt_eq_of_cover 2 (scaledRows (V c main_v63) (V c main_v30)) (fun t _ => flushed4_eq V c t) cover4

/-- REGION 4: the array after the region is the array it found times the norms, row by row. -/
theorem final4 (c : Dev nD) (nrm : (⟨Cert.KernelIdeal.S740000, .f32⟩ : BufTy).Contents (Elt Ideal))
    (hcast : Cert.KernelIdeal.S740000.ShapeCasts Cert.KernelIdeal.S740000x1)
    (hn : V c main_v30 = shapeCast Cert.KernelIdeal.S740000x1 nrm hcast) :
    (Gen.dat4 (F := Ideal) V c).arrAt 2 cfg4.N
      = mulf (F := Ideal) (s := Cert.ReferenceIdeal.S740000x128) (φ := .f32) (V c main_v63)
          (broadcastInDim Cert.ReferenceIdeal.S740000x128 ![0, 1] Cert.ReferenceIdeal.Facts₀.bcast_S740000x1_S740000x128_0_1
            (broadcastInDim Cert.ReferenceIdeal.S740000x1 ![0] Cert.ReferenceIdeal.Facts₀.bcast_S740000_S740000x1_0 nrm)) := by
  rw [arr4_eq, hn]
  exact scaledRows_eq _ nrm hcast _ _

/-! ## Region 7: a column times the column of norms -/

/-- The reshaped vector of norms is the vector broadcast along the rows of a column. -/
theorem column_eq_bcastColumn (nrm : S740000.Idx → EReal) (hcast : S740000.ShapeCasts S740000x1)
    (h : Cert.ReferenceIdeal.S740000.BroadcastsInDim Cert.ReferenceIdeal.S740000x1 (![0] : Fin 1 → Fin Cert.ReferenceIdeal.S740000x1.rank)) :
    shapeCast S740000x1 nrm hcast = broadcastInDim Cert.ReferenceIdeal.S740000x1 ![0] h nrm := by
  funext i
  obtain ⟨r, u, rfl⟩ : ∃ (r : Fin 740000) (u : Fin 1), i = ix2 r u := ⟨i 0, i 1, eq_ix2 i⟩
  rw [column_apply, bcastColumn_apply]

/-- The body's product of two column blocks is their product entry by entry. -/
theorem pay7_apply (x0 : Vec Ideal S10000x1 .f32) (x1 : Vec Ideal S10000x1 .f32) (j : S10000x1.Idx) :
    k7_pay1 x0 x1 j = x0 j * x1 j := by
  unfold k7_pay1
  show mulf (F := Ideal) (s := S10000x1) (φ := .f32) _ _ j = _
  rw [mulf_apply, shapeCast_self, shapeCast_self]

/-- The block index of each window at point `t`: block row `t`, block column `0`. -/
theorem blockIndex7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- Block `t` of the product, at `(p, u)`: the body's product of the blocks of any two columns is their product at
    the entry of the output's block. -/
theorem block7_apply (g : S740000x1.Idx → EReal) (col : S740000x1.Idx → EReal) (t : Fin cfg7.N) (p : Fin 10000) (u : Fin 1) :
    k7_pay1 (((cfg7.win 0).blk t).view.read (Elt Ideal) g) (((cfg7.win 1).blk t).view.read (Elt Ideal) col) (ix2 p u)
      = mulf (F := Ideal) (s := S740000x1) (φ := .f32) g col (((cfg7.win 2).blk t).view.emb (ix2 p u)) := by
  obtain ⟨e0, e1, e2, e3, e4, e5⟩ := blockIndex7 t
  refine (pay7_apply _ _ (ix2 p u)).trans ?_
  show g (((cfg7.win 0).blk t).view.emb (ix2 p u)) * col (((cfg7.win 1).blk t).view.emb (ix2 p u))
     = g (((cfg7.win 2).blk t).view.emb (ix2 p u)) * col (((cfg7.win 2).blk t).view.emb (ix2 p u))
  have h0 : ((cfg7.win 0).blk t).view.emb (ix2 p u) = ((cfg7.win 2).blk t).view.emb (ix2 p u) := by
    funext a; apply Fin.ext
    match a with
    | ⟨0, _⟩ => show win7_0.index t (0 : Fin 2) * 10000 + 1 * p.val = win7_2.index t (0 : Fin 2) * 10000 + 1 * p.val; omega
    | ⟨1, _⟩ => show win7_0.index t (1 : Fin 2) * 1 + 1 * u.val = win7_2.index t (1 : Fin 2) * 1 + 1 * u.val; omega
  have h1 : ((cfg7.win 1).blk t).view.emb (ix2 p u) = ((cfg7.win 2).blk t).view.emb (ix2 p u) := by
    funext a; apply Fin.ext
    match a with
    | ⟨0, _⟩ => show win7_1.index t (0 : Fin 2) * 10000 + 1 * p.val = win7_2.index t (0 : Fin 2) * 10000 + 1 * p.val; omega
    | ⟨1, _⟩ => show win7_1.index t (1 : Fin 2) * 1 + 1 * u.val = win7_2.index t (1 : Fin 2) * 1 + 1 * u.val; omega
  exact congrArg₂ (· * ·) (congrArg g h0) (congrArg col h1)

/-- What point `t` writes back is block `t` of the product of the two columns. -/
theorem flushed7_eq (c : Dev nD) (t : Fin cfg7.N) :
    (dat7 V c).flushed 2 t = ((cfg7.win 2).blk t).view.read (Elt Ideal)
      (mulf (F := Ideal) (s := S740000x1) (φ := .f32) (V c main_v88) (V c main_v30)) := by
  show (cfg7.win 2).cut (grid7.coords t) ((dat7 V c).after 2 t) = _
  rw [after7_2]
  unfold out7_2
  rw [View.canon_unit_zero zeroOffsets]
  simp only [View.ld_unit_zero (S := S10000x1) zeroOffsets]
  funext j
  obtain ⟨p, u, rfl⟩ : ∃ (p : Fin 10000) (u : Fin 1), j = ix2 p u := ⟨j 0, j 1, eq_ix2 j⟩
  exact block7_apply (V c main_v88) (V c main_v30) t p u

/-- An index of the column is in point `t`'s block iff each coordinate is in the block's range on its axis. -/
theorem mem_blk7 (t : Fin cfg7.N) (i : S740000x1.Idx) :
    i ∈ ((cfg7.win 2).blk t).view.set ↔ ∀ a : Fin 2, win7_2.index t a * S10000x1.size a ≤ (i a).val ∧ (i a).val < win7_2.index t a * S10000x1.size a + S10000x1.size a := by
  show i ∈ ((View.whole main_v89).slice (win7_2.rect t)).set ↔ _
  rw [View.set_slice_whole, Rect.mem_set_unit]
  exact Iff.rfl

/-- Every index of the column is in the block of the point `row / 10000`. -/
theorem cover7 (i : S740000x1.Idx) :
    ∃ t : Fin cfg7.N, (cfg7.win 2).flush t = true ∧ i ∈ ((cfg7.win 2).blk t).view.set := by
  have hN : cfg7.N = 74 := N_7
  have hi0 : (i 0).val < 740000 := (i 0).isLt
  have hi1 : (i 1).val < 1 := (i 1).isLt
  refine ⟨⟨(i 0).val / 10000, by rw [hN]; omega⟩, flush7_2 _, ?_⟩
  rw [mem_blk7]
  obtain ⟨e0, e1, e2, e3, e4, e5⟩ := blockIndex7 ⟨(i 0).val / 10000, by rw [hN]; omega⟩
  intro a
  match a with
  | ⟨0, _⟩ =>
    show win7_2.index _ (0 : Fin 2) * 10000 ≤ (i 0).val ∧ (i 0).val < win7_2.index _ (0 : Fin 2) * 10000 + 10000
    rw [e4]
    show (i 0).val / 10000 * 10000 ≤ (i 0).val ∧ (i 0).val < (i 0).val / 10000 * 10000 + 10000
    omega
  | ⟨1, _⟩ =>
    show win7_2.index _ (1 : Fin 2) * 1 ≤ (i 1).val ∧ (i 1).val < win7_2.index _ (1 : Fin 2) * 1 + 1
    rw [e5]
    omega

/-- The column after region 7 is the product of the two columns the region found. -/
theorem arr7_eq (c : Dev nD) : (dat7 V c).arrAt 2 cfg7.N = mulf (F := Ideal) (s := S740000x1) (φ := .f32) (V c main_v88) (V c main_v30) :=
  (dat7 V c).arrAt_eq_of_cover 2 (mulf (F := Ideal) (s := S740000x1) (φ := .f32) (V c main_v88) (V c main_v30)) (fun t _ => flushed7_eq V c t) cover7

/-- REGION 7: the column after the region is the column it found times the norms, row by row. -/
theorem final7 (c : Dev nD) (nrm : (⟨Cert.KernelIdeal.S740000, .f32⟩ : BufTy).Contents (Elt Ideal))
    (hcast : Cert.KernelIdeal.S740000.ShapeCasts Cert.KernelIdeal.S740000x1)
    (hn : V c main_v30 = shapeCast Cert.KernelIdeal.S740000x1 nrm hcast) :
    (Gen.dat7 (F := Ideal) V c).arrAt 2 cfg7.N
      = mulf (F := Ideal) (s := Cert.ReferenceIdeal.S740000x1) (φ := .f32) (V c main_v88)
          (broadcastInDim Cert.ReferenceIdeal.S740000x1 ![0] Cert.ReferenceIdeal.Facts₀.bcast_S740000_S740000x1_0 nrm) := by
  rw [arr7_eq, hn, column_eq_bcastColumn nrm hcast Cert.ReferenceIdeal.Facts₀.bcast_S740000_S740000x1_0]

end Cert.KernelIdeal.RegionValue

end
-- ==== Proof.RegionNorm.lean ====
import proofs.«149244_j87471303950804_1_alg».proof.Proof.Gen.KernelIdeal.Frame
import proofs.«149244_j87471303950804_1_alg».proof.Proof.Gen.ReferenceIdeal
import Idealize.ShloMosaic.Lib.Pipeline.Value
import Idealize.ShloMosaic.Lib.ValueLayout
import Idealize.ShloMosaic.Lib.KernelVsHost
import Idealize.ShloMosaic.Lib.IdealHost

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

namespace Norm

/-! ## The batch-norm + ReLU regions

Entry (r, q) of each region's output array is max(g_q · ((agg(r,q) + b_q) − mu_q) · rsqrt(var_q + ε) + be_q, 0): the body
computes it on a block of 10000 rows with the five vectors held as one-row operands, the grid's ten points cover the
100000 rows, and the reference spells the same operations in the same order on whole arrays. The kernel's rsqrt and the
host's are one function on the extended reals, and the two constant words are never evaluated. -/

/-- The body of region 2 read at (p, q): max(g_q · ((x(p,q) + b_q) − mu_q) · rsqrt(var_q + ε) + be_q, 0), the five one-row
    operands read at (0, q) whatever the row p. -/
theorem bnRelu2_apply (x0 : Vec Ideal S10000x128 .f32) (xb xvar xg xmu xbe : Vec Ideal S1x128 .f32)
    (p : Fin 10000) (q : Fin 128) :
    k2_pay1 x0 xb xvar xg xmu xbe (ix2 p q)
      = max (xg (ix2 (0 : Fin 1) q) * ((x0 (ix2 p q) + xb (ix2 (0 : Fin 1) q)) - xmu (ix2 (0 : Fin 1) q))
              * Ideal.rsqrt (xvar (ix2 (0 : Fin 1) q) + Ideal.ofBits .f32 0x3727C5AC#32) + xbe (ix2 (0 : Fin 1) q))
          (Ideal.ofBits .f32 0x00000000#32) := by
  unfold k2_pay1
  simp only [shapeCast_self]
  rw [maximumf_apply, addf_apply, mulf_apply, mulf_apply, subf_apply, addf_apply]
  simp only [broadcastTo_1b_ab_apply, broadcast_apply]
  rfl

/-- The body of region 5 read at (p, q): max(g_q · ((x(p,q) + b_q) − mu_q) · rsqrt(var_q + ε) + be_q, 0), the five one-row
    operands read at (0, q) whatever the row p. -/
theorem bnRelu5_apply (x0 : Vec Ideal S10000x128 .f32) (xb xvar xg xmu xbe : Vec Ideal S1x128 .f32)
    (p : Fin 10000) (q : Fin 128) :
    k5_pay1 x0 xb xvar xg xmu xbe (ix2 p q)
      = max (xg (ix2 (0 : Fin 1) q) * ((x0 (ix2 p q) + xb (ix2 (0 : Fin 1) q)) - xmu (ix2 (0 : Fin 1) q))
              * Ideal.rsqrt (xvar (ix2 (0 : Fin 1) q) + Ideal.ofBits .f32 0x3727C5AC#32) + xbe (ix2 (0 : Fin 1) q))
          (Ideal.ofBits .f32 0x00000000#32) := by
  unfold k5_pay1
  simp only [shapeCast_self]
  rw [maximumf_apply, addf_apply, mulf_apply, mulf_apply, subf_apply, addf_apply]
  simp only [broadcastTo_1b_ab_apply, broadcast_apply]
  rfl

/-! ## The reference's spelling of the same array

A vector of 128 entries becomes a one-row matrix (`rowOf`), the row is repeated down the 100000 rows (`downRows`);
the two scalars ε and 0 are broadcast to a vector and to the whole array. -/

/-- A [128] vector as a [1,128] row (the host's broadcast along axis 1). -/
abbrev rowOf (x : Cert.ReferenceIdeal.S128.Idx → Ideal .f32) : Cert.ReferenceIdeal.S1x128.Idx → Ideal .f32 :=
  broadcastInDim Cert.ReferenceIdeal.S1x128 ![1] Cert.ReferenceIdeal.Facts₀.bcast_S128_S1x128_1 x

/-- A [1,128] row repeated down 100000 rows. -/
abbrev downRows (y : Cert.ReferenceIdeal.S1x128.Idx → Ideal .f32) : Cert.ReferenceIdeal.S100000x128.Idx → Ideal .f32 :=
  broadcastInDim Cert.ReferenceIdeal.S100000x128 ![0, 1] Cert.ReferenceIdeal.Facts₀.bcast_S1x128_S100000x128_0_1 y

/-- The variance offset ε as a [128] vector. -/
abbrev epsVec : Cert.ReferenceIdeal.S128.Idx → Ideal .f32 :=
  broadcastInDim Cert.ReferenceIdeal.S128 ![] Cert.ReferenceIdeal.Facts₀.bcast_S_S128
    (constant (F := Ideal) Cert.ReferenceIdeal.S_ .f32 0x3727C5AC#32)

/-- Zero as a [100000,128] array. -/
abbrev zeroArr : Cert.ReferenceIdeal.S100000x128.Idx → Ideal .f32 :=
  broadcastInDim Cert.ReferenceIdeal.S100000x128 ![] Cert.ReferenceIdeal.Facts₀.bcast_S_S100000x128
    (constant (F := Ideal) Cert.ReferenceIdeal.S_ .f32 0x00000000#32)

/-- The normalised, scaled, shifted and clamped array as one function of the aggregate `agg` and the five vectors:
    max(g · ((agg + b) − mu) · rsqrt(var + ε) + be, 0). -/
abbrev bnReluArr (agg : Cert.ReferenceIdeal.S100000x128.Idx → Ideal .f32)
    (b mu var g be : Cert.ReferenceIdeal.S128.Idx → Ideal .f32) : Cert.ReferenceIdeal.S100000x128.Idx → Ideal .f32 :=
  maximumf (addf (mulf (mulf (downRows (rowOf g)) (subf (addf agg (downRows (rowOf b))) (downRows (rowOf mu))))
    (downRows (rowOf (Host.rsqrt (addf var epsVec))))) (downRows (rowOf be))) zeroArr

/-- A vector as a one-row matrix read at (u, q) is the vector at q. -/
theorem rowOf_apply (x : Cert.ReferenceIdeal.S128.Idx → Ideal .f32) (u : Fin 1) (q : Fin 128) :
    rowOf x (ix2 u q) = x (ix1 q) := by
  refine broadcastInDim_apply ![1] _ x (ix2 u q) (ix1 q) ?_
  intro a
  match a with
  | ⟨0, _⟩ => rfl

/-- A row repeated down the rows read at (r, q) is the row at (0, q). -/
theorem downRows_apply (y : Cert.ReferenceIdeal.S1x128.Idx → Ideal .f32) (r : Fin 100000) (q : Fin 128) :
    downRows y (ix2 r q) = y (ix2 (0 : Fin 1) q) :=
  broadcastInDim_oneRow_apply _ y r q

/-- The reference's array read at (r, q). -/
theorem bnReluArr_apply (agg : Cert.ReferenceIdeal.S100000x128.Idx → Ideal .f32)
    (b mu var g be : Cert.ReferenceIdeal.S128.Idx → Ideal .f32) (r : Fin 100000) (q : Fin 128) :
    bnReluArr agg b mu var g be (ix2 r q)
      = max (g (ix1 q) * ((agg (ix2 r q) + b (ix1 q)) - mu (ix1 q))
              * Ideal.rsqrt (var (ix1 q) + Ideal.ofBits .f32 0x3727C5AC#32) + be (ix1 q))
          (Ideal.ofBits .f32 0x00000000#32) := by
  show maximumf _ _ (ix2 r q) = _
  rw [maximumf_apply, addf_apply, mulf_apply, mulf_apply, subf_apply, addf_apply]
  simp only [downRows_apply, rowOf_apply]
  rfl

/-! ## One point of the grid: the body's result is a block of the whole-array function -/

/-- A one-row array that is a reshaped vector, read at an index whose coordinates are (0, q). -/
theorem rowArray_read (A : S1x128.Idx → Ideal .f32) (x : S128.Idx → Ideal .f32) (hcast : S128.ShapeCasts S1x128)
    (hA : A = shapeCast S1x128 x hcast) (k : S1x128.Idx) (q : Fin 128) (hk0 : (k 0).val = 0) (hk1 : (k 1).val = q.val) :
    A k = x (ix1 q) := by
  subst hA
  have hk : k = ix2 (0 : Fin 1) q := by
    funext a
    match a with
    | ⟨0, _⟩ => exact Fin.ext hk0
    | ⟨1, _⟩ => exact Fin.ext hk1
  rw [hk, shapeCast_a_1a_apply]

theorem zeroOffsets : (![0, 0] : Fin 2 → Nat) = fun _ => 0 := funext fun a => by fin_cases a <;> rfl

/-! ## Region 2 -/

/-- Entry j of region 2's body on a block is entry i of the whole-array function when i lies in j's column, the
    block's entry j is the aggregate's entry i, and each one-row operand is its vector. -/
theorem bnRelu2_point (x0 : Vec Ideal S10000x128 .f32) (xb xvar xg xmu xbe : Vec Ideal S1x128 .f32)
    (agg : S100000x128.Idx → Ideal .f32) (b mu var g be : S128.Idx → Ideal .f32)
    (j : S10000x128.Idx) (i : S100000x128.Idx) (hcol : (i 1).val = (j 1).val) (h0 : x0 j = agg i)
    (hb : ∀ q : Fin 128, xb (ix2 (0 : Fin 1) q) = b (ix1 q)) (hmu : ∀ q : Fin 128, xmu (ix2 (0 : Fin 1) q) = mu (ix1 q))
    (hvar : ∀ q : Fin 128, xvar (ix2 (0 : Fin 1) q) = var (ix1 q)) (hg : ∀ q : Fin 128, xg (ix2 (0 : Fin 1) q) = g (ix1 q))
    (hbe : ∀ q : Fin 128, xbe (ix2 (0 : Fin 1) q) = be (ix1 q)) :
    k2_pay1 x0 xb xvar xg xmu xbe j = bnReluArr agg b mu var g be i := by
  obtain ⟨p, q, rfl⟩ : ∃ (p : Fin 10000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hq : q' = q := Fin.ext hcol
  subst hq
  rw [bnRelu2_apply, bnReluArr_apply, h0, hb, hmu, hvar, hg, hbe]

/-- The printed index maps of region 2, decided over its ten points: the aggregate's and the output's block index is
    (t, 0), the five one-row operands' is (0, 0). -/
theorem idx_facts2 : ∀ t : Fin cfg2.N, win2_6.index t (0 : Fin 2) = t.val ∧ win2_6.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

section Region2
variable (V : (c : Dev nD) → (b : Ref sig .tc) → Buf (Elt Ideal) ((c : Thread nD τ).loc b)) (c : Dev nD)
variable (b mu var g be : (⟨S128, .f32⟩ : BufTy).Contents (Elt Ideal)) (hcast : Cert.KernelIdeal.S128.ShapeCasts Cert.KernelIdeal.S1x128)

/-- What point t writes back is block t of the whole-array function of the aggregate as the region finds it. -/
theorem flushed2_eq (hb : V c main_v52 = shapeCast Cert.KernelIdeal.S1x128 b hcast)
    (hmu : V c main_v49 = shapeCast Cert.KernelIdeal.S1x128 mu hcast) (hvar : V c main_v51 = shapeCast Cert.KernelIdeal.S1x128 var hcast)
    (hg : V c main_v53 = shapeCast Cert.KernelIdeal.S1x128 g hcast) (hbe : V c main_v54 = shapeCast Cert.KernelIdeal.S1x128 be hcast)
    (t : Fin cfg2.N) :
    (dat2 V c).flushed 6 t = ((cfg2.win 6).blk t).view.read (Elt Ideal) (bnReluArr (V c main_v42) b mu var g be) := by
  show (cfg2.win 6).cut (grid2.coords t) ((dat2 V c).after 6 t) = _
  rw [after2_6]
  unfold out2_6
  rw [View.canon_unit_zero zeroOffsets]
  simp only [View.ld_unit_zero (S := S10000x128) zeroOffsets, View.ld_unit_zero (S := S1x128) zeroOffsets]
  obtain ⟨e60, e61, e00, e01, e10, e11, e20, e21, e30, e31, e40, e41, e50, e51⟩ := idx_facts2 t
  funext j
  refine bnRelu2_point _ _ _ _ _ _ (V c main_v42) b mu var g be j (((cfg2.win 6).blk t).view.emb j) ?_ ?_ ?_ ?_ ?_ ?_ ?_
  · show win2_6.index t (1 : Fin 2) * 128 + 1 * (j 1).val = (j 1).val
    omega
  · show V c main_v42 (((cfg2.win 0).blk t).view.emb j) = V c main_v42 (((cfg2.win 6).blk t).view.emb j)
    refine congrArg _ (funext fun a => Fin.ext ?_)
    match a with
    | ⟨0, _⟩ => show win2_0.index t (0 : Fin 2) * 10000 + 1 * (j 0).val = win2_6.index t (0 : Fin 2) * 10000 + 1 * (j 0).val; omega
    | ⟨1, _⟩ => show win2_0.index t (1 : Fin 2) * 128 + 1 * (j 1).val = win2_6.index t (1 : Fin 2) * 128 + 1 * (j 1).val; omega
  · intro q
    show V c main_v52 (((cfg2.win 1).blk t).view.emb (ix2 (0 : Fin 1) q)) = b (ix1 q)
    refine rowArray_read (V c main_v52) b hcast hb _ q ?_ ?_
    · show win2_1.index t (0 : Fin 2) * 1 + 1 * 0 = 0; omega
    · show win2_1.index t (1 : Fin 2) * 128 + 1 * q.val = q.val; omega
  · intro q
    show V c main_v49 (((cfg2.win 2).blk t).view.emb (ix2 (0 : Fin 1) q)) = mu (ix1 q)
    refine rowArray_read (V c main_v49) mu hcast hmu _ q ?_ ?_
    · show win2_2.index t (0 : Fin 2) * 1 + 1 * 0 = 0; omega
    · show win2_2.index t (1 : Fin 2) * 128 + 1 * q.val = q.val; omega
  · intro q
    show V c main_v51 (((cfg2.win 3).blk t).view.emb (ix2 (0 : Fin 1) q)) = var (ix1 q)
    refine rowArray_read (V c main_v51) var hcast hvar _ q ?_ ?_
    · show win2_3.index t (0 : Fin 2) * 1 + 1 * 0 = 0; omega
    · show win2_3.index t (1 : Fin 2) * 128 + 1 * q.val = q.val; omega
  · intro q
    show V c main_v53 (((cfg2.win 4).blk t).view.emb (ix2 (0 : Fin 1) q)) = g (ix1 q)
    refine rowArray_read (V c main_v53) g hcast hg _ q ?_ ?_
    · show win2_4.index t (0 : Fin 2) * 1 + 1 * 0 = 0; omega
    · show win2_4.index t (1 : Fin 2) * 128 + 1 * q.val = q.val; omega
  · intro q
    show V c main_v54 (((cfg2.win 5).blk t).view.emb (ix2 (0 : Fin 1) q)) = be (ix1 q)
    refine rowArray_read (V c main_v54) be hcast hbe _ q ?_ ?_
    · show win2_5.index t (0 : Fin 2) * 1 + 1 * 0 = 0; omega
    · show win2_5.index t (1 : Fin 2) * 128 + 1 * q.val = q.val; omega

end Region2

/-- An index of the array is in point t's block iff each coordinate is in the block's range on its axis. -/
theorem mem_blk2 (t : Fin cfg2.N) (i : S100000x128.Idx) :
    i ∈ ((cfg2.win 6).blk t).view.set ↔ ∀ a : Fin 2, win2_6.index t a * S10000x128.size a ≤ (i a).val ∧ (i a).val < win2_6.index t a * S10000x128.size a + S10000x128.size a := by
  show i ∈ ((View.whole main_v55).slice (win2_6.rect t)).set ↔ _
  rw [View.set_slice_whole, Rect.mem_set_unit]
  exact Iff.rfl

/-- Every index of the array lies in some point's block: row r in the block of point r / 10000. -/
theorem cover2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ : ∃ t : Fin cfg2.N, t.val = (i 0).val / 10000 :=
    ⟨⟨(i 0).val / 10000, by show (i 0).val / 10000 < grid2.N; rw [N_2]; omega⟩, rfl⟩
  obtain ⟨e60, e61, -⟩ := idx_facts2 t
  refine ⟨t, flush2_6 t, ?_⟩
  rw [mem_blk2]
  intro a
  match a with
  | ⟨0, _⟩ => show win2_6.index t (0 : Fin 2) * 10000 ≤ (i 0).val ∧ (i 0).val < win2_6.index t (0 : Fin 2) * 10000 + 10000; omega
  | ⟨1, _⟩ => show win2_6.index t (1 : Fin 2) * 128 ≤ (i 1).val ∧ (i 1).val < win2_6.index t (1 : Fin 2) * 128 + 128; omega

/-! ## Region 5 -/

/-- Entry j of region 5's body on a block is entry i of the whole-array function when i lies in j's column, the
    block's entry j is the aggregate's entry i, and each one-row operand is its vector. -/
theorem bnRelu5_point (x0 : Vec Ideal S10000x128 .f32) (xb xvar xg xmu xbe : Vec Ideal S1x128 .f32)
    (agg : S100000x128.Idx → Ideal .f32) (b mu var g be : S128.Idx → Ideal .f32)
    (j : S10000x128.Idx) (i : S100000x128.Idx) (hcol : (i 1).val = (j 1).val) (h0 : x0 j = agg i)
    (hb : ∀ q : Fin 128, xb (ix2 (0 : Fin 1) q) = b (ix1 q)) (hmu : ∀ q : Fin 128, xmu (ix2 (0 : Fin 1) q) = mu (ix1 q))
    (hvar : ∀ q : Fin 128, xvar (ix2 (0 : Fin 1) q) = var (ix1 q)) (hg : ∀ q : Fin 128, xg (ix2 (0 : Fin 1) q) = g (ix1 q))
    (hbe : ∀ q : Fin 128, xbe (ix2 (0 : Fin 1) q) = be (ix1 q)) :
    k5_pay1 x0 xb xvar xg xmu xbe j = bnReluArr agg b mu var g be i := by
  obtain ⟨p, q, rfl⟩ : ∃ (p : Fin 10000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hq : q' = q := Fin.ext hcol
  subst hq
  rw [bnRelu5_apply, bnReluArr_apply, h0, hb, hmu, hvar, hg, hbe]

/-- The printed index maps of region 5, decided over its ten points: the aggregate's and the output's block index is
    (t, 0), the five one-row operands' is (0, 0). -/
theorem idx_facts5 : ∀ t : Fin cfg5.N, win5_6.index t (0 : Fin 2) = t.val ∧ win5_6.index t (1 : Fin 2) = 0
    ∧ win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

section Region5
variable (V : (c : Dev nD) → (b : Ref sig .tc) → Buf (Elt Ideal) ((c : Thread nD τ).loc b)) (c : Dev nD)
variable (b mu var g be : (⟨S128, .f32⟩ : BufTy).Contents (Elt Ideal)) (hcast : Cert.KernelIdeal.S128.ShapeCasts Cert.KernelIdeal.S1x128)

/-- What point t writes back is block t of the whole-array function of the aggregate as the region finds it. -/
theorem flushed5_eq (hb : V c main_v77 = shapeCast Cert.KernelIdeal.S1x128 b hcast)
    (hmu : V c main_v74 = shapeCast Cert.KernelIdeal.S1x128 mu hcast) (hvar : V c main_v76 = shapeCast Cert.KernelIdeal.S1x128 var hcast)
    (hg : V c main_v78 = shapeCast Cert.KernelIdeal.S1x128 g hcast) (hbe : V c main_v79 = shapeCast Cert.KernelIdeal.S1x128 be hcast)
    (t : Fin cfg5.N) :
    (dat5 V c).flushed 6 t = ((cfg5.win 6).blk t).view.read (Elt Ideal) (bnReluArr (V c main_v67) b mu var g be) := by
  show (cfg5.win 6).cut (grid5.coords t) ((dat5 V c).after 6 t) = _
  rw [after5_6]
  unfold out5_6
  rw [View.canon_unit_zero zeroOffsets]
  simp only [View.ld_unit_zero (S := S10000x128) zeroOffsets, View.ld_unit_zero (S := S1x128) zeroOffsets]
  obtain ⟨e60, e61, e00, e01, e10, e11, e20, e21, e30, e31, e40, e41, e50, e51⟩ := idx_facts5 t
  funext j
  refine bnRelu5_point _ _ _ _ _ _ (V c main_v67) b mu var g be j (((cfg5.win 6).blk t).view.emb j) ?_ ?_ ?_ ?_ ?_ ?_ ?_
  · show win5_6.index t (1 : Fin 2) * 128 + 1 * (j 1).val = (j 1).val
    omega
  · show V c main_v67 (((cfg5.win 0).blk t).view.emb j) = V c main_v67 (((cfg5.win 6).blk t).view.emb j)
    refine congrArg _ (funext fun a => Fin.ext ?_)
    match a with
    | ⟨0, _⟩ => show win5_0.index t (0 : Fin 2) * 10000 + 1 * (j 0).val = win5_6.index t (0 : Fin 2) * 10000 + 1 * (j 0).val; omega
    | ⟨1, _⟩ => show win5_0.index t (1 : Fin 2) * 128 + 1 * (j 1).val = win5_6.index t (1 : Fin 2) * 128 + 1 * (j 1).val; omega
  · intro q
    show V c main_v77 (((cfg5.win 1).blk t).view.emb (ix2 (0 : Fin 1) q)) = b (ix1 q)
    refine rowArray_read (V c main_v77) b hcast hb _ q ?_ ?_
    · show win5_1.index t (0 : Fin 2) * 1 + 1 * 0 = 0; omega
    · show win5_1.index t (1 : Fin 2) * 128 + 1 * q.val = q.val; omega
  · intro q
    show V c main_v74 (((cfg5.win 2).blk t).view.emb (ix2 (0 : Fin 1) q)) = mu (ix1 q)
    refine rowArray_read (V c main_v74) mu hcast hmu _ q ?_ ?_
    · show win5_2.index t (0 : Fin 2) * 1 + 1 * 0 = 0; omega
    · show win5_2.index t (1 : Fin 2) * 128 + 1 * q.val = q.val; omega
  · intro q
    show V c main_v76 (((cfg5.win 3).blk t).view.emb (ix2 (0 : Fin 1) q)) = var (ix1 q)
    refine rowArray_read (V c main_v76) var hcast hvar _ q ?_ ?_
    · show win5_3.index t (0 : Fin 2) * 1 + 1 * 0 = 0; omega
    · show win5_3.index t (1 : Fin 2) * 128 + 1 * q.val = q.val; omega
  · intro q
    show V c main_v78 (((cfg5.win 4).blk t).view.emb (ix2 (0 : Fin 1) q)) = g (ix1 q)
    refine rowArray_read (V c main_v78) g hcast hg _ q ?_ ?_
    · show win5_4.index t (0 : Fin 2) * 1 + 1 * 0 = 0; omega
    · show win5_4.index t (1 : Fin 2) * 128 + 1 * q.val = q.val; omega
  · intro q
    show V c main_v79 (((cfg5.win 5).blk t).view.emb (ix2 (0 : Fin 1) q)) = be (ix1 q)
    refine rowArray_read (V c main_v79) be hcast hbe _ q ?_ ?_
    · show win5_5.index t (0 : Fin 2) * 1 + 1 * 0 = 0; omega
    · show win5_5.index t (1 : Fin 2) * 128 + 1 * q.val = q.val; omega

end Region5

/-- An index of the array is in point t's block iff each coordinate is in the block's range on its axis. -/
theorem mem_blk5 (t : Fin cfg5.N) (i : S100000x128.Idx) :
    i ∈ ((cfg5.win 6).blk t).view.set ↔ ∀ a : Fin 2, win5_6.index t a * S10000x128.size a ≤ (i a).val ∧ (i a).val < win5_6.index t a * S10000x128.size a + S10000x128.size a := by
  show i ∈ ((View.whole main_v80).slice (win5_6.rect t)).set ↔ _
  rw [View.set_slice_whole, Rect.mem_set_unit]
  exact Iff.rfl

/-- Every index of the array lies in some point's block: row r in the block of point r / 10000. -/
theorem cover5 (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  obtain ⟨t, ht⟩ : ∃ t : Fin cfg5.N, t.val = (i 0).val / 10000 :=
    ⟨⟨(i 0).val / 10000, by show (i 0).val / 10000 < grid5.N; rw [N_5]; omega⟩, rfl⟩
  obtain ⟨e60, e61, -⟩ := idx_facts5 t
  refine ⟨t, flush5_6 t, ?_⟩
  rw [mem_blk5]
  intro a
  match a with
  | ⟨0, _⟩ => show win5_6.index t (0 : Fin 2) * 10000 ≤ (i 0).val ∧ (i 0).val < win5_6.index t (0 : Fin 2) * 10000 + 10000; omega
  | ⟨1, _⟩ => show win5_6.index t (1 : Fin 2) * 128 ≤ (i 1).val ∧ (i 1).val < win5_6.index t (1 : Fin 2) * 128 + 128; omega

/-! ## The bias + sigmoid region

Entry (r, 0) of region 8's output is the logistic function of agg(r, 0) + b: the body applies the one logistic
operation to a block of 10000 rows plus the [1,1] bias, the reference spells 1 / (1 + exp(−x)) with the constant 1 on whole
arrays; on the extended reals the logistic function is that expression, and the constant's word is the number one. -/

/-- The logistic operation on a vector acts entry by entry, and on the extended reals it is the logistic function. -/
theorem logistic_apply {s : Shape} (a : FVec Ideal s .f32) (i : s.Idx) : logistic a i = Ideal.logistic (a i) := rfl

/-- The body of region 8 read at (p, u). -/
theorem biasSigmoid8_apply (x0 : Vec Ideal S10000x1 .f32) (xb : Vec Ideal S1x1 .f32) (p : Fin 10000) (u : Fin 1) :
    k8_pay1 x0 xb (ix2 p u) = Ideal.logistic (x0 (ix2 p u) + xb (ix2 (0 : Fin 1) u)) := by
  unfold k8_pay1
  simp only [shapeCast_self]
  rw [logistic_apply, addf_apply, broadcastTo_1b_ab_apply]

/-- The constant one as a [100000,1] array. -/
abbrev oneCol : Cert.ReferenceIdeal.S100000x1.Idx → Ideal .f32 :=
  broadcastInDim Cert.ReferenceIdeal.S100000x1 ![] Cert.ReferenceIdeal.Facts₀.bcast_S_S100000x1
    (constant (F := Ideal) Cert.ReferenceIdeal.S_ .f32 0x3F800000#32)

/-- A one-entry vector as a [1,1] matrix repeated down 100000 rows. -/
abbrev biasCol (b3 : Cert.ReferenceIdeal.S1.Idx → Ideal .f32) : Cert.ReferenceIdeal.S100000x1.Idx → Ideal .f32 :=
  broadcastInDim Cert.ReferenceIdeal.S100000x1 ![0, 1] Cert.ReferenceIdeal.Facts₀.bcast_S1x1_S100000x1_0_1
    (broadcastInDim Cert.ReferenceIdeal.S1x1 ![1] Cert.ReferenceIdeal.Facts₀.bcast_S1_S1x1_1 b3)

/-- 1 / (1 + exp(−(agg + b))) as one function of the aggregate and the bias. -/
abbrev biasSigmoidArr (agg : Cert.ReferenceIdeal.S100000x1.Idx → Ideal .f32) (b3 : Cert.ReferenceIdeal.S1.Idx → Ideal .f32) :
    Cert.ReferenceIdeal.S100000x1.Idx → Ideal .f32 :=
  Host.divf (F := Ideal) oneCol (addf oneCol (Host.exp (Host.negf (addf agg (biasCol b3)))))

/-- The bias column read at (r, u) is the bias. -/
theorem biasCol_apply (b3 : Cert.ReferenceIdeal.S1.Idx → Ideal .f32) (r : Fin 100000) (u : Fin 1) :
    biasCol b3 (ix2 r u) = b3 (ix1 u) := by
  refine (broadcastInDim_oneRow_apply _ _ r u).trans ?_
  refine broadcastInDim_apply ![1] _ b3 (ix2 (0 : Fin 1) u) (ix1 u) ?_
  intro a
  match a with
  | ⟨0, _⟩ => show u.val = 0; omega

/-- The reference's array read at (r, u): the logistic function of agg(r, u) + b. -/
theorem biasSigmoidArr_apply (agg : Cert.ReferenceIdeal.S100000x1.Idx → Ideal .f32) (b3 : Cert.ReferenceIdeal.S1.Idx → Ideal .f32)
    (r : Fin 100000) (u : Fin 1) :
    biasSigmoidArr agg b3 (ix2 r u) = Ideal.logistic (agg (ix2 r u) + b3 (ix1 u)) := by
  show Ideal.div (Ideal.ofBits .f32 0x3F800000#32)
    (Ideal.ofBits .f32 0x3F800000#32 + Ideal.exp (-(agg (ix2 r u) + biasCol b3 (ix2 r u)))) = _
  rw [biasCol_apply, Ideal.ofBits_one_f32]
  rfl

/-- A [1,1] array that is a reshaped one-entry vector, read at an index whose coordinates are (0, 0). -/
theorem unitArray_read (A : S1x1.Idx → Ideal .f32) (x : S1.Idx → Ideal .f32) (hcast : S1.ShapeCasts S1x1)
    (hA : A = shapeCast S1x1 x hcast) (k : S1x1.Idx) (u : Fin 1) (hk0 : (k 0).val = 0) (hk1 : (k 1).val = u.val) :
    A k = x (ix1 u) := by
  subst hA
  have hk : k = ix2 (0 : Fin 1) u := by
    funext a
    match a with
    | ⟨0, _⟩ => exact Fin.ext hk0
    | ⟨1, _⟩ => exact Fin.ext hk1
  rw [hk, shapeCast_a_1a_apply]

/-- Entry j of region 8's body on a block is entry i of the whole-array function when the block's entry j is the
    aggregate's entry i and the [1,1] operand is the bias. -/
theorem biasSigmoid8_point (x0 : Vec Ideal S10000x1 .f32) (xb : Vec Ideal S1x1 .f32)
    (agg : S100000x1.Idx → Ideal .f32) (b3 : S1.Idx → Ideal .f32) (j : S10000x1.Idx) (i : S100000x1.Idx)
    (h0 : x0 j = agg i) (hb : ∀ u : Fin 1, xb (ix2 (0 : Fin 1) u) = b3 (ix1 u)) :
    k8_pay1 x0 xb j = biasSigmoidArr agg b3 i := by
  obtain ⟨p, u, rfl⟩ : ∃ (p : Fin 10000) (u : Fin 1), j = ix2 p u := ⟨j 0, j 1, eq_ix2 j⟩
  obtain ⟨r, u', rfl⟩ : ∃ (r : Fin 100000) (u' : Fin 1), i = ix2 r u' := ⟨i 0, i 1, eq_ix2 i⟩
  have hu : u' = u := Subsingleton.elim _ _
  subst hu
  rw [biasSigmoid8_apply, biasSigmoidArr_apply, h0, hb]

/-- The printed index maps of region 8, decided over its ten points: the aggregate's and the output's block index is
    (t, 0), the bias's is (0, 0). -/
theorem idx_facts8 : ∀ t : Fin cfg8.N, win8_2.index t (0 : Fin 2) = t.val ∧ win8_2.index t (1 : Fin 2) = 0
    ∧ win8_0.index t (0 : Fin 2) = t.val ∧ win8_0.index t (1 : Fin 2) = 0
    ∧ win8_1.index t (0 : Fin 2) = 0 ∧ win8_1.index t (1 : Fin 2) = 0 :=
  (by decide +kernel : ∀ t : Fin grid8.N, _)

section Region8
variable (V : (c : Dev nD) → (b : Ref sig .tc) → Buf (Elt Ideal) ((c : Thread nD τ).loc b)) (c : Dev nD)
variable (b3 : (⟨S1, .f32⟩ : BufTy).Contents (Elt Ideal)) (hcast1 : Cert.KernelIdeal.S1.ShapeCasts Cert.KernelIdeal.S1x1)

/-- What point t writes back is block t of the whole-array function of the aggregate as the region finds it. -/
theorem flushed8_eq (hb : V c main_v93 = shapeCast Cert.KernelIdeal.S1x1 b3 hcast1) (t : Fin cfg8.N) :
    (dat8 V c).flushed 2 t = ((cfg8.win 2).blk t).view.read (Elt Ideal) (biasSigmoidArr (V c main_v92) b3) := by
  show (cfg8.win 2).cut (grid8.coords t) ((dat8 V c).after 2 t) = _
  rw [after8_2]
  unfold out8_2
  rw [View.canon_unit_zero zeroOffsets]
  simp only [View.ld_unit_zero (S := S10000x1) zeroOffsets, View.ld_unit_zero (S := S1x1) zeroOffsets]
  obtain ⟨e20, e21, e00, e01, e10, e11⟩ := idx_facts8 t
  funext j
  refine biasSigmoid8_point _ _ (V c main_v92) b3 j (((cfg8.win 2).blk t).view.emb j) ?_ ?_
  · show V c main_v92 (((cfg8.win 0).blk t).view.emb j) = V c main_v92 (((cfg8.win 2).blk t).view.emb j)
    refine congrArg _ (funext fun a => Fin.ext ?_)
    match a with
    | ⟨0, _⟩ => show win8_0.index t (0 : Fin 2) * 10000 + 1 * (j 0).val = win8_2.index t (0 : Fin 2) * 10000 + 1 * (j 0).val; omega
    | ⟨1, _⟩ => show win8_0.index t (1 : Fin 2) * 1 + 1 * (j 1).val = win8_2.index t (1 : Fin 2) * 1 + 1 * (j 1).val; omega
  · intro u
    show V c main_v93 (((cfg8.win 1).blk t).view.emb (ix2 (0 : Fin 1) u)) = b3 (ix1 u)
    refine unitArray_read (V c main_v93) b3 hcast1 hb _ u ?_ ?_
    · show win8_1.index t (0 : Fin 2) * 1 + 1 * 0 = 0; omega
    · show win8_1.index t (1 : Fin 2) * 1 + 1 * u.val = u.val; omega

/-- An index of the array is in point t's block iff each coordinate is in the block's range on its axis. -/
theorem mem_blk8 (t : Fin cfg8.N) (i : S100000x1.Idx) :
    i ∈ ((cfg8.win 2).blk t).view.set ↔ ∀ a : Fin 2, win8_2.index t a * S10000x1.size a ≤ (i a).val ∧ (i a).val < win8_2.index t a * S10000x1.size a + S10000x1.size a := by
  show i ∈ ((View.whole main_v94).slice (win8_2.rect t)).set ↔ _
  rw [View.set_slice_whole, Rect.mem_set_unit]
  exact Iff.rfl

/-- Every index of the array lies in some point's block: row r in the block of point r / 10000. -/
theorem cover8 (i : S100000x1.Idx) :
    ∃ t : Fin cfg8.N, (cfg8.win 2).flush t = true ∧ i ∈ ((cfg8.win 2).blk t).view.set := by
  have hi0 : (i 0).val < 100000 := (i 0).isLt
  have hi1 : (i 1).val < 1 := (i 1).isLt
  obtain ⟨t, ht⟩ : ∃ t : Fin cfg8.N, t.val = (i 0).val / 10000 :=
    ⟨⟨(i 0).val / 10000, by show (i 0).val / 10000 < grid8.N; rw [N_8]; omega⟩, rfl⟩
  obtain ⟨e20, e21, -⟩ := idx_facts8 t
  refine ⟨t, flush8_2 t, ?_⟩
  rw [mem_blk8]
  intro a
  match a with
  | ⟨0, _⟩ => show win8_2.index t (0 : Fin 2) * 10000 ≤ (i 0).val ∧ (i 0).val < win8_2.index t (0 : Fin 2) * 10000 + 10000; omega
  | ⟨1, _⟩ => show win8_2.index t (1 : Fin 2) * 1 ≤ (i 1).val ∧ (i 1).val < win8_2.index t (1 : Fin 2) * 1 + 1; omega

end Region8

end Norm

open Norm

/-! ## The three output arrays -/

/-- The array after region 2: max(g · ((agg + b) − mu) · rsqrt(var + ε) + be, 0) of the aggregate the region finds and
    the five vectors, in the reference's spelling. -/
theorem final2 (V : (c : Dev nD) → (b : Ref sig .tc) → Buf (Elt Ideal) ((c : Thread nD τ).loc b)) (c : Dev nD)
    (b mu var g be : (⟨S128, .f32⟩ : BufTy).Contents (Elt Ideal)) (hcast : Cert.KernelIdeal.S128.ShapeCasts Cert.KernelIdeal.S1x128)
    (hb : V c main_v52 = shapeCast Cert.KernelIdeal.S1x128 b hcast)
    (hmu : V c main_v49 = shapeCast Cert.KernelIdeal.S1x128 mu hcast) (hvar : V c main_v51 = shapeCast Cert.KernelIdeal.S1x128 var hcast)
    (hg : V c main_v53 = shapeCast Cert.KernelIdeal.S1x128 g hcast) (hbe : V c main_v54 = shapeCast Cert.KernelIdeal.S1x128 be hcast) :
    (Gen.dat2 (F := Ideal) V c).arrAt 6 cfg2.N
      = maximumf (addf (mulf (mulf (broadcastInDim Cert.ReferenceIdeal.S100000x128 ![0, 1] Cert.ReferenceIdeal.Facts₀.bcast_S1x128_S100000x128_0_1 (broadcastInDim Cert.ReferenceIdeal.S1x128 ![1] Cert.ReferenceIdeal.Facts₀.bcast_S128_S1x128_1 g)) (subf (addf (V c main_v42) (broadcastInDim Cert.ReferenceIdeal.S100000x128 ![0, 1] Cert.ReferenceIdeal.Facts₀.bcast_S1x128_S100000x128_0_1 (broadcastInDim Cert.ReferenceIdeal.S1x128 ![1] Cert.ReferenceIdeal.Facts₀.bcast_S128_S1x128_1 b))) (broadcastInDim Cert.ReferenceIdeal.S100000x128 ![0, 1] Cert.ReferenceIdeal.Facts₀.bcast_S1x128_S100000x128_0_1 (broadcastInDim Cert.ReferenceIdeal.S1x128 ![1] Cert.ReferenceIdeal.Facts₀.bcast_S128_S1x128_1 mu)))) (broadcastInDim Cert.ReferenceIdeal.S100000x128 ![0, 1] Cert.ReferenceIdeal.Facts₀.bcast_S1x128_S100000x128_0_1 (broadcastInDim Cert.ReferenceIdeal.S1x128 ![1] Cert.ReferenceIdeal.Facts₀.bcast_S128_S1x128_1 (Host.rsqrt (addf var (broadcastInDim Cert.ReferenceIdeal.S128 ![] Cert.ReferenceIdeal.Facts₀.bcast_S_S128 (constant (F := Ideal) Cert.ReferenceIdeal.S_ .f32 0x3727C5AC#32))))))) (broadcastInDim Cert.ReferenceIdeal.S100000x128 ![0, 1] Cert.ReferenceIdeal.Facts₀.bcast_S1x128_S100000x128_0_1 (broadcastInDim Cert.ReferenceIdeal.S1x128 ![1] Cert.ReferenceIdeal.Facts₀.bcast_S128_S1x128_1 be))) (broadcastInDim Cert.ReferenceIdeal.S100000x128 ![] Cert.ReferenceIdeal.Facts₀.bcast_S_S100000x128 (constant (F := Ideal) Cert.ReferenceIdeal.S_ .f32 0x00000000#32)) :=
  (dat2 V c).arrAt_eq_of_cover 6 (bnReluArr (V c main_v42) b mu var g be)
    (fun t _ => flushed2_eq V c b mu var g be hcast hb hmu hvar hg hbe t) cover2

/-- The array after region 5: max(g · ((agg + b) − mu) · rsqrt(var + ε) + be, 0) of the aggregate the region finds and
    the five vectors, in the reference's spelling. -/
theorem final5 (V : (c : Dev nD) → (b : Ref sig .tc) → Buf (Elt Ideal) ((c : Thread nD τ).loc b)) (c : Dev nD)
    (b mu var g be : (⟨S128, .f32⟩ : BufTy).Contents (Elt Ideal)) (hcast : Cert.KernelIdeal.S128.ShapeCasts Cert.KernelIdeal.S1x128)
    (hb : V c main_v77 = shapeCast Cert.KernelIdeal.S1x128 b hcast)
    (hmu : V c main_v74 = shapeCast Cert.KernelIdeal.S1x128 mu hcast) (hvar : V c main_v76 = shapeCast Cert.KernelIdeal.S1x128 var hcast)
    (hg : V c main_v78 = shapeCast Cert.KernelIdeal.S1x128 g hcast) (hbe : V c main_v79 = shapeCast Cert.KernelIdeal.S1x128 be hcast) :
    (Gen.dat5 (F := Ideal) V c).arrAt 6 cfg5.N
      = maximumf (addf (mulf (mulf (broadcastInDim Cert.ReferenceIdeal.S100000x128 ![0, 1] Cert.ReferenceIdeal.Facts₀.bcast_S1x128_S100000x128_0_1 (broadcastInDim Cert.ReferenceIdeal.S1x128 ![1] Cert.ReferenceIdeal.Facts₀.bcast_S128_S1x128_1 g)) (subf (addf (V c main_v67) (broadcastInDim Cert.ReferenceIdeal.S100000x128 ![0, 1] Cert.ReferenceIdeal.Facts₀.bcast_S1x128_S100000x128_0_1 (broadcastInDim Cert.ReferenceIdeal.S1x128 ![1] Cert.ReferenceIdeal.Facts₀.bcast_S128_S1x128_1 b))) (broadcastInDim Cert.ReferenceIdeal.S100000x128 ![0, 1] Cert.ReferenceIdeal.Facts₀.bcast_S1x128_S100000x128_0_1 (broadcastInDim Cert.ReferenceIdeal.S1x128 ![1] Cert.ReferenceIdeal.Facts₀.bcast_S128_S1x128_1 mu)))) (broadcastInDim Cert.ReferenceIdeal.S100000x128 ![0, 1] Cert.ReferenceIdeal.Facts₀.bcast_S1x128_S100000x128_0_1 (broadcastInDim Cert.ReferenceIdeal.S1x128 ![1] Cert.ReferenceIdeal.Facts₀.bcast_S128_S1x128_1 (Host.rsqrt (addf var (broadcastInDim Cert.ReferenceIdeal.S128 ![] Cert.ReferenceIdeal.Facts₀.bcast_S_S128 (constant (F := Ideal) Cert.ReferenceIdeal.S_ .f32 0x3727C5AC#32))))))) (broadcastInDim Cert.ReferenceIdeal.S100000x128 ![0, 1] Cert.ReferenceIdeal.Facts₀.bcast_S1x128_S100000x128_0_1 (broadcastInDim Cert.ReferenceIdeal.S1x128 ![1] Cert.ReferenceIdeal.Facts₀.bcast_S128_S1x128_1 be))) (broadcastInDim Cert.ReferenceIdeal.S100000x128 ![] Cert.ReferenceIdeal.Facts₀.bcast_S_S100000x128 (constant (F := Ideal) Cert.ReferenceIdeal.S_ .f32 0x00000000#32)) :=
  (dat5 V c).arrAt_eq_of_cover 6 (bnReluArr (V c main_v67) b mu var g be)
    (fun t _ => flushed5_eq V c b mu var g be hcast hb hmu hvar hg hbe t) cover5

/-- The array after region 8: 1 / (1 + exp(−(agg + b))) of the aggregate the region finds and the bias, in the reference's
    spelling. -/
theorem final8 (V : (c : Dev nD) → (b : Ref sig .tc) → Buf (Elt Ideal) ((c : Thread nD τ).loc b)) (c : Dev nD)
    (b3 : (⟨S1, .f32⟩ : BufTy).Contents (Elt Ideal)) (hcast1 : Cert.KernelIdeal.S1.ShapeCasts Cert.KernelIdeal.S1x1)
    (hb : V c main_v93 = shapeCast Cert.KernelIdeal.S1x1 b3 hcast1) :
    (Gen.dat8 (F := Ideal) V c).arrAt 2 cfg8.N
      = Host.divf (F := Ideal) (broadcastInDim Cert.ReferenceIdeal.S100000x1 ![] Cert.ReferenceIdeal.Facts₀.bcast_S_S100000x1 (constant (F := Ideal) Cert.ReferenceIdeal.S_ .f32 0x3F800000#32)) (addf (broadcastInDim Cert.ReferenceIdeal.S100000x1 ![] Cert.ReferenceIdeal.Facts₀.bcast_S_S100000x1 (constant (F := Ideal) Cert.ReferenceIdeal.S_ .f32 0x3F800000#32)) (Host.exp (Host.negf (addf (V c main_v92) (broadcastInDim Cert.ReferenceIdeal.S100000x1 ![0, 1] Cert.ReferenceIdeal.Facts₀.bcast_S1x1_S100000x1_0_1 (broadcastInDim Cert.ReferenceIdeal.S1x1 ![1] Cert.ReferenceIdeal.Facts₀.bcast_S1_S1x1_1 b3)))))) :=
  (dat8 V c).arrAt_eq_of_cover 2 (biasSigmoidArr (V c main_v92) b3) (fun t _ => flushed8_eq V c b3 hcast1 hb t) cover8

end Cert.KernelIdeal.RegionValue

end
-- ==== Proof.KernelStages.lean ====
/-
  The idealized kernel's result buffer, read back through @main: the contents at every segment boundary (the generated
  fold `Gen.W0 … Gen.W22` of host stretches and regions' write-backs) of the buffers the next segment reads, as the
  network's whole-array functions (GcnSpec) of the argument arrays. Each region's output array is its kernel's
  whole-array function of its input arrays (RegionLinear / RegionScale / RegionNorm); each host stretch is read for any
  starting contents (KernelHost); here they are chained, and what a segment does not write is carried across it.
-/
import proofs.«149244_j87471303950804_1_alg».proof.Proof.Gen.KernelIdeal.Frame
import proofs.«149244_j87471303950804_1_alg».proof.Proof.GcnSpec
import proofs.«149244_j87471303950804_1_alg».proof.Proof.KernelHost
import proofs.«149244_j87471303950804_1_alg».proof.Proof.RegionLinear
import proofs.«149244_j87471303950804_1_alg».proof.Proof.RegionScale
import proofs.«149244_j87471303950804_1_alg».proof.Proof.RegionNorm
import Idealize.ShloMosaic.Lib.StableHlo.Run
import Idealize.ShloMosaic.PureOps.Ideal

set_option maxRecDepth 16384

noncomputable section

namespace Cert.KernelIdeal.Stages

open Idealize.ShloMosaic Idealize.ShloMosaic.TcCoe Idealize.SL.Sem
open Cert.KernelIdeal Cert.KernelIdeal.Gen Cert.GcnSpec Cert.KernelIdeal.HostStages Cert.KernelIdeal.RegionValue
open Idealize.ShloMosaic.StableHlo (after after_cons after_nil)

variable (m : (ℓ : Loc nD τ sig) → Buf (Elt Ideal) ℓ) (ρ : Dev nD → PrngReg) (c : Dev nD)

/-! ## A buffer no window of a region touches keeps its contents across the region; an argument is never written -/

theorem keep4 {b : Ref sig .tc} (hb : ∀ w, Pipeline.arrRef spec0 w ≠ b) : W4 m ρ c (no_index (Proc.devRef .tc b)) = W3 m ρ c (Proc.devRef .tc b) := W4_of_ne m ρ c b hb
theorem keep6 {b : Ref sig .tc} (hb : ∀ w, Pipeline.arrRef spec1 w ≠ b) : W6 m ρ c (no_index (Proc.devRef .tc b)) = W5 m ρ c (Proc.devRef .tc b) := W6_of_ne m ρ c b hb
theorem keep10 {b : Ref sig .tc} (hb : ∀ w, Pipeline.arrRef spec2 w ≠ b) : W10 m ρ c (no_index (Proc.devRef .tc b)) = W9 m ρ c (Proc.devRef .tc b) := W10_of_ne m ρ c b hb
theorem keep11 {b : Ref sig .tc} (hb : ∀ w, Pipeline.arrRef spec3 w ≠ b) : W11 m ρ c (no_index (Proc.devRef .tc b)) = W10 m ρ c (Proc.devRef .tc b) := W11_of_ne m ρ c b hb
theorem keep13 {b : Ref sig .tc} (hb : ∀ w, Pipeline.arrRef spec4 w ≠ b) : W13 m ρ c (no_index (Proc.devRef .tc b)) = W12 m ρ c (Proc.devRef .tc b) := W13_of_ne m ρ c b hb
theorem keep17 {b : Ref sig .tc} (hb : ∀ w, Pipeline.arrRef spec5 w ≠ b) : W17 m ρ c (no_index (Proc.devRef .tc b)) = W16 m ρ c (Proc.devRef .tc b) := W17_of_ne m ρ c b hb
theorem keep18 {b : Ref sig .tc} (hb : ∀ w, Pipeline.arrRef spec6 w ≠ b) : W18 m ρ c (no_index (Proc.devRef .tc b)) = W17 m ρ c (Proc.devRef .tc b) := W18_of_ne m ρ c b hb
theorem keep20 {b : Ref sig .tc} (hb : ∀ w, Pipeline.arrRef spec7 w ≠ b) : W20 m ρ c (no_index (Proc.devRef .tc b)) = W19 m ρ c (Proc.devRef .tc b) := W20_of_ne m ρ c b hb

open Idealize.ShloMosaic.StableHlo in
/-- Read an ARGUMENT's buffer at a segment boundary back to the launch memory: no host operation and no region writes it. -/
macro "argread" : tactic =>
  `(tactic| simp (disch := decide) only [V3, V5, V9, V10, V12, V16, V17, V19, V21, W1, W2, W3, W5, W7, W8, W9, W12, W14, W15, W16, W19, W21,
      hostOps0, hostOps0_1, hostOps0_2, hostOps1, hostOps2, hostOps2_1, hostOps2_2, hostOps4, hostOps5, hostOps5_1, hostOps5_2, hostOps7, hostOps8,
      keep4, keep6, keep10, keep11, keep13, keep17, keep18, keep20,
      after_cons, after_nil,
      nullary_result_ne', unary_result_ne', binary_result_ne', ternary_result_ne', quaternary_result_ne', reshape_result_ne'])

set_option quotPrecheck false

local notation "xA" => m ((c : Thread nD τ).loc main_arg0)
local notation "eA" => m ((c : Thread nD τ).loc main_arg1)
local notation "w1A" => m ((c : Thread nD τ).loc main_arg2)
local notation "b1A" => m ((c : Thread nD τ).loc main_arg3)
local notation "w2A" => m ((c : Thread nD τ).loc main_arg4)
local notation "b2A" => m ((c : Thread nD τ).loc main_arg5)
local notation "w3A" => m ((c : Thread nD τ).loc main_arg6)
local notation "b3A" => m ((c : Thread nD τ).loc main_arg7)
local notation "g1A" => m ((c : Thread nD τ).loc main_arg8)
local notation "be1A" => m ((c : Thread nD τ).loc main_arg9)
local notation "g2A" => m ((c : Thread nD τ).loc main_arg10)
local notation "be2A" => m ((c : Thread nD τ).loc main_arg11)
local notation "nrmA" => shapeCast S740000x1 (normV eA) shapeCasts_S740000_S740000x1
local notation "M1" => lin1V xA w1A
local notation "A1" => agg128 (msg128 M1 eA) eA
local notation "H1" => h1V xA eA w1A b1A g1A be1A
local notation "M2" => lin2V H1 w2A
local notation "A2" => agg128 (msg128 M2 eA) eA
local notation "H2" => h2V xA eA w1A b1A w2A b2A g1A be1A g2A be2A
local notation "M3" => lin3V H2 w3A
local notation "A3" => agg1 (msg1 M3 eA) eA

/-! ## The edge lists and the weight column, from where they are computed to where they are read

A region leaves the array of an input window as it found it. -/

theorem s3_v3 : W3 m ρ c (Proc.devRef .tc main_v3) = srcV eA := g0_v3 (W0 m ρ c)
theorem s3_v6 : W3 m ρ c (Proc.devRef .tc main_v6) = dstV eA := g0_v6 (W0 m ρ c)
theorem s3_v30 : W3 m ρ c (Proc.devRef .tc main_v30) = nrmA := g0_v30 (W0 m ρ c)
theorem s4_v3 : W4 m ρ c (Proc.devRef .tc main_v3) = srcV eA := (W4_of_ne m ρ c main_v3 (by decide)).trans (s3_v3 m ρ c)
theorem s4_v6 : W4 m ρ c (Proc.devRef .tc main_v6) = dstV eA := (W4_of_ne m ρ c main_v6 (by decide)).trans (s3_v6 m ρ c)
theorem s4_v30 : W4 m ρ c (Proc.devRef .tc main_v30) = nrmA := (W4_of_ne m ρ c main_v30 (by decide)).trans (s3_v30 m ρ c)
theorem s5_v3 : W5 m ρ c (Proc.devRef .tc main_v3) = srcV eA := (k1_v3 (W4 m ρ c)).trans (s4_v3 m ρ c)
theorem s5_v6 : W5 m ρ c (Proc.devRef .tc main_v6) = dstV eA := (k1_v6 (W4 m ρ c)).trans (s4_v6 m ρ c)
theorem s5_v30 : W5 m ρ c (Proc.devRef .tc main_v30) = nrmA := (k1_v30 (W4 m ρ c)).trans (s4_v30 m ρ c)
theorem s6_v3 : W6 m ρ c (Proc.devRef .tc main_v3) = srcV eA := (W6_of_ne m ρ c main_v3 (by decide)).trans (s5_v3 m ρ c)
theorem s6_v6 : W6 m ρ c (Proc.devRef .tc main_v6) = dstV eA := (W6_of_ne m ρ c main_v6 (by decide)).trans (s5_v6 m ρ c)
theorem s6_v30 : W6 m ρ c (Proc.devRef .tc main_v30) = nrmA :=
  ((W6_arr m ρ c 1).trans (((dat1 (V5 m ρ) c).arrAt_in 1 rfl _).trans (A_eq1 (V5 m ρ) c 1))).trans (s5_v30 m ρ c)
theorem s9_v3 : W9 m ρ c (Proc.devRef .tc main_v3) = srcV eA := (kg2_v3 (W6 m ρ c)).trans (s6_v3 m ρ c)
theorem s9_v6 : W9 m ρ c (Proc.devRef .tc main_v6) = dstV eA := (kg2_v6 (W6 m ρ c)).trans (s6_v6 m ρ c)
theorem s9_v30 : W9 m ρ c (Proc.devRef .tc main_v30) = nrmA := (kg2_v30 (W6 m ρ c)).trans (s6_v30 m ρ c)
theorem s10_v3 : W10 m ρ c (Proc.devRef .tc main_v3) = srcV eA := (W10_of_ne m ρ c main_v3 (by decide)).trans (s9_v3 m ρ c)
theorem s10_v6 : W10 m ρ c (Proc.devRef .tc main_v6) = dstV eA := (W10_of_ne m ρ c main_v6 (by decide)).trans (s9_v6 m ρ c)
theorem s10_v30 : W10 m ρ c (Proc.devRef .tc main_v30) = nrmA := (W10_of_ne m ρ c main_v30 (by decide)).trans (s9_v30 m ρ c)
theorem s11_v3 : W11 m ρ c (Proc.devRef .tc main_v3) = srcV eA := (W11_of_ne m ρ c main_v3 (by decide)).trans (s10_v3 m ρ c)
theorem s11_v6 : W11 m ρ c (Proc.devRef .tc main_v6) = dstV eA := (W11_of_ne m ρ c main_v6 (by decide)).trans (s10_v6 m ρ c)
theorem s11_v30 : W11 m ρ c (Proc.devRef .tc main_v30) = nrmA := (W11_of_ne m ρ c main_v30 (by decide)).trans (s10_v30 m ρ c)
theorem s12_v3 : W12 m ρ c (Proc.devRef .tc main_v3) = srcV eA := (k4_v3 (W11 m ρ c)).trans (s11_v3 m ρ c)
theorem s12_v6 : W12 m ρ c (Proc.devRef .tc main_v6) = dstV eA := (k4_v6 (W11 m ρ c)).trans (s11_v6 m ρ c)
theorem s12_v30 : W12 m ρ c (Proc.devRef .tc main_v30) = nrmA := (k4_v30 (W11 m ρ c)).trans (s11_v30 m ρ c)
theorem s13_v3 : W13 m ρ c (Proc.devRef .tc main_v3) = srcV eA := (W13_of_ne m ρ c main_v3 (by decide)).trans (s12_v3 m ρ c)
theorem s13_v6 : W13 m ρ c (Proc.devRef .tc main_v6) = dstV eA := (W13_of_ne m ρ c main_v6 (by decide)).trans (s12_v6 m ρ c)
theorem s13_v30 : W13 m ρ c (Proc.devRef .tc main_v30) = nrmA :=
  ((W13_arr m ρ c 1).trans (((dat4 (V12 m ρ) c).arrAt_in 1 rfl _).trans (A_eq4 (V12 m ρ) c 1))).trans (s12_v30 m ρ c)
theorem s16_v3 : W16 m ρ c (Proc.devRef .tc main_v3) = srcV eA := (kg5_v3 (W13 m ρ c)).trans (s13_v3 m ρ c)
theorem s16_v6 : W16 m ρ c (Proc.devRef .tc main_v6) = dstV eA := (kg5_v6 (W13 m ρ c)).trans (s13_v6 m ρ c)
theorem s16_v30 : W16 m ρ c (Proc.devRef .tc main_v30) = nrmA := (kg5_v30 (W13 m ρ c)).trans (s13_v30 m ρ c)
theorem s17_v3 : W17 m ρ c (Proc.devRef .tc main_v3) = srcV eA := (W17_of_ne m ρ c main_v3 (by decide)).trans (s16_v3 m ρ c)
theorem s17_v6 : W17 m ρ c (Proc.devRef .tc main_v6) = dstV eA := (W17_of_ne m ρ c main_v6 (by decide)).trans (s16_v6 m ρ c)
theorem s17_v30 : W17 m ρ c (Proc.devRef .tc main_v30) = nrmA := (W17_of_ne m ρ c main_v30 (by decide)).trans (s16_v30 m ρ c)
theorem s18_v3 : W18 m ρ c (Proc.devRef .tc main_v3) = srcV eA := (W18_of_ne m ρ c main_v3 (by decide)).trans (s17_v3 m ρ c)
theorem s18_v6 : W18 m ρ c (Proc.devRef .tc main_v6) = dstV eA := (W18_of_ne m ρ c main_v6 (by decide)).trans (s17_v6 m ρ c)
theorem s18_v30 : W18 m ρ c (Proc.devRef .tc main_v30) = nrmA := (W18_of_ne m ρ c main_v30 (by decide)).trans (s17_v30 m ρ c)
theorem s19_v3 : W19 m ρ c (Proc.devRef .tc main_v3) = srcV eA := (k7_v3 (W18 m ρ c)).trans (s18_v3 m ρ c)
theorem s19_v6 : W19 m ρ c (Proc.devRef .tc main_v6) = dstV eA := (k7_v6 (W18 m ρ c)).trans (s18_v6 m ρ c)
theorem s19_v30 : W19 m ρ c (Proc.devRef .tc main_v30) = nrmA := (k7_v30 (W18 m ρ c)).trans (s18_v30 m ρ c)
theorem s20_v3 : W20 m ρ c (Proc.devRef .tc main_v3) = srcV eA := (W20_of_ne m ρ c main_v3 (by decide)).trans (s19_v3 m ρ c)
theorem s20_v6 : W20 m ρ c (Proc.devRef .tc main_v6) = dstV eA := (W20_of_ne m ρ c main_v6 (by decide)).trans (s19_v6 m ρ c)
theorem s20_v30 : W20 m ρ c (Proc.devRef .tc main_v30) = nrmA :=
  ((W20_arr m ρ c 1).trans (((dat7 (V19 m ρ) c).arrAt_in 1 rfl _).trans (A_eq7 (V19 m ρ) c 1))).trans (s19_v30 m ρ c)

/-! ## Layer 1 -/

theorem a0_x : V3 m ρ c main_arg0 = xA := by argread
theorem a0_w : V3 m ρ c main_arg2 = w1A := by argread
/-- The first product, x·W1, block by block. -/
theorem L31 : W4 m ρ c (Proc.devRef .tc main_v31) = M1 :=
  (W4_arr m ρ c 2).trans ((final0 (V3 m ρ) c).trans (by rw [a0_x m ρ c, a0_w m ρ c]; rfl))
theorem L38 : W5 m ρ c (Proc.devRef .tc main_v38) = gath128 M1 (srcV eA) := (h1_v38 (W4 m ρ c)).trans (by rw [L31 m ρ c, s4_v3 m ρ c])
/-- The messages: the gathered rows scaled by the edge weights. -/
theorem L39 : W6 m ρ c (Proc.devRef .tc main_v39) = msg128 M1 eA :=
  (W6_arr m ρ c 2).trans ((final1 (V5 m ρ) c (normV eA) shapeCasts_S740000_S740000x1 (s5_v30 m ρ c)).trans
    (by rw [show V5 m ρ c main_v38 = _ from L38 m ρ c]; rfl))

theorem a1_b : W6 m ρ c (Proc.devRef .tc main_arg3) = b1A := by argread
theorem a1_g : W6 m ρ c (Proc.devRef .tc main_arg8) = g1A := by argread
theorem a1_be : W6 m ρ c (Proc.devRef .tc main_arg9) = be1A := by argread
theorem i1_agg : V9 m ρ c main_v42 = A1 := (g2_agg (W6 m ρ c)).trans (by rw [L39 m ρ c, s6_v6 m ρ c]; rfl)
theorem i1_b : V9 m ρ c main_v52 = shapeCast S1x128 b1A shapeCasts_S128_S1x128 := (g2_b (W6 m ρ c)).trans (by rw [a1_b m ρ c])
theorem i1_g : V9 m ρ c main_v53 = shapeCast S1x128 g1A shapeCasts_S128_S1x128 := (g2_g (W6 m ρ c)).trans (by rw [a1_g m ρ c])
theorem i1_be : V9 m ρ c main_v54 = shapeCast S1x128 be1A shapeCasts_S128_S1x128 := (g2_be (W6 m ρ c)).trans (by rw [a1_be m ρ c])
theorem i1_mean : V9 m ρ c main_v49 = shapeCast S1x128 (meanV (hbV A1 b1A)) shapeCasts_S128_S1x128 :=
  (g2_mean (W6 m ρ c)).trans (by rw [L39 m ρ c, s6_v6 m ρ c, a1_b m ρ c]; rfl)
theorem i1_var : V9 m ρ c main_v51 = shapeCast S1x128 (varV (hbV A1 b1A)) shapeCasts_S128_S1x128 :=
  (g2_var (W6 m ρ c)).trans (by rw [L39 m ρ c, s6_v6 m ρ c, a1_b m ρ c]; rfl)
/-- The layer's output: the normalised, scaled, shifted and clipped biased aggregate. -/
theorem L55 : W10 m ρ c (Proc.devRef .tc main_v55) = H1 :=
  (W10_arr m ρ c 6).trans ((final2 (V9 m ρ) c b1A (meanV (hbV A1 b1A)) (varV (hbV A1 b1A)) g1A be1A shapeCasts_S128_S1x128
    (i1_b m ρ c) (i1_mean m ρ c) (i1_var m ρ c) (i1_g m ρ c) (i1_be m ρ c)).trans (by rw [i1_agg m ρ c]; rfl))

/-! ## Layer 2 -/

theorem a3_w : V10 m ρ c main_arg4 = w2A := by argread
theorem L56 : W11 m ρ c (Proc.devRef .tc main_v56) = M2 :=
  (W11_arr m ρ c 2).trans ((final3 (V10 m ρ) c).trans (by rw [show V10 m ρ c main_v55 = _ from L55 m ρ c, a3_w m ρ c]; rfl))
theorem L63 : W12 m ρ c (Proc.devRef .tc main_v63) = gath128 M2 (srcV eA) := (h4_v63 (W11 m ρ c)).trans (by rw [L56 m ρ c, s11_v3 m ρ c])
theorem L64 : W13 m ρ c (Proc.devRef .tc main_v64) = msg128 M2 eA :=
  (W13_arr m ρ c 2).trans ((final4 (V12 m ρ) c (normV eA) shapeCasts_S740000_S740000x1 (s12_v30 m ρ c)).trans
    (by rw [show V12 m ρ c main_v63 = _ from L63 m ρ c]; rfl))

theorem a2_b : W13 m ρ c (Proc.devRef .tc main_arg5) = b2A := by argread
theorem a2_g : W13 m ρ c (Proc.devRef .tc main_arg10) = g2A := by argread
theorem a2_be : W13 m ρ c (Proc.devRef .tc main_arg11) = be2A := by argread
theorem i2_agg : V16 m ρ c main_v67 = A2 := (g5_agg (W13 m ρ c)).trans (by rw [L64 m ρ c, s13_v6 m ρ c]; rfl)
theorem i2_b : V16 m ρ c main_v77 = shapeCast S1x128 b2A shapeCasts_S128_S1x128 := (g5_b (W13 m ρ c)).trans (by rw [a2_b m ρ c])
theorem i2_g : V16 m ρ c main_v78 = shapeCast S1x128 g2A shapeCasts_S128_S1x128 := (g5_g (W13 m ρ c)).trans (by rw [a2_g m ρ c])
theorem i2_be : V16 m ρ c main_v79 = shapeCast S1x128 be2A shapeCasts_S128_S1x128 := (g5_be (W13 m ρ c)).trans (by rw [a2_be m ρ c])
theorem i2_mean : V16 m ρ c main_v74 = shapeCast S1x128 (meanV (hbV A2 b2A)) shapeCasts_S128_S1x128 :=
  (g5_mean (W13 m ρ c)).trans (by rw [L64 m ρ c, s13_v6 m ρ c, a2_b m ρ c]; rfl)
theorem i2_var : V16 m ρ c main_v76 = shapeCast S1x128 (varV (hbV A2 b2A)) shapeCasts_S128_S1x128 :=
  (g5_var (W13 m ρ c)).trans (by rw [L64 m ρ c, s13_v6 m ρ c, a2_b m ρ c]; rfl)
/-- The layer's output: the normalised, scaled, shifted and clipped biased aggregate. -/
theorem L80 : W17 m ρ c (Proc.devRef .tc main_v80) = H2 :=
  (W17_arr m ρ c 6).trans ((final5 (V16 m ρ) c b2A (meanV (hbV A2 b2A)) (varV (hbV A2 b2A)) g2A be2A shapeCasts_S128_S1x128
    (i2_b m ρ c) (i2_mean m ρ c) (i2_var m ρ c) (i2_g m ρ c) (i2_be m ρ c)).trans (by rw [i2_agg m ρ c]; rfl))

/-! ## Layer 3 and the result -/

theorem a6_w : V17 m ρ c main_arg6 = w3A := by argread
theorem L81 : W18 m ρ c (Proc.devRef .tc main_v81) = M3 :=
  (W18_arr m ρ c 2).trans ((final6 (V17 m ρ) c).trans (by rw [show V17 m ρ c main_v80 = _ from L80 m ρ c, a6_w m ρ c]; rfl))
theorem L88 : W19 m ρ c (Proc.devRef .tc main_v88) = gath1 M3 (srcV eA) := (h7_v88 (W18 m ρ c)).trans (by rw [L81 m ρ c, s18_v3 m ρ c])
theorem L89 : W20 m ρ c (Proc.devRef .tc main_v89) = msg1 M3 eA :=
  (W20_arr m ρ c 2).trans ((final7 (V19 m ρ) c (normV eA) shapeCasts_S740000_S740000x1 (s19_v30 m ρ c)).trans
    (by rw [show V19 m ρ c main_v88 = _ from L88 m ρ c]; rfl))
theorem a8_b : W20 m ρ c (Proc.devRef .tc main_arg7) = b3A := by argread
theorem i8_agg : V21 m ρ c main_v92 = A3 := (h8_v92 (W20 m ρ c)).trans (by rw [L89 m ρ c, s20_v6 m ρ c]; rfl)
theorem i8_b : V21 m ρ c main_v93 = shapeCast S1x1 b3A shapeCasts_S1_S1x1 := (h8_v93 (W20 m ρ c)).trans (by rw [a8_b m ρ c])

/-- THE RESULT: the result buffer at the last boundary holds the network's function of the argument arrays. -/
theorem result : W22 m ρ c (Proc.devRef .tc main_v94) = outV xA eA w1A b1A w2A b2A w3A b3A g1A be1A g2A be2A :=
  (W22_arr m ρ c 2).trans ((final8 (V21 m ρ) c b3A shapeCasts_S1_S1x1 (i8_b m ρ c)).trans (by rw [i8_agg m ρ c]; rfl))

end Cert.KernelIdeal.Stages

end
-- ==== Proof.RefRun.lean ====
/- The reference program's @main as the list of its host operations, and its run.

   @main is stated in three consecutive windows (`main_part0`, `main_part1`, `main_part2`), and five of its statements
   are calls of module-local functions: `@_where` once, `@_var` twice (its body itself calls `@_where_0`) and `@relu`
   twice. A call executes the callee's body on the operands, so each call is replaced here by the callee's operations, in
   order, over the call's operands and that call's own buffers (the record `main_callK`; for the call inside `@_var`,
   the record's `call0`). That makes @main one straight line of 201 operations, kept as one list per window. A straight
   line's executions all terminate, with every TensorCore buffer at the fold of the operations' results over the launch
   contents (`StableHlo.after`); no value of any buffer is computed here. -/
import proofs.«149244_j87471303950804_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's first window: its operations 1 … 62, the call of `@_where` (three operations into `main_call0`'s buffers) in place. -/
abbrev ops0 : List (HloOp τ sig (Elt F)) :=
  [ StableHlo.nullary main_v0 (iotaInDim S100000 32 0),
    StableHlo.unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v1 main_v2 rfl shapeCasts_S1x640000_S640000,
    StableHlo.binary main_v2 main_v0 main_v3 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    StableHlo.unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v4 main_v5 rfl shapeCasts_S1x640000_S640000,
    StableHlo.binary main_v5 main_v0 main_v6 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    StableHlo.nullary main_cst (constant S_ .f32 0x3F800000#32),
    StableHlo.unary main_cst main_v7 (broadcastInDim S740000 ![] bcast_S_S740000 : (⟨S_, .f32⟩ : BufTy).Contents (Elt F) → (⟨S740000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S740000x1 ![0] bcast_S740000_S740000x1_0 : (⟨S740000, .i32⟩ : BufTy).Contents (Elt F) → (⟨S740000x1, .i32⟩ : BufTy).Contents (Elt F)),
    StableHlo.ternary main_v8 main_v9 main_v7 main_v10 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v12 : StableHlo.TRef sig ⟨S100000, .i1⟩) (.of main_v13 : StableHlo.TRef sig ⟨S100000, .f32⟩) main_call0.v1 main_call0.v2 select,
    StableHlo.nullary main_c (constantI S_ 32 0#32),
    StableHlo.unary main_c main_v15 (broadcastInDim S740000 ![] bcast_S_S740000 : (⟨S_, .i32⟩ : BufTy).Contents (Elt F) → (⟨S740000, .i32⟩ : BufTy).Contents (Elt F)),
    StableHlo.binary main_v3 main_v15 main_v16 (cmpi .slt : (⟨S740000, .i32⟩ : BufTy).Contents (Elt F) → (⟨S740000, .i32⟩ : BufTy).Contents (Elt F) → (⟨S740000, .i1⟩ : BufTy).Contents (Elt F)),
    StableHlo.nullary main_c_3 (constantI S_ 32 100000#32),
    StableHlo.unary main_c_3 main_v17 (broadcastInDim S740000 ![] bcast_S_S740000 : (⟨S_, .i32⟩ : BufTy).Contents (Elt F) → (⟨S740000, .i32⟩ : BufTy).Contents (Elt F)),
    StableHlo.binary main_v3 main_v17 main_v18 (addi : (⟨S740000, .i32⟩ : BufTy).Contents (Elt F) → (⟨S740000, .i32⟩ : BufTy).Contents (Elt F) → (⟨S740000, .i32⟩ : BufTy).Contents (Elt F)),
    StableHlo.ternary main_v16 main_v18 main_v3 main_v19 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v19 main_v20 (broadcastInDim S740000x1 ![0] bcast_S740000_S740000x1_0 : (⟨S740000, .i32⟩ : BufTy).Contents (Elt F) → (⟨S740000x1, .i32⟩ : BufTy).Contents (Elt F)),
    StableHlo.binary main_v14 main_v20 main_v21 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.nullary main_c_4 (constantI S_ 32 0#32),
    StableHlo.unary main_c_4 main_v22 (broadcastInDim S740000 ![] bcast_S_S740000 : (⟨S_, .i32⟩ : BufTy).Contents (Elt F) → (⟨S740000, .i32⟩ : BufTy).Contents (Elt F)),
    StableHlo.binary main_v6 main_v22 main_v23 (cmpi .slt : (⟨S740000, .i32⟩ : BufTy).Contents (Elt F) → (⟨S740000, .i32⟩ : BufTy).Contents (Elt F) → (⟨S740000, .i1⟩ : BufTy).Contents (Elt F)),
    StableHlo.nullary main_c_5 (constantI S_ 32 100000#32),
    StableHlo.unary main_c_5 main_v24 (broadcastInDim S740000 ![] bcast_S_S740000 : (⟨S_, .i32⟩ : BufTy).Contents (Elt F) → (⟨S740000, .i32⟩ : BufTy).Contents (Elt F)),
    StableHlo.binary main_v6 main_v24 main_v25 (addi : (⟨S740000, .i32⟩ : BufTy).Contents (Elt F) → (⟨S740000, .i32⟩ : BufTy).Contents (Elt F) → (⟨S740000, .i32⟩ : BufTy).Contents (Elt F)),
    StableHlo.ternary main_v23 main_v25 main_v6 main_v26 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v26 main_v27 (broadcastInDim S740000x1 ![0] bcast_S740000_S740000x1_0 : (⟨S740000, .i32⟩ : BufTy).Contents (Elt F) → (⟨S740000x1, .i32⟩ : BufTy).Contents (Elt F)),
    StableHlo.binary main_v14 main_v27 main_v28 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.binary main_v21 main_v28 main_v29 (mulf : (⟨S740000, .f32⟩ : BufTy).Contents (Elt F) → (⟨S740000, .f32⟩ : BufTy).Contents (Elt F) → (⟨S740000, .f32⟩ : BufTy).Contents (Elt F)),
    StableHlo.binary main_arg0 main_arg2 main_v30 ((fun l r => Host.dotGeneral dot_S100000x6_S6x128_S100000x128_1_0_0_1_n_n none l r) : (⟨S100000x6, .f32⟩ : BufTy).Contents (Elt F) → (⟨S6x128, .f32⟩ : BufTy).Contents (Elt F) → (⟨S100000x128, .f32⟩ : BufTy).Contents (Elt F)),
    StableHlo.nullary main_c_6 (constantI S_ 32 0#32),
    StableHlo.unary main_c_6 main_v31 (broadcastInDim S740000 ![] bcast_S_S740000 : (⟨S_, .i32⟩ : BufTy).Contents (Elt F) → (⟨S740000, .i32⟩ : BufTy).Contents (Elt F)),
    StableHlo.binary main_v3 main_v31 main_v32 (cmpi .slt : (⟨S740000, .i32⟩ : BufTy).Contents (Elt F) → (⟨S740000, .i32⟩ : BufTy).Contents (Elt F) → (⟨S740000, .i1⟩ : BufTy).Contents (Elt F)),
    StableHlo.nullary main_c_7 (constantI S_ 32 100000#32),
    StableHlo.unary main_c_7 main_v33 (broadcastInDim S740000 ![] bcast_S_S740000 : (⟨S_, .i32⟩ : BufTy).Contents (Elt F) → (⟨S740000, .i32⟩ : BufTy).Contents (Elt F)),
    StableHlo.binary main_v3 main_v33 main_v34 (addi : (⟨S740000, .i32⟩ : BufTy).Contents (Elt F) → (⟨S740000, .i32⟩ : BufTy).Contents (Elt F) → (⟨S740000, .i32⟩ : BufTy).Contents (Elt F)),
    StableHlo.ternary main_v32 main_v34 main_v3 main_v35 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v35 main_v36 (broadcastInDim S740000x1 ![0] bcast_S740000_S740000x1_0 : (⟨S740000, .i32⟩ : BufTy).Contents (Elt F) → (⟨S740000x1, .i32⟩ : BufTy).Contents (Elt F)),
    StableHlo.binary main_v30 main_v36 main_v37 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    StableHlo.unary main_v29 main_v38 (broadcastInDim S740000x1 ![0] bcast_S740000_S740000x1_0 : (⟨S740000, .f32⟩ : BufTy).Contents (Elt F) → (⟨S740000x1, .f32⟩ : BufTy).Contents (Elt F)),
    StableHlo.unary main_v38 main_v39 (broadcastInDim S740000x128 ![0, 1] bcast_S740000x1_S740000x128_0_1 : (⟨S740000x1, .f32⟩ : BufTy).Contents (Elt F) → (⟨S740000x128, .f32⟩ : BufTy).Contents (Elt F)),
    StableHlo.binary main_v37 main_v39 main_v40 (mulf : (⟨S740000x128, .f32⟩ : BufTy).Contents (Elt F) → (⟨S740000x128, .f32⟩ : BufTy).Contents (Elt F) → (⟨S740000x128, .f32⟩ : BufTy).Contents (Elt F)),
    StableHlo.nullary main_cst_8 (constant S_ .f32 0x00000000#32),
    StableHlo.unary main_cst_8 main_v41 (broadcastInDim S100000x128 ![] bcast_S_S100000x128 : (⟨S_, .f32⟩ : BufTy).Contents (Elt F) → (⟨S100000x128, .f32⟩ : BufTy).Contents (Elt F)),
    StableHlo.unary main_v6 main_v42 (broadcastInDim S740000x1 ![0] bcast_S740000_S740000x1_0 : (⟨S740000, .i32⟩ : BufTy).Contents (Elt F) → (⟨S740000x1, .i32⟩ : BufTy).Contents (Elt F)),
    StableHlo.ternary main_v41 main_v42 main_v40 main_v43 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    StableHlo.unary main_arg3 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v45 main_v46 (addf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x00000000#32),
    StableHlo.binary main_v46 main_cst_9 main_v47 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) ]

/-- @main's second window: its operations 63 … 166. Each call of `@_var` is twenty-two operations — nineteen of its own into the
    record's buffers, then `@_where_0`'s three into the record's `call0` — over `main_call1` and over `main_call3`; the call of
    `@relu` is three into `main_call2`'s. -/
abbrev ops1 : List (HloOp τ sig (Elt F)) :=
  [ StableHlo.nullary main_cst_10 (constant S_ .f32 0x47C35000#32),
    StableHlo.unary main_cst_10 main_v48 (broadcastInDim S128 ![] bcast_S_S128 : (⟨S_, .f32⟩ : BufTy).Contents (Elt F) → (⟨S128, .f32⟩ : BufTy).Contents (Elt F)),
    StableHlo.binary main_v47 main_v48 main_v49 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call1.cst (constant S_ .f32 0x00000000#32),
    StableHlo.TRef.binary (.of main_v46 : StableHlo.TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v46 : StableHlo.TRef sig ⟨S100000x128, .f32⟩) main_call1.v4 main_call1.v5 subf,
    StableHlo.TRef.binary main_call1.v5 main_call1.v5 main_call1.v6 mulf,
    StableHlo.TRef.unary (.of main_c_11 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v49 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S100000x128 ![0, 1] bcast_S1x128_S100000x128_0_1 : (⟨S1x128, .f32⟩ : BufTy).Contents (Elt F) → (⟨S100000x128, .f32⟩ : BufTy).Contents (Elt F)),
    StableHlo.binary main_v46 main_v52 main_v53 (subf : (⟨S100000x128, .f32⟩ : BufTy).Contents (Elt F) → (⟨S100000x128, .f32⟩ : BufTy).Contents (Elt F) → (⟨S100000x128, .f32⟩ : BufTy).Contents (Elt F)),
    StableHlo.unary main_arg8 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v53 main_v56 (mulf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x3727C5AC#32),
    StableHlo.unary main_cst_12 main_v57 (broadcastInDim S128 ![] bcast_S_S128 : (⟨S_, .f32⟩ : BufTy).Contents (Elt F) → (⟨S128, .f32⟩ : BufTy).Contents (Elt F)),
    StableHlo.binary main_v50 main_v57 main_v58 (addf : (⟨S128, .f32⟩ : BufTy).Contents (Elt F) → (⟨S128, .f32⟩ : BufTy).Contents (Elt F) → (⟨S128, .f32⟩ : BufTy).Contents (Elt F)),
    StableHlo.unary main_v58 main_v59 (Host.rsqrt : (⟨S128, .f32⟩ : BufTy).Contents (Elt F) → (⟨S128, .f32⟩ : BufTy).Contents (Elt F)),
    StableHlo.unary main_v59 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S100000x128 ![0, 1] bcast_S1x128_S100000x128_0_1 : (⟨S1x128, .f32⟩ : BufTy).Contents (Elt F) → (⟨S100000x128, .f32⟩ : BufTy).Contents (Elt F)),
    StableHlo.binary main_v56 main_v61 main_v62 (mulf : (⟨S100000x128, .f32⟩ : BufTy).Contents (Elt F) → (⟨S100000x128, .f32⟩ : BufTy).Contents (Elt F) → (⟨S100000x128, .f32⟩ : BufTy).Contents (Elt F)),
    StableHlo.unary main_arg9 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S100000x128 ![0, 1] bcast_S1x128_S100000x128_0_1 : (⟨S1x128, .f32⟩ : BufTy).Contents (Elt F) → (⟨S100000x128, .f32⟩ : BufTy).Contents (Elt F)),
    StableHlo.binary main_v62 main_v64 main_v65 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v65 : StableHlo.TRef sig ⟨S100000x128, .f32⟩) main_call2.v0 main_call2.v1 maximumf,
    StableHlo.binary main_v66 main_arg4 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_13 (constantI S_ 32 0#32),
    StableHlo.unary main_c_13 main_v68 (broadcastInDim S740000 ![] bcast_S_S740000 : (⟨S_, .i32⟩ : BufTy).Contents (Elt F) → (⟨S740000, .i32⟩ : BufTy).Contents (Elt F)),
    StableHlo.binary main_v3 main_v68 main_v69 (cmpi .slt : (⟨S740000, .i32⟩ : BufTy).Contents (Elt F) → (⟨S740000, .i32⟩ : BufTy).Contents (Elt F) → (⟨S740000, .i1⟩ : BufTy).Contents (Elt F)),
    StableHlo.nullary main_c_14 (constantI S_ 32 100000#32),
    StableHlo.unary main_c_14 main_v70 (broadcastInDim S740000 ![] bcast_S_S740000 : (⟨S_, .i32⟩ : BufTy).Contents (Elt F) → (⟨S740000, .i32⟩ : BufTy).Contents (Elt F)),
    StableHlo.binary main_v3 main_v70 main_v71 (addi : (⟨S740000, .i32⟩ : BufTy).Contents (Elt F) → (⟨S740000, .i32⟩ : BufTy).Contents (Elt F) → (⟨S740000, .i32⟩ : BufTy).Contents (Elt F)),
    StableHlo.ternary main_v69 main_v71 main_v3 main_v72 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v72 main_v73 (broadcastInDim S740000x1 ![0] bcast_S740000_S740000x1_0 : (⟨S740000, .i32⟩ : BufTy).Contents (Elt F) → (⟨S740000x1, .i32⟩ : BufTy).Contents (Elt F)),
    StableHlo.binary main_v67 main_v73 main_v74 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    StableHlo.unary main_v29 main_v75 (broadcastInDim S740000x1 ![0] bcast_S740000_S740000x1_0 : (⟨S740000, .f32⟩ : BufTy).Contents (Elt F) → (⟨S740000x1, .f32⟩ : BufTy).Contents (Elt F)),
    StableHlo.unary main_v75 main_v76 (broadcastInDim S740000x128 ![0, 1] bcast_S740000x1_S740000x128_0_1 : (⟨S740000x1, .f32⟩ : BufTy).Contents (Elt F) → (⟨S740000x128, .f32⟩ : BufTy).Contents (Elt F)),
    StableHlo.binary main_v74 main_v76 main_v77 (mulf : (⟨S740000x128, .f32⟩ : BufTy).Contents (Elt F) → (⟨S740000x128, .f32⟩ : BufTy).Contents (Elt F) → (⟨S740000x128, .f32⟩ : BufTy).Contents (Elt F)),
    StableHlo.nullary main_cst_15 (constant S_ .f32 0x00000000#32),
    StableHlo.unary main_cst_15 main_v78 (broadcastInDim S100000x128 ![] bcast_S_S100000x128 : (⟨S_, .f32⟩ : BufTy).Contents (Elt F) → (⟨S100000x128, .f32⟩ : BufTy).Contents (Elt F)),
    StableHlo.unary main_v6 main_v79 (broadcastInDim S740000x1 ![0] bcast_S740000_S740000x1_0 : (⟨S740000, .i32⟩ : BufTy).Contents (Elt F) → (⟨S740000x1, .i32⟩ : BufTy).Contents (Elt F)),
    StableHlo.ternary main_v78 main_v79 main_v77 main_v80 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    StableHlo.unary main_arg5 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v82 main_v83 (addf : (⟨S100000x128, .f32⟩ : BufTy).Contents (Elt F) → (⟨S100000x128, .f32⟩ : BufTy).Contents (Elt F) → (⟨S100000x128, .f32⟩ : BufTy).Contents (Elt F)),
    StableHlo.nullary main_cst_16 (constant S_ .f32 0x00000000#32),
    StableHlo.binary main_v83 main_cst_16 main_v84 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_17 (constant S_ .f32 0x47C35000#32),
    StableHlo.unary main_cst_17 main_v85 (broadcastInDim S128 ![] bcast_S_S128 : (⟨S_, .f32⟩ : BufTy).Contents (Elt F) → (⟨S128, .f32⟩ : BufTy).Contents (Elt F)),
    StableHlo.binary main_v84 main_v85 main_v86 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call3.cst (constant S_ .f32 0x00000000#32),
    StableHlo.TRef.binary (.of main_v83 : StableHlo.TRef sig ⟨S100000x128, .f32⟩) main_call3.cst main_call3.v0 (fun x v => Host.reduceAdd x v reducesTo_S100000x128_S128_d0 h_S_),
    StableHlo.TRef.unary main_call3.v0 main_call3.v1 (broadcastInDim S1x128 ![1] bcast_S128_S1x128_1),
    StableHlo.TRef.nullary main_call3.cst_0 (constant S_ .f32 0x47C35000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S100000x128 ![0, 1] bcast_S1x128_S100000x128_0_1),
    StableHlo.TRef.binary (.of main_v83 : StableHlo.TRef sig ⟨S100000x128, .f32⟩) main_call3.v4 main_call3.v5 subf,
    StableHlo.TRef.binary main_call3.v5 main_call3.v5 main_call3.v6 mulf,
    StableHlo.TRef.unary (.of main_c_18 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v86 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S100000x128 ![0, 1] bcast_S1x128_S100000x128_0_1 : (⟨S1x128, .f32⟩ : BufTy).Contents (Elt F) → (⟨S100000x128, .f32⟩ : BufTy).Contents (Elt F)),
    StableHlo.binary main_v83 main_v89 main_v90 (subf : (⟨S100000x128, .f32⟩ : BufTy).Contents (Elt F) → (⟨S100000x128, .f32⟩ : BufTy).Contents (Elt F) → (⟨S100000x128, .f32⟩ : BufTy).Contents (Elt F)),
    StableHlo.unary main_arg10 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S100000x128 ![0, 1] bcast_S1x128_S100000x128_0_1 : (⟨S1x128, .f32⟩ : BufTy).Contents (Elt F) → (⟨S100000x128, .f32⟩ : BufTy).Contents (Elt F)),
    StableHlo.binary main_v92 main_v90 main_v93 (mulf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x3727C5AC#32),
    StableHlo.unary main_cst_19 main_v94 (broadcastInDim S128 ![] bcast_S_S128 : (⟨S_, .f32⟩ : BufTy).Contents (Elt F) → (⟨S128, .f32⟩ : BufTy).Contents (Elt F)),
    StableHlo.binary main_v87 main_v94 main_v95 (addf : (⟨S128, .f32⟩ : BufTy).Contents (Elt F) → (⟨S128, .f32⟩ : BufTy).Contents (Elt F) → (⟨S128, .f32⟩ : BufTy).Contents (Elt F)),
    StableHlo.unary main_v95 main_v96 (Host.rsqrt : (⟨S128, .f32⟩ : BufTy).Contents (Elt F) → (⟨S128, .f32⟩ : BufTy).Contents (Elt F)),
    StableHlo.unary main_v96 main_v97 (broadcastInDim S1x128 ![1] bcast_S128_S1x128_1 : (⟨S128, .f32⟩ : BufTy).Contents (Elt F) → (⟨S1x128, .f32⟩ : BufTy).Contents (Elt F)) ]

/-- @main's third window: its operations 167 … 201, the call of `@relu` (three operations into `main_call4`'s buffers) in place. -/
abbrev ops2 : List (HloOp τ sig (Elt F)) :=
  [ StableHlo.unary main_v97 main_v98 (broadcastInDim S100000x128 ![0, 1] bcast_S1x128_S100000x128_0_1 : (⟨S1x128, .f32⟩ : BufTy).Contents (Elt F) → (⟨S100000x128, .f32⟩ : BufTy).Contents (Elt F)),
    StableHlo.binary main_v93 main_v98 main_v99 (mulf : (⟨S100000x128, .f32⟩ : BufTy).Contents (Elt F) → (⟨S100000x128, .f32⟩ : BufTy).Contents (Elt F) → (⟨S100000x128, .f32⟩ : BufTy).Contents (Elt F)),
    StableHlo.unary main_arg11 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S100000x128 ![0, 1] bcast_S1x128_S100000x128_0_1 : (⟨S1x128, .f32⟩ : BufTy).Contents (Elt F) → (⟨S100000x128, .f32⟩ : BufTy).Contents (Elt F)),
    StableHlo.binary main_v99 main_v101 main_v102 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v102 : StableHlo.TRef sig ⟨S100000x128, .f32⟩) main_call4.v0 main_call4.v1 maximumf,
    StableHlo.binary main_v103 main_arg6 main_v104 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    StableHlo.nullary main_c_20 (constantI S_ 32 0#32),
    StableHlo.unary main_c_20 main_v105 (broadcastInDim S740000 ![] bcast_S_S740000 : (⟨S_, .i32⟩ : BufTy).Contents (Elt F) → (⟨S740000, .i32⟩ : BufTy).Contents (Elt F)),
    StableHlo.binary main_v3 main_v105 main_v106 (cmpi .slt : (⟨S740000, .i32⟩ : BufTy).Contents (Elt F) → (⟨S740000, .i32⟩ : BufTy).Contents (Elt F) → (⟨S740000, .i1⟩ : BufTy).Contents (Elt F)),
    StableHlo.nullary main_c_21 (constantI S_ 32 100000#32),
    StableHlo.unary main_c_21 main_v107 (broadcastInDim S740000 ![] bcast_S_S740000 : (⟨S_, .i32⟩ : BufTy).Contents (Elt F) → (⟨S740000, .i32⟩ : BufTy).Contents (Elt F)),
    StableHlo.binary main_v3 main_v107 main_v108 (addi : (⟨S740000, .i32⟩ : BufTy).Contents (Elt F) → (⟨S740000, .i32⟩ : BufTy).Contents (Elt F) → (⟨S740000, .i32⟩ : BufTy).Contents (Elt F)),
    StableHlo.ternary main_v106 main_v108 main_v3 main_v109 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v109 main_v110 (broadcastInDim S740000x1 ![0] bcast_S740000_S740000x1_0 : (⟨S740000, .i32⟩ : BufTy).Contents (Elt F) → (⟨S740000x1, .i32⟩ : BufTy).Contents (Elt F)),
    StableHlo.binary main_v104 main_v110 main_v111 ((fun x i => Host.gather gather_S100000x1_S740000x1_S740000x1_1_0_n_n_0_1_11 x i) : (⟨S100000x1, .f32⟩ : BufTy).Contents (Elt F) → (⟨S740000x1, .i32⟩ : BufTy).Contents (Elt F) → (⟨S740000x1, .f32⟩ : BufTy).Contents (Elt F)),
    StableHlo.unary main_v29 main_v112 (broadcastInDim S740000x1 ![0] bcast_S740000_S740000x1_0 : (⟨S740000, .f32⟩ : BufTy).Contents (Elt F) → (⟨S740000x1, .f32⟩ : BufTy).Contents (Elt F)),
    StableHlo.binary main_v111 main_v112 main_v113 (mulf : (⟨S740000x1, .f32⟩ : BufTy).Contents (Elt F) → (⟨S740000x1, .f32⟩ : BufTy).Contents (Elt F) → (⟨S740000x1, .f32⟩ : BufTy).Contents (Elt F)),
    StableHlo.nullary main_cst_22 (constant S_ .f32 0x00000000#32),
    StableHlo.unary main_cst_22 main_v114 (broadcastInDim S100000x1 ![] bcast_S_S100000x1 : (⟨S_, .f32⟩ : BufTy).Contents (Elt F) → (⟨S100000x1, .f32⟩ : BufTy).Contents (Elt F)),
    StableHlo.unary main_v6 main_v115 (broadcastInDim S740000x1 ![0] bcast_S740000_S740000x1_0 : (⟨S740000, .i32⟩ : BufTy).Contents (Elt F) → (⟨S740000x1, .i32⟩ : BufTy).Contents (Elt F)),
    StableHlo.ternary main_v114 main_v115 main_v113 main_v116 ((fun x i u => Host.scatterAdd scatter_S100000x1_S740000x1_S740000x1_1_0_0_1 x i u) : (⟨S100000x1, .f32⟩ : BufTy).Contents (Elt F) → (⟨S740000x1, .i32⟩ : BufTy).Contents (Elt F) → (⟨S740000x1, .f32⟩ : BufTy).Contents (Elt F) → (⟨S100000x1, .f32⟩ : BufTy).Contents (Elt F)),
    StableHlo.unary main_arg7 main_v117 (broadcastInDim S1x1 ![1] bcast_S1_S1x1_1 : (⟨S1, .f32⟩ : BufTy).Contents (Elt F) → (⟨S1x1, .f32⟩ : BufTy).Contents (Elt F)),
    StableHlo.unary main_v117 main_v118 (broadcastInDim S100000x1 ![0, 1] bcast_S1x1_S100000x1_0_1 : (⟨S1x1, .f32⟩ : BufTy).Contents (Elt F) → (⟨S100000x1, .f32⟩ : BufTy).Contents (Elt F)),
    StableHlo.binary main_v116 main_v118 main_v119 (addf : (⟨S100000x1, .f32⟩ : BufTy).Contents (Elt F) → (⟨S100000x1, .f32⟩ : BufTy).Contents (Elt F) → (⟨S100000x1, .f32⟩ : BufTy).Contents (Elt F)),
    StableHlo.unary main_v119 main_v120 (Host.negf : (⟨S100000x1, .f32⟩ : BufTy).Contents (Elt F) → (⟨S100000x1, .f32⟩ : BufTy).Contents (Elt F)),
    StableHlo.unary main_v120 main_v121 (Host.exp : (⟨S100000x1, .f32⟩ : BufTy).Contents (Elt F) → (⟨S100000x1, .f32⟩ : BufTy).Contents (Elt F)),
    StableHlo.nullary main_cst_23 (constant S_ .f32 0x3F800000#32),
    StableHlo.unary main_cst_23 main_v122 (broadcastInDim S100000x1 ![] bcast_S_S100000x1 : (⟨S_, .f32⟩ : BufTy).Contents (Elt F) → (⟨S100000x1, .f32⟩ : BufTy).Contents (Elt F)),
    StableHlo.binary main_v122 main_v121 main_v123 (addf : (⟨S100000x1, .f32⟩ : BufTy).Contents (Elt F) → (⟨S100000x1, .f32⟩ : BufTy).Contents (Elt F) → (⟨S100000x1, .f32⟩ : BufTy).Contents (Elt F)),
    StableHlo.nullary main_cst_24 (constant S_ .f32 0x3F800000#32),
    StableHlo.unary main_cst_24 main_v124 (broadcastInDim S100000x1 ![] bcast_S_S100000x1 : (⟨S_, .f32⟩ : BufTy).Contents (Elt F) → (⟨S100000x1, .f32⟩ : BufTy).Contents (Elt F)),
    StableHlo.binary main_v124 main_v123 main_v125 (Host.divf : (⟨S100000x1, .f32⟩ : BufTy).Contents (Elt F) → (⟨S100000x1, .f32⟩ : BufTy).Contents (Elt F) → (⟨S100000x1, .f32⟩ : BufTy).Contents (Elt F)) ]

/-- @main's 201 operations, in order: the three windows one after the other. -/
abbrev ops : List (HloOp τ sig (Elt F)) := ops0 ++ ops1 ++ ops2

/-! ## @main is that straight line

Window by window: the called functions' definitions unfolded at their calls and the records at their fields, both sides
are one chain of `hlo` steps once sequencing is reassociated (`bind_assoc`, `pure_bind`). The windows run one after the
other, and lines run one after the other are their concatenation run as one (`seq_append`). -/

set_option maxRecDepth 8192 in
theorem main_part0_eq (c : Dev nD) : main_part0 (F := F) c = seq ops0 := by
  simp only [main_part0, fn_where.body, seq, bind_assoc, pure_bind]
  rfl

set_option maxRecDepth 8192 in
theorem main_part1_eq (c : Dev nD) : main_part1 (F := F) c = seq ops1 := by
  simp only [main_part1, fn_var.body, fn_where_0.body, fn_relu.body, seq, bind_assoc, pure_bind]
  rfl

set_option maxRecDepth 8192 in
theorem main_part2_eq (c : Dev nD) : main_part2 (F := F) c = seq ops2 := by
  simp only [main_part2, fn_relu.body, seq, bind_assoc, pure_bind]

theorem main_eq (c : Dev nD) : main (F := F) c = seq ops := by
  simp only [ops, seq_append, bind_assoc, ← main_part0_eq c, ← main_part1_eq c, ← main_part2_eq c]
  rfl

/-! ## The side conditions of a straight line's run

The signature scopes no buffer and no semaphore; every operation names TensorCore buffers only; and every operation
determines the contents it writes (none allocates a buffer with arbitrary contents). The last two are stated per window —
one fact per operation, each by the operation's own lemma or by computation — and joined over the concatenation. -/

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., binary_bufs_sub ..⟩

set_option maxRecDepth 8192 in
theorem ops1_sub : (ops1 : List (HloOp τ sig (Elt F))).Forall fun op => op.bufs ⊆ tcRefs τ sig :=
  ⟨nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub ..⟩

set_option maxRecDepth 8192 in
theorem ops2_sub : (ops2 : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., nullary_bufs_sub ..,
    unary_bufs_sub .., binary_bufs_sub .., nullary_bufs_sub .., unary_bufs_sub .., binary_bufs_sub ..⟩

theorem ops_sub : (ops : List (HloOp τ sig (Elt F))).Forall fun op => op.bufs ⊆ tcRefs τ sig :=
  List.forall_append.mpr ⟨List.forall_append.mpr ⟨ops0_sub, ops1_sub⟩, ops2_sub⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

theorem ops_fresh : ∀ op ∈ (ops : List (HloOp τ sig (Elt F))), op.fresh = ∅ :=
  List.forall_iff_forall_mem.mp (List.forall_append.mpr ⟨List.forall_append.mpr ⟨ops0_fresh, ops1_fresh⟩, ops2_fresh⟩)

/-! ## The run -/

/-- At the compiled mesh, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefValue.lean ====
/- The value of the reference program's fold: after @main's 201 operations, from any contents `V`, the result buffer
   holds the graph-convolution network of `V` at the twelve arguments, and the arguments are unchanged.

   The operations are read in fifteen consecutive stages, one per step of the network (the graph and the degree; the
   per-node factor; the edge weights; per layer the matrix product with the messages, the aggregate with its bias and
   column statistics, the variance, the normalisation; the logistic function). Each stage's results are stated from any
   contents the stage starts from, so the reading stops at the buffers the stage reads; the stages are then composed
   in order, each buffer's contents carried from the stage that writes it to the stages that read it. -/
import proofs.«149244_j87471303950804_1_alg».proof.Proof.RefRun
import proofs.«149244_j87471303950804_1_alg».proof.Proof.GcnSpec
import Idealize.ShloMosaic.PureOps.Ideal

set_option maxRecDepth 16384

noncomputable section

namespace Cert.ReferenceIdeal.RefValue

open Idealize.ShloMosaic Idealize.ShloMosaic.TcCoe Idealize.SL.Sem
open Cert.ReferenceIdeal Cert.ReferenceIdeal.Gen Cert.GcnSpec
open Idealize.ShloMosaic.StableHlo (after after_cons after_nil after_of_writes_sub)

/-! ## Four steps of the network named, for stating a stage's result

The network's definition states the column means and a hidden layer's normalisation each as one term; the program
computes them across stage boundaries, so the pieces are named here (over any float instance, as the network is):
`meanV h = meanOfSum (sumV h)` and `bnreluV h mu var g be = finishV (scaledV h mu g) (invStdRow var) be`, both by
unfolding. -/

section Spec
variable {F : FTy → Type} [FloatOps F]

/-- The column means from the column sums: each divided by the 100000 nodes. -/
def meanOfSum (s : Arr F S128 .f32) : Arr F S128 .f32 :=
  Host.divf s (broadcastInDim S128 ![] bcast_S_S128 (constant S_ .f32 0x47C35000#32 : Arr F S_ .f32))

/-- The centred aggregate scaled: gamma · (h − mean), column by column. -/
def scaledV (h : Arr F S100000x128 .f32) (mu g : Arr F S128 .f32) : Arr F S100000x128 .f32 :=
  mulf (downV (rowV g)) (subf h (downV (rowV mu)))

/-- (var + 1e-5)^(-1/2), as a row. -/
def invStdRow (var : Arr F S128 .f32) : Arr F S1x128 .f32 :=
  rowV ((Host.rsqrt : Arr F S128 .f32 → Arr F S128 .f32) (addf var epsV))

/-- The normalisation's last steps: times the inverse deviation `r`, plus beta, clipped at 0. -/
def finishV (p : Arr F S100000x128 .f32) (r : Arr F S1x128 .f32) (be : Arr F S128 .f32) : Arr F S100000x128 .f32 :=
  maximumf (addf (mulf p (downV r)) (downV (rowV be)))
    (broadcastInDim S100000x128 ![] bcast_S_S100000x128 (constant S_ .f32 0x00000000#32 : Arr F S_ .f32))

end Spec

/-! ## The operations in stages

Each window of @main's operations is cut into consecutive stages, one per step of the network: a stage is short enough
for its results to be read off in one pass, and a call of `@_var` is a stage of its own. -/

section Stages
variable {F : FTy → Type} [FloatOps F]

/-- The two edge lists with the self loops, the degree's sign and its inverse square root: operations 1 … 18 of window 0. -/
abbrev A0 : List (HloOp τ sig (Elt F)) :=
  [ StableHlo.nullary main_v0 (iotaInDim S100000 32 0),
    StableHlo.unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v1 main_v2 rfl shapeCasts_S1x640000_S640000,
    StableHlo.binary main_v2 main_v0 main_v3 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    StableHlo.unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v4 main_v5 rfl shapeCasts_S1x640000_S640000,
    StableHlo.binary main_v5 main_v0 main_v6 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    StableHlo.nullary main_cst (constant S_ .f32 0x3F800000#32),
    StableHlo.unary main_cst main_v7 (broadcastInDim S740000 ![] bcast_S_S740000 : (⟨S_, .f32⟩ : BufTy).Contents (Elt F) → (⟨S740000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S740000x1 ![0] bcast_S740000_S740000x1_0 : (⟨S740000, .i32⟩ : BufTy).Contents (Elt F) → (⟨S740000x1, .i32⟩ : BufTy).Contents (Elt F)),
    StableHlo.ternary main_v8 main_v9 main_v7 main_v10 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32) ]

/-- The call of `@_where`: the per-node factor: operations 19 … 21 of window 0. -/
abbrev A1 : List (HloOp τ sig (Elt F)) :=
  [ StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v12 : StableHlo.TRef sig ⟨S100000, .i1⟩) (.of main_v13 : StableHlo.TRef sig ⟨S100000, .f32⟩) main_call0.v1 main_call0.v2 select ]

/-- The edge weights: operations 22 … 40 of window 0. -/
abbrev A2 : List (HloOp τ sig (Elt F)) :=
  [ StableHlo.nullary main_c (constantI S_ 32 0#32),
    StableHlo.unary main_c main_v15 (broadcastInDim S740000 ![] bcast_S_S740000 : (⟨S_, .i32⟩ : BufTy).Contents (Elt F) → (⟨S740000, .i32⟩ : BufTy).Contents (Elt F)),
    StableHlo.binary main_v3 main_v15 main_v16 (cmpi .slt : (⟨S740000, .i32⟩ : BufTy).Contents (Elt F) → (⟨S740000, .i32⟩ : BufTy).Contents (Elt F) → (⟨S740000, .i1⟩ : BufTy).Contents (Elt F)),
    StableHlo.nullary main_c_3 (constantI S_ 32 100000#32),
    StableHlo.unary main_c_3 main_v17 (broadcastInDim S740000 ![] bcast_S_S740000 : (⟨S_, .i32⟩ : BufTy).Contents (Elt F) → (⟨S740000, .i32⟩ : BufTy).Contents (Elt F)),
    StableHlo.binary main_v3 main_v17 main_v18 (addi : (⟨S740000, .i32⟩ : BufTy).Contents (Elt F) → (⟨S740000, .i32⟩ : BufTy).Contents (Elt F) → (⟨S740000, .i32⟩ : BufTy).Contents (Elt F)),
    StableHlo.ternary main_v16 main_v18 main_v3 main_v19 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v19 main_v20 (broadcastInDim S740000x1 ![0] bcast_S740000_S740000x1_0 : (⟨S740000, .i32⟩ : BufTy).Contents (Elt F) → (⟨S740000x1, .i32⟩ : BufTy).Contents (Elt F)),
    StableHlo.binary main_v14 main_v20 main_v21 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.nullary main_c_4 (constantI S_ 32 0#32),
    StableHlo.unary main_c_4 main_v22 (broadcastInDim S740000 ![] bcast_S_S740000 : (⟨S_, .i32⟩ : BufTy).Contents (Elt F) → (⟨S740000, .i32⟩ : BufTy).Contents (Elt F)),
    StableHlo.binary main_v6 main_v22 main_v23 (cmpi .slt : (⟨S740000, .i32⟩ : BufTy).Contents (Elt F) → (⟨S740000, .i32⟩ : BufTy).Contents (Elt F) → (⟨S740000, .i1⟩ : BufTy).Contents (Elt F)),
    StableHlo.nullary main_c_5 (constantI S_ 32 100000#32),
    StableHlo.unary main_c_5 main_v24 (broadcastInDim S740000 ![] bcast_S_S740000 : (⟨S_, .i32⟩ : BufTy).Contents (Elt F) → (⟨S740000, .i32⟩ : BufTy).Contents (Elt F)),
    StableHlo.binary main_v6 main_v24 main_v25 (addi : (⟨S740000, .i32⟩ : BufTy).Contents (Elt F) → (⟨S740000, .i32⟩ : BufTy).Contents (Elt F) → (⟨S740000, .i32⟩ : BufTy).Contents (Elt F)),
    StableHlo.ternary main_v23 main_v25 main_v6 main_v26 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v26 main_v27 (broadcastInDim S740000x1 ![0] bcast_S740000_S740000x1_0 : (⟨S740000, .i32⟩ : BufTy).Contents (Elt F) → (⟨S740000x1, .i32⟩ : BufTy).Contents (Elt F)),
    StableHlo.binary main_v14 main_v27 main_v28 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.binary main_v21 main_v28 main_v29 (mulf : (⟨S740000, .f32⟩ : BufTy).Contents (Elt F) → (⟨S740000, .f32⟩ : BufTy).Contents (Elt F) → (⟨S740000, .f32⟩ : BufTy).Contents (Elt F)) ]

/-- The first matrix product and the first layer's messages: operations 41 … 53 of window 0. -/
abbrev A3 : List (HloOp τ sig (Elt F)) :=
  [ StableHlo.binary main_arg0 main_arg2 main_v30 ((fun l r => Host.dotGeneral dot_S100000x6_S6x128_S100000x128_1_0_0_1_n_n none l r) : (⟨S100000x6, .f32⟩ : BufTy).Contents (Elt F) → (⟨S6x128, .f32⟩ : BufTy).Contents (Elt F) → (⟨S100000x128, .f32⟩ : BufTy).Contents (Elt F)),
    StableHlo.nullary main_c_6 (constantI S_ 32 0#32),
    StableHlo.unary main_c_6 main_v31 (broadcastInDim S740000 ![] bcast_S_S740000 : (⟨S_, .i32⟩ : BufTy).Contents (Elt F) → (⟨S740000, .i32⟩ : BufTy).Contents (Elt F)),
    StableHlo.binary main_v3 main_v31 main_v32 (cmpi .slt : (⟨S740000, .i32⟩ : BufTy).Contents (Elt F) → (⟨S740000, .i32⟩ : BufTy).Contents (Elt F) → (⟨S740000, .i1⟩ : BufTy).Contents (Elt F)),
    StableHlo.nullary main_c_7 (constantI S_ 32 100000#32),
    StableHlo.unary main_c_7 main_v33 (broadcastInDim S740000 ![] bcast_S_S740000 : (⟨S_, .i32⟩ : BufTy).Contents (Elt F) → (⟨S740000, .i32⟩ : BufTy).Contents (Elt F)),
    StableHlo.binary main_v3 main_v33 main_v34 (addi : (⟨S740000, .i32⟩ : BufTy).Contents (Elt F) → (⟨S740000, .i32⟩ : BufTy).Contents (Elt F) → (⟨S740000, .i32⟩ : BufTy).Contents (Elt F)),
    StableHlo.ternary main_v32 main_v34 main_v3 main_v35 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v35 main_v36 (broadcastInDim S740000x1 ![0] bcast_S740000_S740000x1_0 : (⟨S740000, .i32⟩ : BufTy).Contents (Elt F) → (⟨S740000x1, .i32⟩ : BufTy).Contents (Elt F)),
    StableHlo.binary main_v30 main_v36 main_v37 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    StableHlo.unary main_v29 main_v38 (broadcastInDim S740000x1 ![0] bcast_S740000_S740000x1_0 : (⟨S740000, .f32⟩ : BufTy).Contents (Elt F) → (⟨S740000x1, .f32⟩ : BufTy).Contents (Elt F)),
    StableHlo.unary main_v38 main_v39 (broadcastInDim S740000x128 ![0, 1] bcast_S740000x1_S740000x128_0_1 : (⟨S740000x1, .f32⟩ : BufTy).Contents (Elt F) → (⟨S740000x128, .f32⟩ : BufTy).Contents (Elt F)),
    StableHlo.binary main_v37 main_v39 main_v40 (mulf : (⟨S740000x128, .f32⟩ : BufTy).Contents (Elt F) → (⟨S740000x128, .f32⟩ : BufTy).Contents (Elt F) → (⟨S740000x128, .f32⟩ : BufTy).Contents (Elt F)) ]

/-- The first aggregate, its bias and its column sums: operations 54 … 62 of window 0. -/
abbrev A4 : List (HloOp τ sig (Elt F)) :=
  [ StableHlo.nullary main_cst_8 (constant S_ .f32 0x00000000#32),
    StableHlo.unary main_cst_8 main_v41 (broadcastInDim S100000x128 ![] bcast_S_S100000x128 : (⟨S_, .f32⟩ : BufTy).Contents (Elt F) → (⟨S100000x128, .f32⟩ : BufTy).Contents (Elt F)),
    StableHlo.unary main_v6 main_v42 (broadcastInDim S740000x1 ![0] bcast_S740000_S740000x1_0 : (⟨S740000, .i32⟩ : BufTy).Contents (Elt F) → (⟨S740000x1, .i32⟩ : BufTy).Contents (Elt F)),
    StableHlo.ternary main_v41 main_v42 main_v40 main_v43 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    StableHlo.unary main_arg3 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v45 main_v46 (addf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x00000000#32),
    StableHlo.binary main_v46 main_cst_9 main_v47 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) ]

/-- The first column means, and the variance's correction 0: operations 1 … 4 of window 1. -/
abbrev B0 : List (HloOp τ sig (Elt F)) :=
  [ StableHlo.nullary main_cst_10 (constant S_ .f32 0x47C35000#32),
    StableHlo.unary main_cst_10 main_v48 (broadcastInDim S128 ![] bcast_S_S128 : (⟨S_, .f32⟩ : BufTy).Contents (Elt F) → (⟨S128, .f32⟩ : BufTy).Contents (Elt F)),
    StableHlo.binary main_v47 main_v48 main_v49 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32) ]

/-- The first call of `@_var`: the column variances: operations 5 … 26 of window 1. -/
abbrev B1 : List (HloOp τ sig (Elt F)) :=
  [ StableHlo.TRef.nullary main_call1.cst (constant S_ .f32 0x00000000#32),
    StableHlo.TRef.binary (.of main_v46 : StableHlo.TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v46 : StableHlo.TRef sig ⟨S100000x128, .f32⟩) main_call1.v4 main_call1.v5 subf,
    StableHlo.TRef.binary main_call1.v5 main_call1.v5 main_call1.v6 mulf,
    StableHlo.TRef.unary (.of main_c_11 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]

/-- The first normalisation, scale, shift and `@relu`: operations 27 … 45 of window 1. -/
abbrev B2 : List (HloOp τ sig (Elt F)) :=
  [ StableHlo.unary main_v49 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S100000x128 ![0, 1] bcast_S1x128_S100000x128_0_1 : (⟨S1x128, .f32⟩ : BufTy).Contents (Elt F) → (⟨S100000x128, .f32⟩ : BufTy).Contents (Elt F)),
    StableHlo.binary main_v46 main_v52 main_v53 (subf : (⟨S100000x128, .f32⟩ : BufTy).Contents (Elt F) → (⟨S100000x128, .f32⟩ : BufTy).Contents (Elt F) → (⟨S100000x128, .f32⟩ : BufTy).Contents (Elt F)),
    StableHlo.unary main_arg8 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v53 main_v56 (mulf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x3727C5AC#32),
    StableHlo.unary main_cst_12 main_v57 (broadcastInDim S128 ![] bcast_S_S128 : (⟨S_, .f32⟩ : BufTy).Contents (Elt F) → (⟨S128, .f32⟩ : BufTy).Contents (Elt F)),
    StableHlo.binary main_v50 main_v57 main_v58 (addf : (⟨S128, .f32⟩ : BufTy).Contents (Elt F) → (⟨S128, .f32⟩ : BufTy).Contents (Elt F) → (⟨S128, .f32⟩ : BufTy).Contents (Elt F)),
    StableHlo.unary main_v58 main_v59 (Host.rsqrt : (⟨S128, .f32⟩ : BufTy).Contents (Elt F) → (⟨S128, .f32⟩ : BufTy).Contents (Elt F)),
    StableHlo.unary main_v59 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S100000x128 ![0, 1] bcast_S1x128_S100000x128_0_1 : (⟨S1x128, .f32⟩ : BufTy).Contents (Elt F) → (⟨S100000x128, .f32⟩ : BufTy).Contents (Elt F)),
    StableHlo.binary main_v56 main_v61 main_v62 (mulf : (⟨S100000x128, .f32⟩ : BufTy).Contents (Elt F) → (⟨S100000x128, .f32⟩ : BufTy).Contents (Elt F) → (⟨S100000x128, .f32⟩ : BufTy).Contents (Elt F)),
    StableHlo.unary main_arg9 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S100000x128 ![0, 1] bcast_S1x128_S100000x128_0_1 : (⟨S1x128, .f32⟩ : BufTy).Contents (Elt F) → (⟨S100000x128, .f32⟩ : BufTy).Contents (Elt F)),
    StableHlo.binary main_v62 main_v64 main_v65 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v65 : StableHlo.TRef sig ⟨S100000x128, .f32⟩) main_call2.v0 main_call2.v1 maximumf ]

/-- The second matrix product and the second layer's messages: operations 46 … 58 of window 1. -/
abbrev B3 : List (HloOp τ sig (Elt F)) :=
  [ StableHlo.binary main_v66 main_arg4 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_13 (constantI S_ 32 0#32),
    StableHlo.unary main_c_13 main_v68 (broadcastInDim S740000 ![] bcast_S_S740000 : (⟨S_, .i32⟩ : BufTy).Contents (Elt F) → (⟨S740000, .i32⟩ : BufTy).Contents (Elt F)),
    StableHlo.binary main_v3 main_v68 main_v69 (cmpi .slt : (⟨S740000, .i32⟩ : BufTy).Contents (Elt F) → (⟨S740000, .i32⟩ : BufTy).Contents (Elt F) → (⟨S740000, .i1⟩ : BufTy).Contents (Elt F)),
    StableHlo.nullary main_c_14 (constantI S_ 32 100000#32),
    StableHlo.unary main_c_14 main_v70 (broadcastInDim S740000 ![] bcast_S_S740000 : (⟨S_, .i32⟩ : BufTy).Contents (Elt F) → (⟨S740000, .i32⟩ : BufTy).Contents (Elt F)),
    StableHlo.binary main_v3 main_v70 main_v71 (addi : (⟨S740000, .i32⟩ : BufTy).Contents (Elt F) → (⟨S740000, .i32⟩ : BufTy).Contents (Elt F) → (⟨S740000, .i32⟩ : BufTy).Contents (Elt F)),
    StableHlo.ternary main_v69 main_v71 main_v3 main_v72 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v72 main_v73 (broadcastInDim S740000x1 ![0] bcast_S740000_S740000x1_0 : (⟨S740000, .i32⟩ : BufTy).Contents (Elt F) → (⟨S740000x1, .i32⟩ : BufTy).Contents (Elt F)),
    StableHlo.binary main_v67 main_v73 main_v74 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    StableHlo.unary main_v29 main_v75 (broadcastInDim S740000x1 ![0] bcast_S740000_S740000x1_0 : (⟨S740000, .f32⟩ : BufTy).Contents (Elt F) → (⟨S740000x1, .f32⟩ : BufTy).Contents (Elt F)),
    StableHlo.unary main_v75 main_v76 (broadcastInDim S740000x128 ![0, 1] bcast_S740000x1_S740000x128_0_1 : (⟨S740000x1, .f32⟩ : BufTy).Contents (Elt F) → (⟨S740000x128, .f32⟩ : BufTy).Contents (Elt F)),
    StableHlo.binary main_v74 main_v76 main_v77 (mulf : (⟨S740000x128, .f32⟩ : BufTy).Contents (Elt F) → (⟨S740000x128, .f32⟩ : BufTy).Contents (Elt F) → (⟨S740000x128, .f32⟩ : BufTy).Contents (Elt F)) ]

/-- The second aggregate, its bias, its column means, and the variance's correction 0: operations 59 … 71 of window 1. -/
abbrev B4 : List (HloOp τ sig (Elt F)) :=
  [ StableHlo.nullary main_cst_15 (constant S_ .f32 0x00000000#32),
    StableHlo.unary main_cst_15 main_v78 (broadcastInDim S100000x128 ![] bcast_S_S100000x128 : (⟨S_, .f32⟩ : BufTy).Contents (Elt F) → (⟨S100000x128, .f32⟩ : BufTy).Contents (Elt F)),
    StableHlo.unary main_v6 main_v79 (broadcastInDim S740000x1 ![0] bcast_S740000_S740000x1_0 : (⟨S740000, .i32⟩ : BufTy).Contents (Elt F) → (⟨S740000x1, .i32⟩ : BufTy).Contents (Elt F)),
    StableHlo.ternary main_v78 main_v79 main_v77 main_v80 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    StableHlo.unary main_arg5 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v82 main_v83 (addf : (⟨S100000x128, .f32⟩ : BufTy).Contents (Elt F) → (⟨S100000x128, .f32⟩ : BufTy).Contents (Elt F) → (⟨S100000x128, .f32⟩ : BufTy).Contents (Elt F)),
    StableHlo.nullary main_cst_16 (constant S_ .f32 0x00000000#32),
    StableHlo.binary main_v83 main_cst_16 main_v84 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_17 (constant S_ .f32 0x47C35000#32),
    StableHlo.unary main_cst_17 main_v85 (broadcastInDim S128 ![] bcast_S_S128 : (⟨S_, .f32⟩ : BufTy).Contents (Elt F) → (⟨S128, .f32⟩ : BufTy).Contents (Elt F)),
    StableHlo.binary main_v84 main_v85 main_v86 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32) ]

/-- The second call of `@_var`: the column variances: operations 72 … 93 of window 1. -/
abbrev B5 : List (HloOp τ sig (Elt F)) :=
  [ StableHlo.TRef.nullary main_call3.cst (constant S_ .f32 0x00000000#32),
    StableHlo.TRef.binary (.of main_v83 : StableHlo.TRef sig ⟨S100000x128, .f32⟩) main_call3.cst main_call3.v0 (fun x v => Host.reduceAdd x v reducesTo_S100000x128_S128_d0 h_S_),
    StableHlo.TRef.unary main_call3.v0 main_call3.v1 (broadcastInDim S1x128 ![1] bcast_S128_S1x128_1),
    StableHlo.TRef.nullary main_call3.cst_0 (constant S_ .f32 0x47C35000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S100000x128 ![0, 1] bcast_S1x128_S100000x128_0_1),
    StableHlo.TRef.binary (.of main_v83 : StableHlo.TRef sig ⟨S100000x128, .f32⟩) main_call3.v4 main_call3.v5 subf,
    StableHlo.TRef.binary main_call3.v5 main_call3.v5 main_call3.v6 mulf,
    StableHlo.TRef.unary (.of main_c_18 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b) ]

/-- The second normalisation up to its two factors: operations 94 … 104 of window 1. -/
abbrev B6 : List (HloOp τ sig (Elt F)) :=
  [ StableHlo.unary main_v86 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S100000x128 ![0, 1] bcast_S1x128_S100000x128_0_1 : (⟨S1x128, .f32⟩ : BufTy).Contents (Elt F) → (⟨S100000x128, .f32⟩ : BufTy).Contents (Elt F)),
    StableHlo.binary main_v83 main_v89 main_v90 (subf : (⟨S100000x128, .f32⟩ : BufTy).Contents (Elt F) → (⟨S100000x128, .f32⟩ : BufTy).Contents (Elt F) → (⟨S100000x128, .f32⟩ : BufTy).Contents (Elt F)),
    StableHlo.unary main_arg10 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S100000x128 ![0, 1] bcast_S1x128_S100000x128_0_1 : (⟨S1x128, .f32⟩ : BufTy).Contents (Elt F) → (⟨S100000x128, .f32⟩ : BufTy).Contents (Elt F)),
    StableHlo.binary main_v92 main_v90 main_v93 (mulf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x3727C5AC#32),
    StableHlo.unary main_cst_19 main_v94 (broadcastInDim S128 ![] bcast_S_S128 : (⟨S_, .f32⟩ : BufTy).Contents (Elt F) → (⟨S128, .f32⟩ : BufTy).Contents (Elt F)),
    StableHlo.binary main_v87 main_v94 main_v95 (addf : (⟨S128, .f32⟩ : BufTy).Contents (Elt F) → (⟨S128, .f32⟩ : BufTy).Contents (Elt F) → (⟨S128, .f32⟩ : BufTy).Contents (Elt F)),
    StableHlo.unary main_v95 main_v96 (Host.rsqrt : (⟨S128, .f32⟩ : BufTy).Contents (Elt F) → (⟨S128, .f32⟩ : BufTy).Contents (Elt F)),
    StableHlo.unary main_v96 main_v97 (broadcastInDim S1x128 ![1] bcast_S128_S1x128_1 : (⟨S128, .f32⟩ : BufTy).Contents (Elt F) → (⟨S1x128, .f32⟩ : BufTy).Contents (Elt F)) ]

/-- The second scale, shift and `@relu`: operations 1 … 8 of window 2. -/
abbrev C0 : List (HloOp τ sig (Elt F)) :=
  [ StableHlo.unary main_v97 main_v98 (broadcastInDim S100000x128 ![0, 1] bcast_S1x128_S100000x128_0_1 : (⟨S1x128, .f32⟩ : BufTy).Contents (Elt F) → (⟨S100000x128, .f32⟩ : BufTy).Contents (Elt F)),
    StableHlo.binary main_v93 main_v98 main_v99 (mulf : (⟨S100000x128, .f32⟩ : BufTy).Contents (Elt F) → (⟨S100000x128, .f32⟩ : BufTy).Contents (Elt F) → (⟨S100000x128, .f32⟩ : BufTy).Contents (Elt F)),
    StableHlo.unary main_arg11 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S100000x128 ![0, 1] bcast_S1x128_S100000x128_0_1 : (⟨S1x128, .f32⟩ : BufTy).Contents (Elt F) → (⟨S100000x128, .f32⟩ : BufTy).Contents (Elt F)),
    StableHlo.binary main_v99 main_v101 main_v102 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v102 : StableHlo.TRef sig ⟨S100000x128, .f32⟩) main_call4.v0 main_call4.v1 maximumf ]

/-- The third matrix product and the last layer's messages: operations 9 … 20 of window 2. -/
abbrev C1 : List (HloOp τ sig (Elt F)) :=
  [ StableHlo.binary main_v103 main_arg6 main_v104 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    StableHlo.nullary main_c_20 (constantI S_ 32 0#32),
    StableHlo.unary main_c_20 main_v105 (broadcastInDim S740000 ![] bcast_S_S740000 : (⟨S_, .i32⟩ : BufTy).Contents (Elt F) → (⟨S740000, .i32⟩ : BufTy).Contents (Elt F)),
    StableHlo.binary main_v3 main_v105 main_v106 (cmpi .slt : (⟨S740000, .i32⟩ : BufTy).Contents (Elt F) → (⟨S740000, .i32⟩ : BufTy).Contents (Elt F) → (⟨S740000, .i1⟩ : BufTy).Contents (Elt F)),
    StableHlo.nullary main_c_21 (constantI S_ 32 100000#32),
    StableHlo.unary main_c_21 main_v107 (broadcastInDim S740000 ![] bcast_S_S740000 : (⟨S_, .i32⟩ : BufTy).Contents (Elt F) → (⟨S740000, .i32⟩ : BufTy).Contents (Elt F)),
    StableHlo.binary main_v3 main_v107 main_v108 (addi : (⟨S740000, .i32⟩ : BufTy).Contents (Elt F) → (⟨S740000, .i32⟩ : BufTy).Contents (Elt F) → (⟨S740000, .i32⟩ : BufTy).Contents (Elt F)),
    StableHlo.ternary main_v106 main_v108 main_v3 main_v109 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v109 main_v110 (broadcastInDim S740000x1 ![0] bcast_S740000_S740000x1_0 : (⟨S740000, .i32⟩ : BufTy).Contents (Elt F) → (⟨S740000x1, .i32⟩ : BufTy).Contents (Elt F)),
    StableHlo.binary main_v104 main_v110 main_v111 ((fun x i => Host.gather gather_S100000x1_S740000x1_S740000x1_1_0_n_n_0_1_11 x i) : (⟨S100000x1, .f32⟩ : BufTy).Contents (Elt F) → (⟨S740000x1, .i32⟩ : BufTy).Contents (Elt F) → (⟨S740000x1, .f32⟩ : BufTy).Contents (Elt F)),
    StableHlo.unary main_v29 main_v112 (broadcastInDim S740000x1 ![0] bcast_S740000_S740000x1_0 : (⟨S740000, .f32⟩ : BufTy).Contents (Elt F) → (⟨S740000x1, .f32⟩ : BufTy).Contents (Elt F)),
    StableHlo.binary main_v111 main_v112 main_v113 (mulf : (⟨S740000x1, .f32⟩ : BufTy).Contents (Elt F) → (⟨S740000x1, .f32⟩ : BufTy).Contents (Elt F) → (⟨S740000x1, .f32⟩ : BufTy).Contents (Elt F)) ]

/-- The last aggregate, its bias and the logistic function: operations 21 … 35 of window 2. -/
abbrev C2 : List (HloOp τ sig (Elt F)) :=
  [ StableHlo.nullary main_cst_22 (constant S_ .f32 0x00000000#32),
    StableHlo.unary main_cst_22 main_v114 (broadcastInDim S100000x1 ![] bcast_S_S100000x1 : (⟨S_, .f32⟩ : BufTy).Contents (Elt F) → (⟨S100000x1, .f32⟩ : BufTy).Contents (Elt F)),
    StableHlo.unary main_v6 main_v115 (broadcastInDim S740000x1 ![0] bcast_S740000_S740000x1_0 : (⟨S740000, .i32⟩ : BufTy).Contents (Elt F) → (⟨S740000x1, .i32⟩ : BufTy).Contents (Elt F)),
    StableHlo.ternary main_v114 main_v115 main_v113 main_v116 ((fun x i u => Host.scatterAdd scatter_S100000x1_S740000x1_S740000x1_1_0_0_1 x i u) : (⟨S100000x1, .f32⟩ : BufTy).Contents (Elt F) → (⟨S740000x1, .i32⟩ : BufTy).Contents (Elt F) → (⟨S740000x1, .f32⟩ : BufTy).Contents (Elt F) → (⟨S100000x1, .f32⟩ : BufTy).Contents (Elt F)),
    StableHlo.unary main_arg7 main_v117 (broadcastInDim S1x1 ![1] bcast_S1_S1x1_1 : (⟨S1, .f32⟩ : BufTy).Contents (Elt F) → (⟨S1x1, .f32⟩ : BufTy).Contents (Elt F)),
    StableHlo.unary main_v117 main_v118 (broadcastInDim S100000x1 ![0, 1] bcast_S1x1_S100000x1_0_1 : (⟨S1x1, .f32⟩ : BufTy).Contents (Elt F) → (⟨S100000x1, .f32⟩ : BufTy).Contents (Elt F)),
    StableHlo.binary main_v116 main_v118 main_v119 (addf : (⟨S100000x1, .f32⟩ : BufTy).Contents (Elt F) → (⟨S100000x1, .f32⟩ : BufTy).Contents (Elt F) → (⟨S100000x1, .f32⟩ : BufTy).Contents (Elt F)),
    StableHlo.unary main_v119 main_v120 (Host.negf : (⟨S100000x1, .f32⟩ : BufTy).Contents (Elt F) → (⟨S100000x1, .f32⟩ : BufTy).Contents (Elt F)),
    StableHlo.unary main_v120 main_v121 (Host.exp : (⟨S100000x1, .f32⟩ : BufTy).Contents (Elt F) → (⟨S100000x1, .f32⟩ : BufTy).Contents (Elt F)),
    StableHlo.nullary main_cst_23 (constant S_ .f32 0x3F800000#32),
    StableHlo.unary main_cst_23 main_v122 (broadcastInDim S100000x1 ![] bcast_S_S100000x1 : (⟨S_, .f32⟩ : BufTy).Contents (Elt F) → (⟨S100000x1, .f32⟩ : BufTy).Contents (Elt F)),
    StableHlo.binary main_v122 main_v121 main_v123 (addf : (⟨S100000x1, .f32⟩ : BufTy).Contents (Elt F) → (⟨S100000x1, .f32⟩ : BufTy).Contents (Elt F) → (⟨S100000x1, .f32⟩ : BufTy).Contents (Elt F)),
    StableHlo.nullary main_cst_24 (constant S_ .f32 0x3F800000#32),
    StableHlo.unary main_cst_24 main_v124 (broadcastInDim S100000x1 ![] bcast_S_S100000x1 : (⟨S_, .f32⟩ : BufTy).Contents (Elt F) → (⟨S100000x1, .f32⟩ : BufTy).Contents (Elt F)),
    StableHlo.binary main_v124 main_v123 main_v125 (Host.divf : (⟨S100000x1, .f32⟩ : BufTy).Contents (Elt F) → (⟨S100000x1, .f32⟩ : BufTy).Contents (Elt F) → (⟨S100000x1, .f32⟩ : BufTy).Contents (Elt F)) ]

theorem ops0_eq : (RefRun.ops0 : List (HloOp τ sig (Elt F))) = A0 ++ A1 ++ A2 ++ A3 ++ A4 := rfl

theorem ops1_eq : (RefRun.ops1 : List (HloOp τ sig (Elt F))) = B0 ++ B1 ++ B2 ++ B3 ++ B4 ++ B5 ++ B6 := rfl

theorem ops2_eq : (RefRun.ops2 : List (HloOp τ sig (Elt F))) = C0 ++ C1 ++ C2 := rfl

end Stages

/-! ## Each stage's results, from any contents `W` it starts from

Reading a buffer after a stage unfolds the fold one operation at a time: the operation that writes the buffer gives its
function of the operands' contents, every other operation leaves it alone. What is left is an equation between
whole-array terms over `W` at the buffers the stage reads, which holds by unfolding the network's definitions. -/

variable (W : Valuation τ sig (Elt Ideal))

open Idealize.ShloMosaic.StableHlo in
/-- Read a buffer after a stage back to the contents `W` the stage started from. -/
macro "hread" : tactic =>
  `(tactic| (simp (disch := decide) only [A0, A1, A2, A3, A4, B0, B1, B2, B3, B4, B5, B6, C0, C1, C2,
      main_call0, main_call1_call0, main_call1, main_call2, main_call3_call0, main_call3, main_call4,
      after_cons, after_nil,
      nullary_result', unary_result', binary_result', ternary_result', quaternary_result', reshape_result',
      nullary_result_ne', unary_result_ne', binary_result_ne', ternary_result_ne', quaternary_result_ne', reshape_result_ne'] <;> rfl))

theorem A0_v3 : after A0 W (Proc.devRef .tc main_v3)
    = srcV (W (Proc.devRef .tc main_arg1) : Arr Ideal S2x640000 .i32) := by hread

theorem A0_v6 : after A0 W (Proc.devRef .tc main_v6)
    = dstV (W (Proc.devRef .tc main_arg1) : Arr Ideal S2x640000 .i32) := by hread

theorem A0_v12 : after A0 W (Proc.devRef .tc main_v12)
    = degPosV (W (Proc.devRef .tc main_arg1) : Arr Ideal S2x640000 .i32) := by hread

theorem A0_v13 : after A0 W (Proc.devRef .tc main_v13)
    = degRsqrtV (W (Proc.devRef .tc main_arg1) : Arr Ideal S2x640000 .i32) := by hread

theorem A0_cst_2 : after A0 W (Proc.devRef .tc main_cst_2)
    = (zeroS : Arr Ideal S_ .f32) := by hread

theorem A1_v14 : after A1 W (Proc.devRef .tc main_v14)
    = whereV (W (Proc.devRef .tc main_v12) : Arr Ideal S100000 .i1) (W (Proc.devRef .tc main_v13) : Arr Ideal S100000 .f32) (W (Proc.devRef .tc main_cst_2) : Arr Ideal S_ .f32) := by hread

theorem A2_v29 : after A2 W (Proc.devRef .tc main_v29)
    = normOf (W (Proc.devRef .tc main_v14) : Arr Ideal S100000 .f32) (W (Proc.devRef .tc main_v3) : Arr Ideal S740000 .i32) (W (Proc.devRef .tc main_v6) : Arr Ideal S740000 .i32) := by hread

theorem A3_v40 : after A3 W (Proc.devRef .tc main_v40)
    = mulf (gath128 (lin1V (W (Proc.devRef .tc main_arg0) : Arr Ideal S100000x6 .f32) (W (Proc.devRef .tc main_arg2) : Arr Ideal S6x128 .f32)) (W (Proc.devRef .tc main_v3) : Arr Ideal S740000 .i32)) (broadcastInDim S740000x128 ![0, 1] bcast_S740000x1_S740000x128_0_1 (colF (W (Proc.devRef .tc main_v29) : Arr Ideal S740000 .f32))) := by hread

theorem A4_v46 : after A4 W (Proc.devRef .tc main_v46)
    = hbV (scat128 (W (Proc.devRef .tc main_v40) : Arr Ideal S740000x128 .f32) (W (Proc.devRef .tc main_v6) : Arr Ideal S740000 .i32)) (W (Proc.devRef .tc main_arg3) : Arr Ideal S128 .f32) := by hread

theorem A4_v47 : after A4 W (Proc.devRef .tc main_v47)
    = sumV (hbV (scat128 (W (Proc.devRef .tc main_v40) : Arr Ideal S740000x128 .f32) (W (Proc.devRef .tc main_v6) : Arr Ideal S740000 .i32)) (W (Proc.devRef .tc main_arg3) : Arr Ideal S128 .f32)) := by hread

theorem B0_v49 : after B0 W (Proc.devRef .tc main_v49)
    = meanOfSum (W (Proc.devRef .tc main_v47) : Arr Ideal S128 .f32) := by hread

theorem B0_c_11 : after B0 W (Proc.devRef .tc main_c_11)
    = (zeroI : Arr Ideal S_ .i32) := by hread

theorem B1_v50 : after B1 W (Proc.devRef .tc main_v50)
    = varOf (W (Proc.devRef .tc main_v46) : Arr Ideal S100000x128 .f32) (W (Proc.devRef .tc main_c_11) : Arr Ideal S_ .i32) := by hread

theorem B2_v66 : after B2 W (Proc.devRef .tc main_v66)
    = bnreluV (W (Proc.devRef .tc main_v46) : Arr Ideal S100000x128 .f32) (W (Proc.devRef .tc main_v49) : Arr Ideal S128 .f32) (W (Proc.devRef .tc main_v50) : Arr Ideal S128 .f32) (W (Proc.devRef .tc main_arg8) : Arr Ideal S128 .f32) (W (Proc.devRef .tc main_arg9) : Arr Ideal S128 .f32) := by hread

theorem B3_v77 : after B3 W (Proc.devRef .tc main_v77)
    = mulf (gath128 (lin2V (W (Proc.devRef .tc main_v66) : Arr Ideal S100000x128 .f32) (W (Proc.devRef .tc main_arg4) : Arr Ideal S128x128 .f32)) (W (Proc.devRef .tc main_v3) : Arr Ideal S740000 .i32)) (broadcastInDim S740000x128 ![0, 1] bcast_S740000x1_S740000x128_0_1 (colF (W (Proc.devRef .tc main_v29) : Arr Ideal S740000 .f32))) := by hread

theorem B4_v83 : after B4 W (Proc.devRef .tc main_v83)
    = hbV (scat128 (W (Proc.devRef .tc main_v77) : Arr Ideal S740000x128 .f32) (W (Proc.devRef .tc main_v6) : Arr Ideal S740000 .i32)) (W (Proc.devRef .tc main_arg5) : Arr Ideal S128 .f32) := by hread

theorem B4_v86 : after B4 W (Proc.devRef .tc main_v86)
    = meanV (hbV (scat128 (W (Proc.devRef .tc main_v77) : Arr Ideal S740000x128 .f32) (W (Proc.devRef .tc main_v6) : Arr Ideal S740000 .i32)) (W (Proc.devRef .tc main_arg5) : Arr Ideal S128 .f32)) := by hread

theorem B4_c_18 : after B4 W (Proc.devRef .tc main_c_18)
    = (zeroI : Arr Ideal S_ .i32) := by hread

theorem B5_v87 : after B5 W (Proc.devRef .tc main_v87)
    = varOf (W (Proc.devRef .tc main_v83) : Arr Ideal S100000x128 .f32) (W (Proc.devRef .tc main_c_18) : Arr Ideal S_ .i32) := by hread

theorem B6_v93 : after B6 W (Proc.devRef .tc main_v93)
    = scaledV (W (Proc.devRef .tc main_v83) : Arr Ideal S100000x128 .f32) (W (Proc.devRef .tc main_v86) : Arr Ideal S128 .f32) (W (Proc.devRef .tc main_arg10) : Arr Ideal S128 .f32) := by hread

theorem B6_v97 : after B6 W (Proc.devRef .tc main_v97)
    = invStdRow (W (Proc.devRef .tc main_v87) : Arr Ideal S128 .f32) := by hread

theorem C0_v103 : after C0 W (Proc.devRef .tc main_v103)
    = finishV (W (Proc.devRef .tc main_v93) : Arr Ideal S100000x128 .f32) (W (Proc.devRef .tc main_v97) : Arr Ideal S1x128 .f32) (W (Proc.devRef .tc main_arg11) : Arr Ideal S128 .f32) := by hread

theorem C1_v113 : after C1 W (Proc.devRef .tc main_v113)
    = mulf (gath1 (lin3V (W (Proc.devRef .tc main_v103) : Arr Ideal S100000x128 .f32) (W (Proc.devRef .tc main_arg6) : Arr Ideal S128x1 .f32)) (W (Proc.devRef .tc main_v3) : Arr Ideal S740000 .i32)) (colF (W (Proc.devRef .tc main_v29) : Arr Ideal S740000 .f32)) := by hread

theorem C2_v125 : after C2 W (Proc.devRef .tc main_v125)
    = sigmoidV (scat1 (W (Proc.devRef .tc main_v113) : Arr Ideal S740000x1 .f32) (W (Proc.devRef .tc main_v6) : Arr Ideal S740000 .i32)) (W (Proc.devRef .tc main_arg7) : Arr Ideal S1 .f32) := by hread

/-! ## What a stage leaves alone

The buffers a stage's operations write, listed; a buffer not in the list keeps its contents through the stage. -/

section Keep
variable {F : FTy → Type} [FloatOps F]
open Idealize.ShloMosaic.StableHlo

/-- The buffers that stage `A0` writes. -/
abbrev A0_W : List (Ref sig .tc) := [main_v0, main_v1, main_v2, main_v3, main_v4, main_v5, main_v6, main_cst, main_v7, main_cst_0, main_v8, main_v9, main_v10, main_cst_1, main_v11, main_v12, main_v13, main_cst_2]
theorem A0_writes : (A0 : List (HloOp τ sig (Elt F))).Forall fun op =>
    op.writes ⊆ (A0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers that stage `A1` writes. -/
abbrev A1_W : List (Ref sig .tc) := [main_call0_v0, main_call0_v1, main_v14]
theorem A1_writes : (A1 : List (HloOp τ sig (Elt F))).Forall fun op =>
    op.writes ⊆ (A1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers that stage `A2` writes. -/
abbrev A2_W : List (Ref sig .tc) := [main_c, main_v15, main_v16, main_c_3, main_v17, main_v18, main_v19, main_v20, main_v21, main_c_4, main_v22, main_v23, main_c_5, main_v24, main_v25, main_v26, main_v27, main_v28, main_v29]
theorem A2_writes : (A2 : List (HloOp τ sig (Elt F))).Forall fun op =>
    op.writes ⊆ (A2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers that stage `A3` writes. -/
abbrev A3_W : List (Ref sig .tc) := [main_v30, main_c_6, main_v31, main_v32, main_c_7, main_v33, main_v34, main_v35, main_v36, main_v37, main_v38, main_v39, main_v40]
theorem A3_writes : (A3 : List (HloOp τ sig (Elt F))).Forall fun op =>
    op.writes ⊆ (A3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers that stage `A4` writes. -/
abbrev A4_W : List (Ref sig .tc) := [main_cst_8, main_v41, main_v42, main_v43, main_v44, main_v45, main_v46, main_cst_9, main_v47]
theorem A4_writes : (A4 : List (HloOp τ sig (Elt F))).Forall fun op =>
    op.writes ⊆ (A4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers that stage `B0` writes. -/
abbrev B0_W : List (Ref sig .tc) := [main_cst_10, main_v48, main_v49, main_c_11]
theorem B0_writes : (B0 : List (HloOp τ sig (Elt F))).Forall fun op =>
    op.writes ⊆ (B0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers that stage `B1` writes. -/
abbrev B1_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v50]
theorem B1_writes : (B1 : List (HloOp τ sig (Elt F))).Forall fun op =>
    op.writes ⊆ (B1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers that stage `B2` writes. -/
abbrev B2_W : List (Ref sig .tc) := [main_v51, main_v52, main_v53, main_v54, main_v55, main_v56, main_cst_12, main_v57, main_v58, main_v59, main_v60, main_v61, main_v62, main_v63, main_v64, main_v65, main_call2_cst, main_call2_v0, main_v66]
theorem B2_writes : (B2 : List (HloOp τ sig (Elt F))).Forall fun op =>
    op.writes ⊆ (B2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers that stage `B3` writes. -/
abbrev B3_W : List (Ref sig .tc) := [main_v67, main_c_13, main_v68, main_v69, main_c_14, main_v70, main_v71, main_v72, main_v73, main_v74, main_v75, main_v76, main_v77]
theorem B3_writes : (B3 : List (HloOp τ sig (Elt F))).Forall fun op =>
    op.writes ⊆ (B3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers that stage `B4` writes. -/
abbrev B4_W : List (Ref sig .tc) := [main_cst_15, main_v78, main_v79, main_v80, main_v81, main_v82, main_v83, main_cst_16, main_v84, main_cst_17, main_v85, main_v86, main_c_18]
theorem B4_writes : (B4 : List (HloOp τ sig (Elt F))).Forall fun op =>
    op.writes ⊆ (B4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers that stage `B5` writes. -/
abbrev B5_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v87]
theorem B5_writes : (B5 : List (HloOp τ sig (Elt F))).Forall fun op =>
    op.writes ⊆ (B5_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers that stage `B6` writes. -/
abbrev B6_W : List (Ref sig .tc) := [main_v88, main_v89, main_v90, main_v91, main_v92, main_v93, main_cst_19, main_v94, main_v95, main_v96, main_v97]
theorem B6_writes : (B6 : List (HloOp τ sig (Elt F))).Forall fun op =>
    op.writes ⊆ (B6_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers that stage `C0` writes. -/
abbrev C0_W : List (Ref sig .tc) := [main_v98, main_v99, main_v100, main_v101, main_v102, main_call4_cst, main_call4_v0, main_v103]
theorem C0_writes : (C0 : List (HloOp τ sig (Elt F))).Forall fun op =>
    op.writes ⊆ (C0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers that stage `C1` writes. -/
abbrev C1_W : List (Ref sig .tc) := [main_v104, main_c_20, main_v105, main_v106, main_c_21, main_v107, main_v108, main_v109, main_v110, main_v111, main_v112, main_v113]
theorem C1_writes : (C1 : List (HloOp τ sig (Elt F))).Forall fun op =>
    op.writes ⊆ (C1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers that stage `C2` writes. -/
abbrev C2_W : List (Ref sig .tc) := [main_cst_22, main_v114, main_v115, main_v116, main_v117, main_v118, main_v119, main_v120, main_v121, main_cst_23, main_v122, main_v123, main_cst_24, main_v124, main_v125]
theorem C2_writes : (C2 : List (HloOp τ sig (Elt F))).Forall fun op =>
    op.writes ⊆ (C2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

end Keep

/-! ## The contents stage after stage, from the launch contents `V`

`valK V` are the contents after the first `K` stages. For every buffer still read later, its contents after each
stage as a term of the network over `V` at @main's twelve arguments: a buffer the stage writes by the stage's result
lemma at the contents before it, a buffer it leaves alone by the stage's keep lemma. -/

variable (V : Valuation τ sig (Elt Ideal))

/-- The contents after the first 1 stage (through `A0`). -/
def val1 : Valuation τ sig (Elt Ideal) := after A0 V
theorem val1_keep (r : Ref sig .tc) (h : r ∉ A0_W) : val1 V (Proc.devRef .tc r) = V (Proc.devRef .tc r) :=
  after_of_writes_sub A0 _ A0_writes h
theorem val1_arg0 : val1 V (Proc.devRef .tc main_arg0) = (V (Proc.devRef .tc main_arg0)) :=
  val1_keep V main_arg0 (by decide)
theorem val1_arg1 : val1 V (Proc.devRef .tc main_arg1) = (V (Proc.devRef .tc main_arg1)) :=
  val1_keep V main_arg1 (by decide)
theorem val1_arg2 : val1 V (Proc.devRef .tc main_arg2) = (V (Proc.devRef .tc main_arg2)) :=
  val1_keep V main_arg2 (by decide)
theorem val1_arg3 : val1 V (Proc.devRef .tc main_arg3) = (V (Proc.devRef .tc main_arg3)) :=
  val1_keep V main_arg3 (by decide)
theorem val1_arg4 : val1 V (Proc.devRef .tc main_arg4) = (V (Proc.devRef .tc main_arg4)) :=
  val1_keep V main_arg4 (by decide)
theorem val1_arg5 : val1 V (Proc.devRef .tc main_arg5) = (V (Proc.devRef .tc main_arg5)) :=
  val1_keep V main_arg5 (by decide)
theorem val1_arg6 : val1 V (Proc.devRef .tc main_arg6) = (V (Proc.devRef .tc main_arg6)) :=
  val1_keep V main_arg6 (by decide)
theorem val1_arg7 : val1 V (Proc.devRef .tc main_arg7) = (V (Proc.devRef .tc main_arg7)) :=
  val1_keep V main_arg7 (by decide)
theorem val1_arg8 : val1 V (Proc.devRef .tc main_arg8) = (V (Proc.devRef .tc main_arg8)) :=
  val1_keep V main_arg8 (by decide)
theorem val1_arg9 : val1 V (Proc.devRef .tc main_arg9) = (V (Proc.devRef .tc main_arg9)) :=
  val1_keep V main_arg9 (by decide)
theorem val1_arg10 : val1 V (Proc.devRef .tc main_arg10) = (V (Proc.devRef .tc main_arg10)) :=
  val1_keep V main_arg10 (by decide)
theorem val1_arg11 : val1 V (Proc.devRef .tc main_arg11) = (V (Proc.devRef .tc main_arg11)) :=
  val1_keep V main_arg11 (by decide)
theorem val1_v3 : val1 V (Proc.devRef .tc main_v3) = (srcV (V (Proc.devRef .tc main_arg1))) := by
  rw [val1, A0_v3] <;> rfl
theorem val1_v6 : val1 V (Proc.devRef .tc main_v6) = (dstV (V (Proc.devRef .tc main_arg1))) := by
  rw [val1, A0_v6] <;> rfl
theorem val1_v12 : val1 V (Proc.devRef .tc main_v12) = (degPosV (V (Proc.devRef .tc main_arg1))) := by
  rw [val1, A0_v12] <;> rfl
theorem val1_v13 : val1 V (Proc.devRef .tc main_v13) = (degRsqrtV (V (Proc.devRef .tc main_arg1))) := by
  rw [val1, A0_v13] <;> rfl
theorem val1_cst_2 : val1 V (Proc.devRef .tc main_cst_2) = ((zeroS : Arr Ideal S_ .f32)) := by
  rw [val1, A0_cst_2] <;> rfl

/-- The contents after the first 2 stages (through `A1`). -/
def val2 : Valuation τ sig (Elt Ideal) := after A1 (val1 V)
theorem val2_keep (r : Ref sig .tc) (h : r ∉ A1_W) : val2 V (Proc.devRef .tc r) = val1 V (Proc.devRef .tc r) :=
  after_of_writes_sub A1 _ A1_writes h
theorem val2_arg0 : val2 V (Proc.devRef .tc main_arg0) = (V (Proc.devRef .tc main_arg0)) :=
  (val2_keep V main_arg0 (by decide)).trans (val1_arg0 V)
theorem val2_arg1 : val2 V (Proc.devRef .tc main_arg1) = (V (Proc.devRef .tc main_arg1)) :=
  (val2_keep V main_arg1 (by decide)).trans (val1_arg1 V)
theorem val2_arg2 : val2 V (Proc.devRef .tc main_arg2) = (V (Proc.devRef .tc main_arg2)) :=
  (val2_keep V main_arg2 (by decide)).trans (val1_arg2 V)
theorem val2_arg3 : val2 V (Proc.devRef .tc main_arg3) = (V (Proc.devRef .tc main_arg3)) :=
  (val2_keep V main_arg3 (by decide)).trans (val1_arg3 V)
theorem val2_arg4 : val2 V (Proc.devRef .tc main_arg4) = (V (Proc.devRef .tc main_arg4)) :=
  (val2_keep V main_arg4 (by decide)).trans (val1_arg4 V)
theorem val2_arg5 : val2 V (Proc.devRef .tc main_arg5) = (V (Proc.devRef .tc main_arg5)) :=
  (val2_keep V main_arg5 (by decide)).trans (val1_arg5 V)
theorem val2_arg6 : val2 V (Proc.devRef .tc main_arg6) = (V (Proc.devRef .tc main_arg6)) :=
  (val2_keep V main_arg6 (by decide)).trans (val1_arg6 V)
theorem val2_arg7 : val2 V (Proc.devRef .tc main_arg7) = (V (Proc.devRef .tc main_arg7)) :=
  (val2_keep V main_arg7 (by decide)).trans (val1_arg7 V)
theorem val2_arg8 : val2 V (Proc.devRef .tc main_arg8) = (V (Proc.devRef .tc main_arg8)) :=
  (val2_keep V main_arg8 (by decide)).trans (val1_arg8 V)
theorem val2_arg9 : val2 V (Proc.devRef .tc main_arg9) = (V (Proc.devRef .tc main_arg9)) :=
  (val2_keep V main_arg9 (by decide)).trans (val1_arg9 V)
theorem val2_arg10 : val2 V (Proc.devRef .tc main_arg10) = (V (Proc.devRef .tc main_arg10)) :=
  (val2_keep V main_arg10 (by decide)).trans (val1_arg10 V)
theorem val2_arg11 : val2 V (Proc.devRef .tc main_arg11) = (V (Proc.devRef .tc main_arg11)) :=
  (val2_keep V main_arg11 (by decide)).trans (val1_arg11 V)
theorem val2_v3 : val2 V (Proc.devRef .tc main_v3) = (srcV (V (Proc.devRef .tc main_arg1))) :=
  (val2_keep V main_v3 (by decide)).trans (val1_v3 V)
theorem val2_v6 : val2 V (Proc.devRef .tc main_v6) = (dstV (V (Proc.devRef .tc main_arg1))) :=
  (val2_keep V main_v6 (by decide)).trans (val1_v6 V)
theorem val2_v14 : val2 V (Proc.devRef .tc main_v14) = (disV (V (Proc.devRef .tc main_arg1))) := by
  rw [val2, A1_v14, val1_v12, val1_v13, val1_cst_2] <;> rfl

/-- The contents after the first 3 stages (through `A2`). -/
def val3 : Valuation τ sig (Elt Ideal) := after A2 (val2 V)
theorem val3_keep (r : Ref sig .tc) (h : r ∉ A2_W) : val3 V (Proc.devRef .tc r) = val2 V (Proc.devRef .tc r) :=
  after_of_writes_sub A2 _ A2_writes h
theorem val3_arg0 : val3 V (Proc.devRef .tc main_arg0) = (V (Proc.devRef .tc main_arg0)) :=
  (val3_keep V main_arg0 (by decide)).trans (val2_arg0 V)
theorem val3_arg1 : val3 V (Proc.devRef .tc main_arg1) = (V (Proc.devRef .tc main_arg1)) :=
  (val3_keep V main_arg1 (by decide)).trans (val2_arg1 V)
theorem val3_arg2 : val3 V (Proc.devRef .tc main_arg2) = (V (Proc.devRef .tc main_arg2)) :=
  (val3_keep V main_arg2 (by decide)).trans (val2_arg2 V)
theorem val3_arg3 : val3 V (Proc.devRef .tc main_arg3) = (V (Proc.devRef .tc main_arg3)) :=
  (val3_keep V main_arg3 (by decide)).trans (val2_arg3 V)
theorem val3_arg4 : val3 V (Proc.devRef .tc main_arg4) = (V (Proc.devRef .tc main_arg4)) :=
  (val3_keep V main_arg4 (by decide)).trans (val2_arg4 V)
theorem val3_arg5 : val3 V (Proc.devRef .tc main_arg5) = (V (Proc.devRef .tc main_arg5)) :=
  (val3_keep V main_arg5 (by decide)).trans (val2_arg5 V)
theorem val3_arg6 : val3 V (Proc.devRef .tc main_arg6) = (V (Proc.devRef .tc main_arg6)) :=
  (val3_keep V main_arg6 (by decide)).trans (val2_arg6 V)
theorem val3_arg7 : val3 V (Proc.devRef .tc main_arg7) = (V (Proc.devRef .tc main_arg7)) :=
  (val3_keep V main_arg7 (by decide)).trans (val2_arg7 V)
theorem val3_arg8 : val3 V (Proc.devRef .tc main_arg8) = (V (Proc.devRef .tc main_arg8)) :=
  (val3_keep V main_arg8 (by decide)).trans (val2_arg8 V)
theorem val3_arg9 : val3 V (Proc.devRef .tc main_arg9) = (V (Proc.devRef .tc main_arg9)) :=
  (val3_keep V main_arg9 (by decide)).trans (val2_arg9 V)
theorem val3_arg10 : val3 V (Proc.devRef .tc main_arg10) = (V (Proc.devRef .tc main_arg10)) :=
  (val3_keep V main_arg10 (by decide)).trans (val2_arg10 V)
theorem val3_arg11 : val3 V (Proc.devRef .tc main_arg11) = (V (Proc.devRef .tc main_arg11)) :=
  (val3_keep V main_arg11 (by decide)).trans (val2_arg11 V)
theorem val3_v3 : val3 V (Proc.devRef .tc main_v3) = (srcV (V (Proc.devRef .tc main_arg1))) :=
  (val3_keep V main_v3 (by decide)).trans (val2_v3 V)
theorem val3_v6 : val3 V (Proc.devRef .tc main_v6) = (dstV (V (Proc.devRef .tc main_arg1))) :=
  (val3_keep V main_v6 (by decide)).trans (val2_v6 V)
theorem val3_v29 : val3 V (Proc.devRef .tc main_v29) = (normV (V (Proc.devRef .tc main_arg1))) := by
  rw [val3, A2_v29, val2_v14, val2_v3, val2_v6] <;> rfl

/-- The contents after the first 4 stages (through `A3`). -/
def val4 : Valuation τ sig (Elt Ideal) := after A3 (val3 V)
theorem val4_keep (r : Ref sig .tc) (h : r ∉ A3_W) : val4 V (Proc.devRef .tc r) = val3 V (Proc.devRef .tc r) :=
  after_of_writes_sub A3 _ A3_writes h
theorem val4_arg0 : val4 V (Proc.devRef .tc main_arg0) = (V (Proc.devRef .tc main_arg0)) :=
  (val4_keep V main_arg0 (by decide)).trans (val3_arg0 V)
theorem val4_arg1 : val4 V (Proc.devRef .tc main_arg1) = (V (Proc.devRef .tc main_arg1)) :=
  (val4_keep V main_arg1 (by decide)).trans (val3_arg1 V)
theorem val4_arg2 : val4 V (Proc.devRef .tc main_arg2) = (V (Proc.devRef .tc main_arg2)) :=
  (val4_keep V main_arg2 (by decide)).trans (val3_arg2 V)
theorem val4_arg3 : val4 V (Proc.devRef .tc main_arg3) = (V (Proc.devRef .tc main_arg3)) :=
  (val4_keep V main_arg3 (by decide)).trans (val3_arg3 V)
theorem val4_arg4 : val4 V (Proc.devRef .tc main_arg4) = (V (Proc.devRef .tc main_arg4)) :=
  (val4_keep V main_arg4 (by decide)).trans (val3_arg4 V)
theorem val4_arg5 : val4 V (Proc.devRef .tc main_arg5) = (V (Proc.devRef .tc main_arg5)) :=
  (val4_keep V main_arg5 (by decide)).trans (val3_arg5 V)
theorem val4_arg6 : val4 V (Proc.devRef .tc main_arg6) = (V (Proc.devRef .tc main_arg6)) :=
  (val4_keep V main_arg6 (by decide)).trans (val3_arg6 V)
theorem val4_arg7 : val4 V (Proc.devRef .tc main_arg7) = (V (Proc.devRef .tc main_arg7)) :=
  (val4_keep V main_arg7 (by decide)).trans (val3_arg7 V)
theorem val4_arg8 : val4 V (Proc.devRef .tc main_arg8) = (V (Proc.devRef .tc main_arg8)) :=
  (val4_keep V main_arg8 (by decide)).trans (val3_arg8 V)
theorem val4_arg9 : val4 V (Proc.devRef .tc main_arg9) = (V (Proc.devRef .tc main_arg9)) :=
  (val4_keep V main_arg9 (by decide)).trans (val3_arg9 V)
theorem val4_arg10 : val4 V (Proc.devRef .tc main_arg10) = (V (Proc.devRef .tc main_arg10)) :=
  (val4_keep V main_arg10 (by decide)).trans (val3_arg10 V)
theorem val4_arg11 : val4 V (Proc.devRef .tc main_arg11) = (V (Proc.devRef .tc main_arg11)) :=
  (val4_keep V main_arg11 (by decide)).trans (val3_arg11 V)
theorem val4_v3 : val4 V (Proc.devRef .tc main_v3) = (srcV (V (Proc.devRef .tc main_arg1))) :=
  (val4_keep V main_v3 (by decide)).trans (val3_v3 V)
theorem val4_v6 : val4 V (Proc.devRef .tc main_v6) = (dstV (V (Proc.devRef .tc main_arg1))) :=
  (val4_keep V main_v6 (by decide)).trans (val3_v6 V)
theorem val4_v29 : val4 V (Proc.devRef .tc main_v29) = (normV (V (Proc.devRef .tc main_arg1))) :=
  (val4_keep V main_v29 (by decide)).trans (val3_v29 V)
theorem val4_v40 : val4 V (Proc.devRef .tc main_v40) = (msg128 (lin1V (V (Proc.devRef .tc main_arg0)) (V (Proc.devRef .tc main_arg2))) (V (Proc.devRef .tc main_arg1))) := by
  rw [val4, A3_v40, val3_arg0, val3_arg2, val3_v3, val3_v29] <;> rfl

/-- The contents after the first 5 stages (through `A4`). -/
def val5 : Valuation τ sig (Elt Ideal) := after A4 (val4 V)
theorem val5_keep (r : Ref sig .tc) (h : r ∉ A4_W) : val5 V (Proc.devRef .tc r) = val4 V (Proc.devRef .tc r) :=
  after_of_writes_sub A4 _ A4_writes h
theorem val5_arg0 : val5 V (Proc.devRef .tc main_arg0) = (V (Proc.devRef .tc main_arg0)) :=
  (val5_keep V main_arg0 (by decide)).trans (val4_arg0 V)
theorem val5_arg1 : val5 V (Proc.devRef .tc main_arg1) = (V (Proc.devRef .tc main_arg1)) :=
  (val5_keep V main_arg1 (by decide)).trans (val4_arg1 V)
theorem val5_arg2 : val5 V (Proc.devRef .tc main_arg2) = (V (Proc.devRef .tc main_arg2)) :=
  (val5_keep V main_arg2 (by decide)).trans (val4_arg2 V)
theorem val5_arg3 : val5 V (Proc.devRef .tc main_arg3) = (V (Proc.devRef .tc main_arg3)) :=
  (val5_keep V main_arg3 (by decide)).trans (val4_arg3 V)
theorem val5_arg4 : val5 V (Proc.devRef .tc main_arg4) = (V (Proc.devRef .tc main_arg4)) :=
  (val5_keep V main_arg4 (by decide)).trans (val4_arg4 V)
theorem val5_arg5 : val5 V (Proc.devRef .tc main_arg5) = (V (Proc.devRef .tc main_arg5)) :=
  (val5_keep V main_arg5 (by decide)).trans (val4_arg5 V)
theorem val5_arg6 : val5 V (Proc.devRef .tc main_arg6) = (V (Proc.devRef .tc main_arg6)) :=
  (val5_keep V main_arg6 (by decide)).trans (val4_arg6 V)
theorem val5_arg7 : val5 V (Proc.devRef .tc main_arg7) = (V (Proc.devRef .tc main_arg7)) :=
  (val5_keep V main_arg7 (by decide)).trans (val4_arg7 V)
theorem val5_arg8 : val5 V (Proc.devRef .tc main_arg8) = (V (Proc.devRef .tc main_arg8)) :=
  (val5_keep V main_arg8 (by decide)).trans (val4_arg8 V)
theorem val5_arg9 : val5 V (Proc.devRef .tc main_arg9) = (V (Proc.devRef .tc main_arg9)) :=
  (val5_keep V main_arg9 (by decide)).trans (val4_arg9 V)
theorem val5_arg10 : val5 V (Proc.devRef .tc main_arg10) = (V (Proc.devRef .tc main_arg10)) :=
  (val5_keep V main_arg10 (by decide)).trans (val4_arg10 V)
theorem val5_arg11 : val5 V (Proc.devRef .tc main_arg11) = (V (Proc.devRef .tc main_arg11)) :=
  (val5_keep V main_arg11 (by decide)).trans (val4_arg11 V)
theorem val5_v3 : val5 V (Proc.devRef .tc main_v3) = (srcV (V (Proc.devRef .tc main_arg1))) :=
  (val5_keep V main_v3 (by decide)).trans (val4_v3 V)
theorem val5_v6 : val5 V (Proc.devRef .tc main_v6) = (dstV (V (Proc.devRef .tc main_arg1))) :=
  (val5_keep V main_v6 (by decide)).trans (val4_v6 V)
theorem val5_v29 : val5 V (Proc.devRef .tc main_v29) = (normV (V (Proc.devRef .tc main_arg1))) :=
  (val5_keep V main_v29 (by decide)).trans (val4_v29 V)
theorem val5_v46 : val5 V (Proc.devRef .tc main_v46) = (hbV (agg128 (msg128 (lin1V (V (Proc.devRef .tc main_arg0)) (V (Proc.devRef .tc main_arg2))) (V (Proc.devRef .tc main_arg1))) (V (Proc.devRef .tc main_arg1))) (V (Proc.devRef .tc main_arg3))) := by
  rw [val5, A4_v46, val4_v40, val4_v6, val4_arg3] <;> rfl
theorem val5_v47 : val5 V (Proc.devRef .tc main_v47) = (sumV (hbV (agg128 (msg128 (lin1V (V (Proc.devRef .tc main_arg0)) (V (Proc.devRef .tc main_arg2))) (V (Proc.devRef .tc main_arg1))) (V (Proc.devRef .tc main_arg1))) (V (Proc.devRef .tc main_arg3)))) := by
  rw [val5, A4_v47, val4_v40, val4_v6, val4_arg3] <;> rfl

/-- The contents after the first 6 stages (through `B0`). -/
def val6 : Valuation τ sig (Elt Ideal) := after B0 (val5 V)
theorem val6_keep (r : Ref sig .tc) (h : r ∉ B0_W) : val6 V (Proc.devRef .tc r) = val5 V (Proc.devRef .tc r) :=
  after_of_writes_sub B0 _ B0_writes h
theorem val6_arg0 : val6 V (Proc.devRef .tc main_arg0) = (V (Proc.devRef .tc main_arg0)) :=
  (val6_keep V main_arg0 (by decide)).trans (val5_arg0 V)
theorem val6_arg1 : val6 V (Proc.devRef .tc main_arg1) = (V (Proc.devRef .tc main_arg1)) :=
  (val6_keep V main_arg1 (by decide)).trans (val5_arg1 V)
theorem val6_arg2 : val6 V (Proc.devRef .tc main_arg2) = (V (Proc.devRef .tc main_arg2)) :=
  (val6_keep V main_arg2 (by decide)).trans (val5_arg2 V)
theorem val6_arg3 : val6 V (Proc.devRef .tc main_arg3) = (V (Proc.devRef .tc main_arg3)) :=
  (val6_keep V main_arg3 (by decide)).trans (val5_arg3 V)
theorem val6_arg4 : val6 V (Proc.devRef .tc main_arg4) = (V (Proc.devRef .tc main_arg4)) :=
  (val6_keep V main_arg4 (by decide)).trans (val5_arg4 V)
theorem val6_arg5 : val6 V (Proc.devRef .tc main_arg5) = (V (Proc.devRef .tc main_arg5)) :=
  (val6_keep V main_arg5 (by decide)).trans (val5_arg5 V)
theorem val6_arg6 : val6 V (Proc.devRef .tc main_arg6) = (V (Proc.devRef .tc main_arg6)) :=
  (val6_keep V main_arg6 (by decide)).trans (val5_arg6 V)
theorem val6_arg7 : val6 V (Proc.devRef .tc main_arg7) = (V (Proc.devRef .tc main_arg7)) :=
  (val6_keep V main_arg7 (by decide)).trans (val5_arg7 V)
theorem val6_arg8 : val6 V (Proc.devRef .tc main_arg8) = (V (Proc.devRef .tc main_arg8)) :=
  (val6_keep V main_arg8 (by decide)).trans (val5_arg8 V)
theorem val6_arg9 : val6 V (Proc.devRef .tc main_arg9) = (V (Proc.devRef .tc main_arg9)) :=
  (val6_keep V main_arg9 (by decide)).trans (val5_arg9 V)
theorem val6_arg10 : val6 V (Proc.devRef .tc main_arg10) = (V (Proc.devRef .tc main_arg10)) :=
  (val6_keep V main_arg10 (by decide)).trans (val5_arg10 V)
theorem val6_arg11 : val6 V (Proc.devRef .tc main_arg11) = (V (Proc.devRef .tc main_arg11)) :=
  (val6_keep V main_arg11 (by decide)).trans (val5_arg11 V)
theorem val6_v3 : val6 V (Proc.devRef .tc main_v3) = (srcV (V (Proc.devRef .tc main_arg1))) :=
  (val6_keep V main_v3 (by decide)).trans (val5_v3 V)
theorem val6_v6 : val6 V (Proc.devRef .tc main_v6) = (dstV (V (Proc.devRef .tc main_arg1))) :=
  (val6_keep V main_v6 (by decide)).trans (val5_v6 V)
theorem val6_v29 : val6 V (Proc.devRef .tc main_v29) = (normV (V (Proc.devRef .tc main_arg1))) :=
  (val6_keep V main_v29 (by decide)).trans (val5_v29 V)
theorem val6_v46 : val6 V (Proc.devRef .tc main_v46) = (hbV (agg128 (msg128 (lin1V (V (Proc.devRef .tc main_arg0)) (V (Proc.devRef .tc main_arg2))) (V (Proc.devRef .tc main_arg1))) (V (Proc.devRef .tc main_arg1))) (V (Proc.devRef .tc main_arg3))) :=
  (val6_keep V main_v46 (by decide)).trans (val5_v46 V)
theorem val6_v49 : val6 V (Proc.devRef .tc main_v49) = (meanV (hbV (agg128 (msg128 (lin1V (V (Proc.devRef .tc main_arg0)) (V (Proc.devRef .tc main_arg2))) (V (Proc.devRef .tc main_arg1))) (V (Proc.devRef .tc main_arg1))) (V (Proc.devRef .tc main_arg3)))) := by
  rw [val6, B0_v49, val5_v47] <;> rfl
theorem val6_c_11 : val6 V (Proc.devRef .tc main_c_11) = ((zeroI : Arr Ideal S_ .i32)) := by
  rw [val6, B0_c_11] <;> rfl

/-- The contents after the first 7 stages (through `B1`). -/
def val7 : Valuation τ sig (Elt Ideal) := after B1 (val6 V)
theorem val7_keep (r : Ref sig .tc) (h : r ∉ B1_W) : val7 V (Proc.devRef .tc r) = val6 V (Proc.devRef .tc r) :=
  after_of_writes_sub B1 _ B1_writes h
theorem val7_arg0 : val7 V (Proc.devRef .tc main_arg0) = (V (Proc.devRef .tc main_arg0)) :=
  (val7_keep V main_arg0 (by decide)).trans (val6_arg0 V)
theorem val7_arg1 : val7 V (Proc.devRef .tc main_arg1) = (V (Proc.devRef .tc main_arg1)) :=
  (val7_keep V main_arg1 (by decide)).trans (val6_arg1 V)
theorem val7_arg2 : val7 V (Proc.devRef .tc main_arg2) = (V (Proc.devRef .tc main_arg2)) :=
  (val7_keep V main_arg2 (by decide)).trans (val6_arg2 V)
theorem val7_arg3 : val7 V (Proc.devRef .tc main_arg3) = (V (Proc.devRef .tc main_arg3)) :=
  (val7_keep V main_arg3 (by decide)).trans (val6_arg3 V)
theorem val7_arg4 : val7 V (Proc.devRef .tc main_arg4) = (V (Proc.devRef .tc main_arg4)) :=
  (val7_keep V main_arg4 (by decide)).trans (val6_arg4 V)
theorem val7_arg5 : val7 V (Proc.devRef .tc main_arg5) = (V (Proc.devRef .tc main_arg5)) :=
  (val7_keep V main_arg5 (by decide)).trans (val6_arg5 V)
theorem val7_arg6 : val7 V (Proc.devRef .tc main_arg6) = (V (Proc.devRef .tc main_arg6)) :=
  (val7_keep V main_arg6 (by decide)).trans (val6_arg6 V)
theorem val7_arg7 : val7 V (Proc.devRef .tc main_arg7) = (V (Proc.devRef .tc main_arg7)) :=
  (val7_keep V main_arg7 (by decide)).trans (val6_arg7 V)
theorem val7_arg8 : val7 V (Proc.devRef .tc main_arg8) = (V (Proc.devRef .tc main_arg8)) :=
  (val7_keep V main_arg8 (by decide)).trans (val6_arg8 V)
theorem val7_arg9 : val7 V (Proc.devRef .tc main_arg9) = (V (Proc.devRef .tc main_arg9)) :=
  (val7_keep V main_arg9 (by decide)).trans (val6_arg9 V)
theorem val7_arg10 : val7 V (Proc.devRef .tc main_arg10) = (V (Proc.devRef .tc main_arg10)) :=
  (val7_keep V main_arg10 (by decide)).trans (val6_arg10 V)
theorem val7_arg11 : val7 V (Proc.devRef .tc main_arg11) = (V (Proc.devRef .tc main_arg11)) :=
  (val7_keep V main_arg11 (by decide)).trans (val6_arg11 V)
theorem val7_v3 : val7 V (Proc.devRef .tc main_v3) = (srcV (V (Proc.devRef .tc main_arg1))) :=
  (val7_keep V main_v3 (by decide)).trans (val6_v3 V)
theorem val7_v6 : val7 V (Proc.devRef .tc main_v6) = (dstV (V (Proc.devRef .tc main_arg1))) :=
  (val7_keep V main_v6 (by decide)).trans (val6_v6 V)
theorem val7_v29 : val7 V (Proc.devRef .tc main_v29) = (normV (V (Proc.devRef .tc main_arg1))) :=
  (val7_keep V main_v29 (by decide)).trans (val6_v29 V)
theorem val7_v46 : val7 V (Proc.devRef .tc main_v46) = (hbV (agg128 (msg128 (lin1V (V (Proc.devRef .tc main_arg0)) (V (Proc.devRef .tc main_arg2))) (V (Proc.devRef .tc main_arg1))) (V (Proc.devRef .tc main_arg1))) (V (Proc.devRef .tc main_arg3))) :=
  (val7_keep V main_v46 (by decide)).trans (val6_v46 V)
theorem val7_v49 : val7 V (Proc.devRef .tc main_v49) = (meanV (hbV (agg128 (msg128 (lin1V (V (Proc.devRef .tc main_arg0)) (V (Proc.devRef .tc main_arg2))) (V (Proc.devRef .tc main_arg1))) (V (Proc.devRef .tc main_arg1))) (V (Proc.devRef .tc main_arg3)))) :=
  (val7_keep V main_v49 (by decide)).trans (val6_v49 V)
theorem val7_v50 : val7 V (Proc.devRef .tc main_v50) = (varV (hbV (agg128 (msg128 (lin1V (V (Proc.devRef .tc main_arg0)) (V (Proc.devRef .tc main_arg2))) (V (Proc.devRef .tc main_arg1))) (V (Proc.devRef .tc main_arg1))) (V (Proc.devRef .tc main_arg3)))) := by
  rw [val7, B1_v50, val6_v46, val6_c_11] <;> rfl

/-- The contents after the first 8 stages (through `B2`). -/
def val8 : Valuation τ sig (Elt Ideal) := after B2 (val7 V)
theorem val8_keep (r : Ref sig .tc) (h : r ∉ B2_W) : val8 V (Proc.devRef .tc r) = val7 V (Proc.devRef .tc r) :=
  after_of_writes_sub B2 _ B2_writes h
theorem val8_arg0 : val8 V (Proc.devRef .tc main_arg0) = (V (Proc.devRef .tc main_arg0)) :=
  (val8_keep V main_arg0 (by decide)).trans (val7_arg0 V)
theorem val8_arg1 : val8 V (Proc.devRef .tc main_arg1) = (V (Proc.devRef .tc main_arg1)) :=
  (val8_keep V main_arg1 (by decide)).trans (val7_arg1 V)
theorem val8_arg2 : val8 V (Proc.devRef .tc main_arg2) = (V (Proc.devRef .tc main_arg2)) :=
  (val8_keep V main_arg2 (by decide)).trans (val7_arg2 V)
theorem val8_arg3 : val8 V (Proc.devRef .tc main_arg3) = (V (Proc.devRef .tc main_arg3)) :=
  (val8_keep V main_arg3 (by decide)).trans (val7_arg3 V)
theorem val8_arg4 : val8 V (Proc.devRef .tc main_arg4) = (V (Proc.devRef .tc main_arg4)) :=
  (val8_keep V main_arg4 (by decide)).trans (val7_arg4 V)
theorem val8_arg5 : val8 V (Proc.devRef .tc main_arg5) = (V (Proc.devRef .tc main_arg5)) :=
  (val8_keep V main_arg5 (by decide)).trans (val7_arg5 V)
theorem val8_arg6 : val8 V (Proc.devRef .tc main_arg6) = (V (Proc.devRef .tc main_arg6)) :=
  (val8_keep V main_arg6 (by decide)).trans (val7_arg6 V)
theorem val8_arg7 : val8 V (Proc.devRef .tc main_arg7) = (V (Proc.devRef .tc main_arg7)) :=
  (val8_keep V main_arg7 (by decide)).trans (val7_arg7 V)
theorem val8_arg8 : val8 V (Proc.devRef .tc main_arg8) = (V (Proc.devRef .tc main_arg8)) :=
  (val8_keep V main_arg8 (by decide)).trans (val7_arg8 V)
theorem val8_arg9 : val8 V (Proc.devRef .tc main_arg9) = (V (Proc.devRef .tc main_arg9)) :=
  (val8_keep V main_arg9 (by decide)).trans (val7_arg9 V)
theorem val8_arg10 : val8 V (Proc.devRef .tc main_arg10) = (V (Proc.devRef .tc main_arg10)) :=
  (val8_keep V main_arg10 (by decide)).trans (val7_arg10 V)
theorem val8_arg11 : val8 V (Proc.devRef .tc main_arg11) = (V (Proc.devRef .tc main_arg11)) :=
  (val8_keep V main_arg11 (by decide)).trans (val7_arg11 V)
theorem val8_v3 : val8 V (Proc.devRef .tc main_v3) = (srcV (V (Proc.devRef .tc main_arg1))) :=
  (val8_keep V main_v3 (by decide)).trans (val7_v3 V)
theorem val8_v6 : val8 V (Proc.devRef .tc main_v6) = (dstV (V (Proc.devRef .tc main_arg1))) :=
  (val8_keep V main_v6 (by decide)).trans (val7_v6 V)
theorem val8_v29 : val8 V (Proc.devRef .tc main_v29) = (normV (V (Proc.devRef .tc main_arg1))) :=
  (val8_keep V main_v29 (by decide)).trans (val7_v29 V)
theorem val8_v66 : val8 V (Proc.devRef .tc main_v66) = (h1V (V (Proc.devRef .tc main_arg0)) (V (Proc.devRef .tc main_arg1)) (V (Proc.devRef .tc main_arg2)) (V (Proc.devRef .tc main_arg3)) (V (Proc.devRef .tc main_arg8)) (V (Proc.devRef .tc main_arg9))) := by
  rw [val8, B2_v66, val7_v46, val7_v49, val7_v50, val7_arg8, val7_arg9] <;> rfl

/-- The contents after the first 9 stages (through `B3`). -/
def val9 : Valuation τ sig (Elt Ideal) := after B3 (val8 V)
theorem val9_keep (r : Ref sig .tc) (h : r ∉ B3_W) : val9 V (Proc.devRef .tc r) = val8 V (Proc.devRef .tc r) :=
  after_of_writes_sub B3 _ B3_writes h
theorem val9_arg0 : val9 V (Proc.devRef .tc main_arg0) = (V (Proc.devRef .tc main_arg0)) :=
  (val9_keep V main_arg0 (by decide)).trans (val8_arg0 V)
theorem val9_arg1 : val9 V (Proc.devRef .tc main_arg1) = (V (Proc.devRef .tc main_arg1)) :=
  (val9_keep V main_arg1 (by decide)).trans (val8_arg1 V)
theorem val9_arg2 : val9 V (Proc.devRef .tc main_arg2) = (V (Proc.devRef .tc main_arg2)) :=
  (val9_keep V main_arg2 (by decide)).trans (val8_arg2 V)
theorem val9_arg3 : val9 V (Proc.devRef .tc main_arg3) = (V (Proc.devRef .tc main_arg3)) :=
  (val9_keep V main_arg3 (by decide)).trans (val8_arg3 V)
theorem val9_arg4 : val9 V (Proc.devRef .tc main_arg4) = (V (Proc.devRef .tc main_arg4)) :=
  (val9_keep V main_arg4 (by decide)).trans (val8_arg4 V)
theorem val9_arg5 : val9 V (Proc.devRef .tc main_arg5) = (V (Proc.devRef .tc main_arg5)) :=
  (val9_keep V main_arg5 (by decide)).trans (val8_arg5 V)
theorem val9_arg6 : val9 V (Proc.devRef .tc main_arg6) = (V (Proc.devRef .tc main_arg6)) :=
  (val9_keep V main_arg6 (by decide)).trans (val8_arg6 V)
theorem val9_arg7 : val9 V (Proc.devRef .tc main_arg7) = (V (Proc.devRef .tc main_arg7)) :=
  (val9_keep V main_arg7 (by decide)).trans (val8_arg7 V)
theorem val9_arg8 : val9 V (Proc.devRef .tc main_arg8) = (V (Proc.devRef .tc main_arg8)) :=
  (val9_keep V main_arg8 (by decide)).trans (val8_arg8 V)
theorem val9_arg9 : val9 V (Proc.devRef .tc main_arg9) = (V (Proc.devRef .tc main_arg9)) :=
  (val9_keep V main_arg9 (by decide)).trans (val8_arg9 V)
theorem val9_arg10 : val9 V (Proc.devRef .tc main_arg10) = (V (Proc.devRef .tc main_arg10)) :=
  (val9_keep V main_arg10 (by decide)).trans (val8_arg10 V)
theorem val9_arg11 : val9 V (Proc.devRef .tc main_arg11) = (V (Proc.devRef .tc main_arg11)) :=
  (val9_keep V main_arg11 (by decide)).trans (val8_arg11 V)
theorem val9_v3 : val9 V (Proc.devRef .tc main_v3) = (srcV (V (Proc.devRef .tc main_arg1))) :=
  (val9_keep V main_v3 (by decide)).trans (val8_v3 V)
theorem val9_v6 : val9 V (Proc.devRef .tc main_v6) = (dstV (V (Proc.devRef .tc main_arg1))) :=
  (val9_keep V main_v6 (by decide)).trans (val8_v6 V)
theorem val9_v29 : val9 V (Proc.devRef .tc main_v29) = (normV (V (Proc.devRef .tc main_arg1))) :=
  (val9_keep V main_v29 (by decide)).trans (val8_v29 V)
theorem val9_v77 : val9 V (Proc.devRef .tc main_v77) = (msg128 (lin2V (h1V (V (Proc.devRef .tc main_arg0)) (V (Proc.devRef .tc main_arg1)) (V (Proc.devRef .tc main_arg2)) (V (Proc.devRef .tc main_arg3)) (V (Proc.devRef .tc main_arg8)) (V (Proc.devRef .tc main_arg9))) (V (Proc.devRef .tc main_arg4))) (V (Proc.devRef .tc main_arg1))) := by
  rw [val9, B3_v77, val8_v66, val8_arg4, val8_v3, val8_v29] <;> rfl

/-- The contents after the first 10 stages (through `B4`). -/
def val10 : Valuation τ sig (Elt Ideal) := after B4 (val9 V)
theorem val10_keep (r : Ref sig .tc) (h : r ∉ B4_W) : val10 V (Proc.devRef .tc r) = val9 V (Proc.devRef .tc r) :=
  after_of_writes_sub B4 _ B4_writes h
theorem val10_arg0 : val10 V (Proc.devRef .tc main_arg0) = (V (Proc.devRef .tc main_arg0)) :=
  (val10_keep V main_arg0 (by decide)).trans (val9_arg0 V)
theorem val10_arg1 : val10 V (Proc.devRef .tc main_arg1) = (V (Proc.devRef .tc main_arg1)) :=
  (val10_keep V main_arg1 (by decide)).trans (val9_arg1 V)
theorem val10_arg2 : val10 V (Proc.devRef .tc main_arg2) = (V (Proc.devRef .tc main_arg2)) :=
  (val10_keep V main_arg2 (by decide)).trans (val9_arg2 V)
theorem val10_arg3 : val10 V (Proc.devRef .tc main_arg3) = (V (Proc.devRef .tc main_arg3)) :=
  (val10_keep V main_arg3 (by decide)).trans (val9_arg3 V)
theorem val10_arg4 : val10 V (Proc.devRef .tc main_arg4) = (V (Proc.devRef .tc main_arg4)) :=
  (val10_keep V main_arg4 (by decide)).trans (val9_arg4 V)
theorem val10_arg5 : val10 V (Proc.devRef .tc main_arg5) = (V (Proc.devRef .tc main_arg5)) :=
  (val10_keep V main_arg5 (by decide)).trans (val9_arg5 V)
theorem val10_arg6 : val10 V (Proc.devRef .tc main_arg6) = (V (Proc.devRef .tc main_arg6)) :=
  (val10_keep V main_arg6 (by decide)).trans (val9_arg6 V)
theorem val10_arg7 : val10 V (Proc.devRef .tc main_arg7) = (V (Proc.devRef .tc main_arg7)) :=
  (val10_keep V main_arg7 (by decide)).trans (val9_arg7 V)
theorem val10_arg8 : val10 V (Proc.devRef .tc main_arg8) = (V (Proc.devRef .tc main_arg8)) :=
  (val10_keep V main_arg8 (by decide)).trans (val9_arg8 V)
theorem val10_arg9 : val10 V (Proc.devRef .tc main_arg9) = (V (Proc.devRef .tc main_arg9)) :=
  (val10_keep V main_arg9 (by decide)).trans (val9_arg9 V)
theorem val10_arg10 : val10 V (Proc.devRef .tc main_arg10) = (V (Proc.devRef .tc main_arg10)) :=
  (val10_keep V main_arg10 (by decide)).trans (val9_arg10 V)
theorem val10_arg11 : val10 V (Proc.devRef .tc main_arg11) = (V (Proc.devRef .tc main_arg11)) :=
  (val10_keep V main_arg11 (by decide)).trans (val9_arg11 V)
theorem val10_v3 : val10 V (Proc.devRef .tc main_v3) = (srcV (V (Proc.devRef .tc main_arg1))) :=
  (val10_keep V main_v3 (by decide)).trans (val9_v3 V)
theorem val10_v6 : val10 V (Proc.devRef .tc main_v6) = (dstV (V (Proc.devRef .tc main_arg1))) :=
  (val10_keep V main_v6 (by decide)).trans (val9_v6 V)
theorem val10_v29 : val10 V (Proc.devRef .tc main_v29) = (normV (V (Proc.devRef .tc main_arg1))) :=
  (val10_keep V main_v29 (by decide)).trans (val9_v29 V)
theorem val10_v83 : val10 V (Proc.devRef .tc main_v83) = (hbV (agg128 (msg128 (lin2V (h1V (V (Proc.devRef .tc main_arg0)) (V (Proc.devRef .tc main_arg1)) (V (Proc.devRef .tc main_arg2)) (V (Proc.devRef .tc main_arg3)) (V (Proc.devRef .tc main_arg8)) (V (Proc.devRef .tc main_arg9))) (V (Proc.devRef .tc main_arg4))) (V (Proc.devRef .tc main_arg1))) (V (Proc.devRef .tc main_arg1))) (V (Proc.devRef .tc main_arg5))) := by
  rw [val10, B4_v83, val9_v77, val9_v6, val9_arg5] <;> rfl
theorem val10_v86 : val10 V (Proc.devRef .tc main_v86) = (meanV (hbV (agg128 (msg128 (lin2V (h1V (V (Proc.devRef .tc main_arg0)) (V (Proc.devRef .tc main_arg1)) (V (Proc.devRef .tc main_arg2)) (V (Proc.devRef .tc main_arg3)) (V (Proc.devRef .tc main_arg8)) (V (Proc.devRef .tc main_arg9))) (V (Proc.devRef .tc main_arg4))) (V (Proc.devRef .tc main_arg1))) (V (Proc.devRef .tc main_arg1))) (V (Proc.devRef .tc main_arg5)))) := by
  rw [val10, B4_v86, val9_v77, val9_v6, val9_arg5] <;> rfl
theorem val10_c_18 : val10 V (Proc.devRef .tc main_c_18) = ((zeroI : Arr Ideal S_ .i32)) := by
  rw [val10, B4_c_18] <;> rfl

/-- The contents after the first 11 stages (through `B5`). -/
def val11 : Valuation τ sig (Elt Ideal) := after B5 (val10 V)
theorem val11_keep (r : Ref sig .tc) (h : r ∉ B5_W) : val11 V (Proc.devRef .tc r) = val10 V (Proc.devRef .tc r) :=
  after_of_writes_sub B5 _ B5_writes h
theorem val11_arg0 : val11 V (Proc.devRef .tc main_arg0) = (V (Proc.devRef .tc main_arg0)) :=
  (val11_keep V main_arg0 (by decide)).trans (val10_arg0 V)
theorem val11_arg1 : val11 V (Proc.devRef .tc main_arg1) = (V (Proc.devRef .tc main_arg1)) :=
  (val11_keep V main_arg1 (by decide)).trans (val10_arg1 V)
theorem val11_arg2 : val11 V (Proc.devRef .tc main_arg2) = (V (Proc.devRef .tc main_arg2)) :=
  (val11_keep V main_arg2 (by decide)).trans (val10_arg2 V)
theorem val11_arg3 : val11 V (Proc.devRef .tc main_arg3) = (V (Proc.devRef .tc main_arg3)) :=
  (val11_keep V main_arg3 (by decide)).trans (val10_arg3 V)
theorem val11_arg4 : val11 V (Proc.devRef .tc main_arg4) = (V (Proc.devRef .tc main_arg4)) :=
  (val11_keep V main_arg4 (by decide)).trans (val10_arg4 V)
theorem val11_arg5 : val11 V (Proc.devRef .tc main_arg5) = (V (Proc.devRef .tc main_arg5)) :=
  (val11_keep V main_arg5 (by decide)).trans (val10_arg5 V)
theorem val11_arg6 : val11 V (Proc.devRef .tc main_arg6) = (V (Proc.devRef .tc main_arg6)) :=
  (val11_keep V main_arg6 (by decide)).trans (val10_arg6 V)
theorem val11_arg7 : val11 V (Proc.devRef .tc main_arg7) = (V (Proc.devRef .tc main_arg7)) :=
  (val11_keep V main_arg7 (by decide)).trans (val10_arg7 V)
theorem val11_arg8 : val11 V (Proc.devRef .tc main_arg8) = (V (Proc.devRef .tc main_arg8)) :=
  (val11_keep V main_arg8 (by decide)).trans (val10_arg8 V)
theorem val11_arg9 : val11 V (Proc.devRef .tc main_arg9) = (V (Proc.devRef .tc main_arg9)) :=
  (val11_keep V main_arg9 (by decide)).trans (val10_arg9 V)
theorem val11_arg10 : val11 V (Proc.devRef .tc main_arg10) = (V (Proc.devRef .tc main_arg10)) :=
  (val11_keep V main_arg10 (by decide)).trans (val10_arg10 V)
theorem val11_arg11 : val11 V (Proc.devRef .tc main_arg11) = (V (Proc.devRef .tc main_arg11)) :=
  (val11_keep V main_arg11 (by decide)).trans (val10_arg11 V)
theorem val11_v3 : val11 V (Proc.devRef .tc main_v3) = (srcV (V (Proc.devRef .tc main_arg1))) :=
  (val11_keep V main_v3 (by decide)).trans (val10_v3 V)
theorem val11_v6 : val11 V (Proc.devRef .tc main_v6) = (dstV (V (Proc.devRef .tc main_arg1))) :=
  (val11_keep V main_v6 (by decide)).trans (val10_v6 V)
theorem val11_v29 : val11 V (Proc.devRef .tc main_v29) = (normV (V (Proc.devRef .tc main_arg1))) :=
  (val11_keep V main_v29 (by decide)).trans (val10_v29 V)
theorem val11_v83 : val11 V (Proc.devRef .tc main_v83) = (hbV (agg128 (msg128 (lin2V (h1V (V (Proc.devRef .tc main_arg0)) (V (Proc.devRef .tc main_arg1)) (V (Proc.devRef .tc main_arg2)) (V (Proc.devRef .tc main_arg3)) (V (Proc.devRef .tc main_arg8)) (V (Proc.devRef .tc main_arg9))) (V (Proc.devRef .tc main_arg4))) (V (Proc.devRef .tc main_arg1))) (V (Proc.devRef .tc main_arg1))) (V (Proc.devRef .tc main_arg5))) :=
  (val11_keep V main_v83 (by decide)).trans (val10_v83 V)
theorem val11_v86 : val11 V (Proc.devRef .tc main_v86) = (meanV (hbV (agg128 (msg128 (lin2V (h1V (V (Proc.devRef .tc main_arg0)) (V (Proc.devRef .tc main_arg1)) (V (Proc.devRef .tc main_arg2)) (V (Proc.devRef .tc main_arg3)) (V (Proc.devRef .tc main_arg8)) (V (Proc.devRef .tc main_arg9))) (V (Proc.devRef .tc main_arg4))) (V (Proc.devRef .tc main_arg1))) (V (Proc.devRef .tc main_arg1))) (V (Proc.devRef .tc main_arg5)))) :=
  (val11_keep V main_v86 (by decide)).trans (val10_v86 V)
theorem val11_v87 : val11 V (Proc.devRef .tc main_v87) = (varV (hbV (agg128 (msg128 (lin2V (h1V (V (Proc.devRef .tc main_arg0)) (V (Proc.devRef .tc main_arg1)) (V (Proc.devRef .tc main_arg2)) (V (Proc.devRef .tc main_arg3)) (V (Proc.devRef .tc main_arg8)) (V (Proc.devRef .tc main_arg9))) (V (Proc.devRef .tc main_arg4))) (V (Proc.devRef .tc main_arg1))) (V (Proc.devRef .tc main_arg1))) (V (Proc.devRef .tc main_arg5)))) := by
  rw [val11, B5_v87, val10_v83, val10_c_18] <;> rfl

/-- The contents after the first 12 stages (through `B6`). -/
def val12 : Valuation τ sig (Elt Ideal) := after B6 (val11 V)
theorem val12_keep (r : Ref sig .tc) (h : r ∉ B6_W) : val12 V (Proc.devRef .tc r) = val11 V (Proc.devRef .tc r) :=
  after_of_writes_sub B6 _ B6_writes h
theorem val12_arg0 : val12 V (Proc.devRef .tc main_arg0) = (V (Proc.devRef .tc main_arg0)) :=
  (val12_keep V main_arg0 (by decide)).trans (val11_arg0 V)
theorem val12_arg1 : val12 V (Proc.devRef .tc main_arg1) = (V (Proc.devRef .tc main_arg1)) :=
  (val12_keep V main_arg1 (by decide)).trans (val11_arg1 V)
theorem val12_arg2 : val12 V (Proc.devRef .tc main_arg2) = (V (Proc.devRef .tc main_arg2)) :=
  (val12_keep V main_arg2 (by decide)).trans (val11_arg2 V)
theorem val12_arg3 : val12 V (Proc.devRef .tc main_arg3) = (V (Proc.devRef .tc main_arg3)) :=
  (val12_keep V main_arg3 (by decide)).trans (val11_arg3 V)
theorem val12_arg4 : val12 V (Proc.devRef .tc main_arg4) = (V (Proc.devRef .tc main_arg4)) :=
  (val12_keep V main_arg4 (by decide)).trans (val11_arg4 V)
theorem val12_arg5 : val12 V (Proc.devRef .tc main_arg5) = (V (Proc.devRef .tc main_arg5)) :=
  (val12_keep V main_arg5 (by decide)).trans (val11_arg5 V)
theorem val12_arg6 : val12 V (Proc.devRef .tc main_arg6) = (V (Proc.devRef .tc main_arg6)) :=
  (val12_keep V main_arg6 (by decide)).trans (val11_arg6 V)
theorem val12_arg7 : val12 V (Proc.devRef .tc main_arg7) = (V (Proc.devRef .tc main_arg7)) :=
  (val12_keep V main_arg7 (by decide)).trans (val11_arg7 V)
theorem val12_arg8 : val12 V (Proc.devRef .tc main_arg8) = (V (Proc.devRef .tc main_arg8)) :=
  (val12_keep V main_arg8 (by decide)).trans (val11_arg8 V)
theorem val12_arg9 : val12 V (Proc.devRef .tc main_arg9) = (V (Proc.devRef .tc main_arg9)) :=
  (val12_keep V main_arg9 (by decide)).trans (val11_arg9 V)
theorem val12_arg10 : val12 V (Proc.devRef .tc main_arg10) = (V (Proc.devRef .tc main_arg10)) :=
  (val12_keep V main_arg10 (by decide)).trans (val11_arg10 V)
theorem val12_arg11 : val12 V (Proc.devRef .tc main_arg11) = (V (Proc.devRef .tc main_arg11)) :=
  (val12_keep V main_arg11 (by decide)).trans (val11_arg11 V)
theorem val12_v3 : val12 V (Proc.devRef .tc main_v3) = (srcV (V (Proc.devRef .tc main_arg1))) :=
  (val12_keep V main_v3 (by decide)).trans (val11_v3 V)
theorem val12_v6 : val12 V (Proc.devRef .tc main_v6) = (dstV (V (Proc.devRef .tc main_arg1))) :=
  (val12_keep V main_v6 (by decide)).trans (val11_v6 V)
theorem val12_v29 : val12 V (Proc.devRef .tc main_v29) = (normV (V (Proc.devRef .tc main_arg1))) :=
  (val12_keep V main_v29 (by decide)).trans (val11_v29 V)
theorem val12_v93 : val12 V (Proc.devRef .tc main_v93) = (scaledV (hbV (agg128 (msg128 (lin2V (h1V (V (Proc.devRef .tc main_arg0)) (V (Proc.devRef .tc main_arg1)) (V (Proc.devRef .tc main_arg2)) (V (Proc.devRef .tc main_arg3)) (V (Proc.devRef .tc main_arg8)) (V (Proc.devRef .tc main_arg9))) (V (Proc.devRef .tc main_arg4))) (V (Proc.devRef .tc main_arg1))) (V (Proc.devRef .tc main_arg1))) (V (Proc.devRef .tc main_arg5))) (meanV (hbV (agg128 (msg128 (lin2V (h1V (V (Proc.devRef .tc main_arg0)) (V (Proc.devRef .tc main_arg1)) (V (Proc.devRef .tc main_arg2)) (V (Proc.devRef .tc main_arg3)) (V (Proc.devRef .tc main_arg8)) (V (Proc.devRef .tc main_arg9))) (V (Proc.devRef .tc main_arg4))) (V (Proc.devRef .tc main_arg1))) (V (Proc.devRef .tc main_arg1))) (V (Proc.devRef .tc main_arg5)))) (V (Proc.devRef .tc main_arg10))) := by
  rw [val12, B6_v93, val11_v83, val11_v86, val11_arg10] <;> rfl
theorem val12_v97 : val12 V (Proc.devRef .tc main_v97) = (invStdRow (varV (hbV (agg128 (msg128 (lin2V (h1V (V (Proc.devRef .tc main_arg0)) (V (Proc.devRef .tc main_arg1)) (V (Proc.devRef .tc main_arg2)) (V (Proc.devRef .tc main_arg3)) (V (Proc.devRef .tc main_arg8)) (V (Proc.devRef .tc main_arg9))) (V (Proc.devRef .tc main_arg4))) (V (Proc.devRef .tc main_arg1))) (V (Proc.devRef .tc main_arg1))) (V (Proc.devRef .tc main_arg5))))) := by
  rw [val12, B6_v97, val11_v87] <;> rfl

/-- The contents after the first 13 stages (through `C0`). -/
def val13 : Valuation τ sig (Elt Ideal) := after C0 (val12 V)
theorem val13_keep (r : Ref sig .tc) (h : r ∉ C0_W) : val13 V (Proc.devRef .tc r) = val12 V (Proc.devRef .tc r) :=
  after_of_writes_sub C0 _ C0_writes h
theorem val13_arg0 : val13 V (Proc.devRef .tc main_arg0) = (V (Proc.devRef .tc main_arg0)) :=
  (val13_keep V main_arg0 (by decide)).trans (val12_arg0 V)
theorem val13_arg1 : val13 V (Proc.devRef .tc main_arg1) = (V (Proc.devRef .tc main_arg1)) :=
  (val13_keep V main_arg1 (by decide)).trans (val12_arg1 V)
theorem val13_arg2 : val13 V (Proc.devRef .tc main_arg2) = (V (Proc.devRef .tc main_arg2)) :=
  (val13_keep V main_arg2 (by decide)).trans (val12_arg2 V)
theorem val13_arg3 : val13 V (Proc.devRef .tc main_arg3) = (V (Proc.devRef .tc main_arg3)) :=
  (val13_keep V main_arg3 (by decide)).trans (val12_arg3 V)
theorem val13_arg4 : val13 V (Proc.devRef .tc main_arg4) = (V (Proc.devRef .tc main_arg4)) :=
  (val13_keep V main_arg4 (by decide)).trans (val12_arg4 V)
theorem val13_arg5 : val13 V (Proc.devRef .tc main_arg5) = (V (Proc.devRef .tc main_arg5)) :=
  (val13_keep V main_arg5 (by decide)).trans (val12_arg5 V)
theorem val13_arg6 : val13 V (Proc.devRef .tc main_arg6) = (V (Proc.devRef .tc main_arg6)) :=
  (val13_keep V main_arg6 (by decide)).trans (val12_arg6 V)
theorem val13_arg7 : val13 V (Proc.devRef .tc main_arg7) = (V (Proc.devRef .tc main_arg7)) :=
  (val13_keep V main_arg7 (by decide)).trans (val12_arg7 V)
theorem val13_arg8 : val13 V (Proc.devRef .tc main_arg8) = (V (Proc.devRef .tc main_arg8)) :=
  (val13_keep V main_arg8 (by decide)).trans (val12_arg8 V)
theorem val13_arg9 : val13 V (Proc.devRef .tc main_arg9) = (V (Proc.devRef .tc main_arg9)) :=
  (val13_keep V main_arg9 (by decide)).trans (val12_arg9 V)
theorem val13_arg10 : val13 V (Proc.devRef .tc main_arg10) = (V (Proc.devRef .tc main_arg10)) :=
  (val13_keep V main_arg10 (by decide)).trans (val12_arg10 V)
theorem val13_arg11 : val13 V (Proc.devRef .tc main_arg11) = (V (Proc.devRef .tc main_arg11)) :=
  (val13_keep V main_arg11 (by decide)).trans (val12_arg11 V)
theorem val13_v3 : val13 V (Proc.devRef .tc main_v3) = (srcV (V (Proc.devRef .tc main_arg1))) :=
  (val13_keep V main_v3 (by decide)).trans (val12_v3 V)
theorem val13_v6 : val13 V (Proc.devRef .tc main_v6) = (dstV (V (Proc.devRef .tc main_arg1))) :=
  (val13_keep V main_v6 (by decide)).trans (val12_v6 V)
theorem val13_v29 : val13 V (Proc.devRef .tc main_v29) = (normV (V (Proc.devRef .tc main_arg1))) :=
  (val13_keep V main_v29 (by decide)).trans (val12_v29 V)
theorem val13_v103 : val13 V (Proc.devRef .tc main_v103) = (h2V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg8)) (V (Proc.devRef .tc main_arg9)) (V (Proc.devRef .tc main_arg10)) (V (Proc.devRef .tc main_arg11))) := by
  rw [val13, C0_v103, val12_v93, val12_v97, val12_arg11] <;> rfl

/-- The contents after the first 14 stages (through `C1`). -/
def val14 : Valuation τ sig (Elt Ideal) := after C1 (val13 V)
theorem val14_keep (r : Ref sig .tc) (h : r ∉ C1_W) : val14 V (Proc.devRef .tc r) = val13 V (Proc.devRef .tc r) :=
  after_of_writes_sub C1 _ C1_writes h
theorem val14_arg0 : val14 V (Proc.devRef .tc main_arg0) = (V (Proc.devRef .tc main_arg0)) :=
  (val14_keep V main_arg0 (by decide)).trans (val13_arg0 V)
theorem val14_arg1 : val14 V (Proc.devRef .tc main_arg1) = (V (Proc.devRef .tc main_arg1)) :=
  (val14_keep V main_arg1 (by decide)).trans (val13_arg1 V)
theorem val14_arg2 : val14 V (Proc.devRef .tc main_arg2) = (V (Proc.devRef .tc main_arg2)) :=
  (val14_keep V main_arg2 (by decide)).trans (val13_arg2 V)
theorem val14_arg3 : val14 V (Proc.devRef .tc main_arg3) = (V (Proc.devRef .tc main_arg3)) :=
  (val14_keep V main_arg3 (by decide)).trans (val13_arg3 V)
theorem val14_arg4 : val14 V (Proc.devRef .tc main_arg4) = (V (Proc.devRef .tc main_arg4)) :=
  (val14_keep V main_arg4 (by decide)).trans (val13_arg4 V)
theorem val14_arg5 : val14 V (Proc.devRef .tc main_arg5) = (V (Proc.devRef .tc main_arg5)) :=
  (val14_keep V main_arg5 (by decide)).trans (val13_arg5 V)
theorem val14_arg6 : val14 V (Proc.devRef .tc main_arg6) = (V (Proc.devRef .tc main_arg6)) :=
  (val14_keep V main_arg6 (by decide)).trans (val13_arg6 V)
theorem val14_arg7 : val14 V (Proc.devRef .tc main_arg7) = (V (Proc.devRef .tc main_arg7)) :=
  (val14_keep V main_arg7 (by decide)).trans (val13_arg7 V)
theorem val14_arg8 : val14 V (Proc.devRef .tc main_arg8) = (V (Proc.devRef .tc main_arg8)) :=
  (val14_keep V main_arg8 (by decide)).trans (val13_arg8 V)
theorem val14_arg9 : val14 V (Proc.devRef .tc main_arg9) = (V (Proc.devRef .tc main_arg9)) :=
  (val14_keep V main_arg9 (by decide)).trans (val13_arg9 V)
theorem val14_arg10 : val14 V (Proc.devRef .tc main_arg10) = (V (Proc.devRef .tc main_arg10)) :=
  (val14_keep V main_arg10 (by decide)).trans (val13_arg10 V)
theorem val14_arg11 : val14 V (Proc.devRef .tc main_arg11) = (V (Proc.devRef .tc main_arg11)) :=
  (val14_keep V main_arg11 (by decide)).trans (val13_arg11 V)
theorem val14_v6 : val14 V (Proc.devRef .tc main_v6) = (dstV (V (Proc.devRef .tc main_arg1))) :=
  (val14_keep V main_v6 (by decide)).trans (val13_v6 V)
theorem val14_v113 : val14 V (Proc.devRef .tc main_v113) = (msg1 (lin3V (h2V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg8)) (V (Proc.devRef .tc main_arg9)) (V (Proc.devRef .tc main_arg10)) (V (Proc.devRef .tc main_arg11))) (V (Proc.devRef .tc main_arg6))) (V (Proc.devRef .tc main_arg1))) := by
  rw [val14, C1_v113, val13_v103, val13_arg6, val13_v3, val13_v29] <;> rfl

/-- The contents after the first 15 stages (through `C2`). -/
def val15 : Valuation τ sig (Elt Ideal) := after C2 (val14 V)
theorem val15_keep (r : Ref sig .tc) (h : r ∉ C2_W) : val15 V (Proc.devRef .tc r) = val14 V (Proc.devRef .tc r) :=
  after_of_writes_sub C2 _ C2_writes h
theorem val15_arg0 : val15 V (Proc.devRef .tc main_arg0) = (V (Proc.devRef .tc main_arg0)) :=
  (val15_keep V main_arg0 (by decide)).trans (val14_arg0 V)
theorem val15_arg1 : val15 V (Proc.devRef .tc main_arg1) = (V (Proc.devRef .tc main_arg1)) :=
  (val15_keep V main_arg1 (by decide)).trans (val14_arg1 V)
theorem val15_arg2 : val15 V (Proc.devRef .tc main_arg2) = (V (Proc.devRef .tc main_arg2)) :=
  (val15_keep V main_arg2 (by decide)).trans (val14_arg2 V)
theorem val15_arg3 : val15 V (Proc.devRef .tc main_arg3) = (V (Proc.devRef .tc main_arg3)) :=
  (val15_keep V main_arg3 (by decide)).trans (val14_arg3 V)
theorem val15_arg4 : val15 V (Proc.devRef .tc main_arg4) = (V (Proc.devRef .tc main_arg4)) :=
  (val15_keep V main_arg4 (by decide)).trans (val14_arg4 V)
theorem val15_arg5 : val15 V (Proc.devRef .tc main_arg5) = (V (Proc.devRef .tc main_arg5)) :=
  (val15_keep V main_arg5 (by decide)).trans (val14_arg5 V)
theorem val15_arg6 : val15 V (Proc.devRef .tc main_arg6) = (V (Proc.devRef .tc main_arg6)) :=
  (val15_keep V main_arg6 (by decide)).trans (val14_arg6 V)
theorem val15_arg7 : val15 V (Proc.devRef .tc main_arg7) = (V (Proc.devRef .tc main_arg7)) :=
  (val15_keep V main_arg7 (by decide)).trans (val14_arg7 V)
theorem val15_arg8 : val15 V (Proc.devRef .tc main_arg8) = (V (Proc.devRef .tc main_arg8)) :=
  (val15_keep V main_arg8 (by decide)).trans (val14_arg8 V)
theorem val15_arg9 : val15 V (Proc.devRef .tc main_arg9) = (V (Proc.devRef .tc main_arg9)) :=
  (val15_keep V main_arg9 (by decide)).trans (val14_arg9 V)
theorem val15_arg10 : val15 V (Proc.devRef .tc main_arg10) = (V (Proc.devRef .tc main_arg10)) :=
  (val15_keep V main_arg10 (by decide)).trans (val14_arg10 V)
theorem val15_arg11 : val15 V (Proc.devRef .tc main_arg11) = (V (Proc.devRef .tc main_arg11)) :=
  (val15_keep V main_arg11 (by decide)).trans (val14_arg11 V)
theorem val15_v125 : val15 V (Proc.devRef .tc main_v125) = (outV (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))) := by
  rw [val15, C2_v125, val14_v113, val14_v6, val14_arg7] <;> rfl

/-! ## The whole program -/

/-- The fold over two lines one after the other is the fold over the second, from the fold over the first. -/
theorem after_cat : ∀ (l₁ l₂ : List (HloOp τ sig (Elt Ideal))) (U : Valuation τ sig (Elt Ideal)),
    after (l₁ ++ l₂) U = after l₂ (after l₁ U)
  | [], _, _ => rfl
  | op :: l₁, l₂, U => by rw [List.cons_append, after_cons, after_cons, after_cat l₁ l₂]

theorem after_ops : after RefRun.ops V = val15 V := by
  show after ((RefRun.ops0 ++ RefRun.ops1) ++ RefRun.ops2) V = _
  rw [ops0_eq, ops1_eq, ops2_eq]
  simp only [after_cat]
  rfl

/-- @main's result buffer after the program: the network's risk score of the twelve arguments' launch contents. -/
theorem out_eq : after RefRun.ops V (Proc.devRef .tc main_v125) = Cert.GcnSpec.outV (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_ops]; exact val15_v125 V

/-- The program leaves its argument 0 alone. -/
theorem arg_eq0 : after RefRun.ops V (Proc.devRef .tc main_arg0) = V (Proc.devRef .tc main_arg0) := by
  rw [after_ops]; exact val15_arg0 V

/-- The program leaves its argument 1 alone. -/
theorem arg_eq1 : after RefRun.ops V (Proc.devRef .tc main_arg1) = V (Proc.devRef .tc main_arg1) := by
  rw [after_ops]; exact val15_arg1 V

/-- The program leaves its argument 2 alone. -/
theorem arg_eq2 : after RefRun.ops V (Proc.devRef .tc main_arg2) = V (Proc.devRef .tc main_arg2) := by
  rw [after_ops]; exact val15_arg2 V

/-- The program leaves its argument 3 alone. -/
theorem arg_eq3 : after RefRun.ops V (Proc.devRef .tc main_arg3) = V (Proc.devRef .tc main_arg3) := by
  rw [after_ops]; exact val15_arg3 V

/-- The program leaves its argument 4 alone. -/
theorem arg_eq4 : after RefRun.ops V (Proc.devRef .tc main_arg4) = V (Proc.devRef .tc main_arg4) := by
  rw [after_ops]; exact val15_arg4 V

/-- The program leaves its argument 5 alone. -/
theorem arg_eq5 : after RefRun.ops V (Proc.devRef .tc main_arg5) = V (Proc.devRef .tc main_arg5) := by
  rw [after_ops]; exact val15_arg5 V

/-- The program leaves its argument 6 alone. -/
theorem arg_eq6 : after RefRun.ops V (Proc.devRef .tc main_arg6) = V (Proc.devRef .tc main_arg6) := by
  rw [after_ops]; exact val15_arg6 V

/-- The program leaves its argument 7 alone. -/
theorem arg_eq7 : after RefRun.ops V (Proc.devRef .tc main_arg7) = V (Proc.devRef .tc main_arg7) := by
  rw [after_ops]; exact val15_arg7 V

/-- The program leaves its argument 8 alone. -/
theorem arg_eq8 : after RefRun.ops V (Proc.devRef .tc main_arg8) = V (Proc.devRef .tc main_arg8) := by
  rw [after_ops]; exact val15_arg8 V

/-- The program leaves its argument 9 alone. -/
theorem arg_eq9 : after RefRun.ops V (Proc.devRef .tc main_arg9) = V (Proc.devRef .tc main_arg9) := by
  rw [after_ops]; exact val15_arg9 V

/-- The program leaves its argument 10 alone. -/
theorem arg_eq10 : after RefRun.ops V (Proc.devRef .tc main_arg10) = V (Proc.devRef .tc main_arg10) := by
  rw [after_ops]; exact val15_arg10 V

/-- The program leaves its argument 11 alone. -/
theorem arg_eq11 : after RefRun.ops V (Proc.devRef .tc main_arg11) = V (Proc.devRef .tc main_arg11) := by
  rw [after_ops]; exact val15_arg11 V

end Cert.ReferenceIdeal.RefValue

end
-- ==== Proof.lean ====
/-
  The certificate of the graph-convolution network kernel against its jnp reference, at the ideal instance.

  Both programs compute, from the node features x [100000, 6], the edge table e [2, 640000] and the layers' parameters,
  the same composition of whole-array operations (Proof/GcnSpec.lean, `outV`): the edge lists with self loops, the
  symmetric normalisation dis(src)·dis(dst), and three layers  m = h·W,  agg = scatter_add(gather(m, src)·norm, dst),
  the two hidden ones followed by bias, batch normalisation over the nodes, scale, shift and ReLU, the last by bias and the
  logistic function. The reference does all of it with host operations. The kernel does the edge lists, the degree, the
  gathers, the scatter-adds and the batch statistics with the SAME host operations, and the products, the scaling of the
  messages, the normalisation and the logistic in nine pipelined regions over blocks of 10000 rows; at the ideal
  instance each region's output array is the reference's whole-array operation of its input arrays (a block's matmul
  into a zero accumulator is the dot_general's finite sum; the pointwise bodies are the host's pointwise operations
  index by index; rsqrt and the logistic are one function on both sides), so no law of the extended reals beyond
  reindexing a finite sum is used and the precondition is never opened.

  `frame_*`: the two kernels' frames are the generated ones; the reference is a straight line of host operations
  (Proof/RefRun.lean). `preserves`: the ideal pass rewrote nothing. `algebraic`: the kernel's result buffer read back
  through @main's segments (Proof/KernelRun.lean, Proof/KernelStages.lean) and the reference's result read back through
  its operations (Proof/RefValue.lean) are both `outV` of the arguments.
-/
import proofs.«149244_j87471303950804_1_alg».proof.Defs
import proofs.«149244_j87471303950804_1_alg».proof.Proof.Gen.Kernel
import proofs.«149244_j87471303950804_1_alg».proof.Proof.Gen.Kernel.Frame
import proofs.«149244_j87471303950804_1_alg».proof.Proof.Gen.KernelIdeal
import proofs.«149244_j87471303950804_1_alg».proof.Proof.Gen.KernelIdeal.Frame
import proofs.«149244_j87471303950804_1_alg».proof.Proof.Gen.ReferenceIdeal
import proofs.«149244_j87471303950804_1_alg».proof.Proof.Gen.Pre_finite_inputs
import proofs.«149244_j87471303950804_1_alg».proof.Proof.GcnSpec
import proofs.«149244_j87471303950804_1_alg».proof.Proof.KernelRun
import proofs.«149244_j87471303950804_1_alg».proof.Proof.KernelStages
import proofs.«149244_j87471303950804_1_alg».proof.Proof.RefRun
import proofs.«149244_j87471303950804_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ

/-- The reference's run: a straight line of host operations, none of which writes an argument; its result buffer ends at
    the network's function of the arguments. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v125) = Cert.GcnSpec.outV (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)) :=
  (θ_run Cert.ReferenceIdeal.defs _ _).mono (fun r h c =>
    ⟨(h c _).trans (Cert.ReferenceIdeal.RefValue.out_eq _),
     (h c _).trans (Cert.ReferenceIdeal.RefValue.arg_eq0 _), (h c _).trans (Cert.ReferenceIdeal.RefValue.arg_eq1 _),
     (h c _).trans (Cert.ReferenceIdeal.RefValue.arg_eq2 _), (h c _).trans (Cert.ReferenceIdeal.RefValue.arg_eq3 _),
     (h c _).trans (Cert.ReferenceIdeal.RefValue.arg_eq4 _), (h c _).trans (Cert.ReferenceIdeal.RefValue.arg_eq5 _),
     (h c _).trans (Cert.ReferenceIdeal.RefValue.arg_eq6 _), (h c _).trans (Cert.ReferenceIdeal.RefValue.arg_eq7 _),
     (h c _).trans (Cert.ReferenceIdeal.RefValue.arg_eq8 _), (h c _).trans (Cert.ReferenceIdeal.RefValue.arg_eq9 _),
     (h c _).trans (Cert.ReferenceIdeal.RefValue.arg_eq10 _), (h c _).trans (Cert.ReferenceIdeal.RefValue.arg_eq11 _)⟩)
    (Cert.ReferenceIdeal.RefRun.run_main (F := Ideal) m ρ)

theorem frame_ri : Cert.frame_ReferenceIdeal := fun m ρ _ =>
  (θ_run Cert.ReferenceIdeal.defs _ _).mono (fun r h c => (h c).2) (ref_run m ρ)

/-- The ideal pass rewrote no operation. -/
theorem preserves : Cert.preserves_Kernel_KernelIdeal := trivial

/-- Both results are the network's function `outV` of the (agreeing) arguments. -/
theorem algebraic : Cert.algebraic_KernelIdeal_ReferenceIdeal := by
  intro m ρ m' ρ' _ hagree
  refine ⟨fun c => Cert.GcnSpec.outV (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).1.trans (Cert.KernelIdeal.Stages.result m ρ c), (h c).2⟩)
      (Cert.KernelIdeal.RunValue.run_valued m ρ)
  · refine (θ_run Cert.ReferenceIdeal.defs _ _).mono (fun r h c => ⟨(h c).1.trans ?_, (h c).2⟩) (ref_run m' ρ')
    obtain ⟨e0, e1, e2, e3, e4, e5, e6, e7, e8, e9, e10, e11⟩ := hagree c
    rw [e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
